-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x512 .f32) (main_arg1 : FVec F S50000x512 .f32) (main_arg2 : IVec S2x800000 32) (main_arg3 : IVec S2x800000 32) (main_arg4 : FVec F S512x256 .f32) (main_arg5 : FVec F S256 .f32) (main_arg6 : FVec F S256x256 .f32) (main_arg7 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩

abbrev nBuf : Space → Nat
  | .hbm => 110
  | .vmem => 68
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x800000, .i32⟩
  | .hbm, ⟨3, _⟩ => ⟨S2x800000, .i32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x1, .f32⟩
  | .hbm, ⟨24, _⟩ => ⟨S50000x256, .f32⟩
  | .hbm, ⟨25, _⟩ => ⟨S50000x256, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .bf16⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .bf16⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S1x800000, .i32⟩
  | .hbm, ⟨60, _⟩ => ⟨S800000, .i32⟩
  | .hbm, ⟨61, _⟩ => ⟨S1x800000, .i32⟩
  | .hbm, ⟨62, _⟩ => ⟨S800000, .i32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x1, .f32⟩
  | .hbm, ⟨75, _⟩ => ⟨S50000x256, .f32⟩
  | .hbm, ⟨76, _⟩ => ⟨S50000x256, .bf16⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x256, .bf16⟩
  | .hbm, ⟨86, _⟩ => ⟨S800000x256, .f32⟩
  | .hbm, ⟨87, _⟩ => ⟨S_, .f32⟩
  | .hbm, ⟨88, _⟩ => ⟨S50000x256, .f32⟩
  | .hbm, ⟨89, _⟩ => ⟨S800000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .bf16⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x256, .bf16⟩
  | .hbm, ⟨103, _⟩ => ⟨S800000x256, .f32⟩
  | .hbm, ⟨104, _⟩ => ⟨S_, .f32⟩
  | .hbm, ⟨105, _⟩ => ⟨S50000x256, .f32⟩
  | .hbm, ⟨106, _⟩ => ⟨S800000x1, .i32⟩
  | .hbm, ⟨107, _⟩ => ⟨S50000x256, .f32⟩
  | .hbm, ⟨108, _⟩ => ⟨S1x256, .f32⟩
  | .hbm, ⟨109, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S1x256, .f32⟩
  | .local _ .vmem, ⟨18, _⟩ => ⟨S256x256, .f32⟩
  | .local _ .vmem, ⟨19, _⟩ => ⟨S2000x256, .f32⟩
  | .local _ .vmem, ⟨20, _⟩ => ⟨S2000x256, .f32⟩
  | .local _ .vmem, ⟨21, _⟩ => ⟨S2000x256, .bf16⟩
  | .local _ .vmem, ⟨22, _⟩ => ⟨S2000x256, .bf16⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x512, .f32⟩
  | .local _ .vmem, ⟨35, _⟩ => ⟨S2000x512, .f32⟩
  | .local _ .vmem, ⟨36, _⟩ => ⟨S512x256, .f32⟩
  | .local _ .vmem, ⟨37, _⟩ => ⟨S2000x1, .f32⟩
  | .local _ .vmem, ⟨38, _⟩ => ⟨S2000x1, .f32⟩
  | .local _ .vmem, ⟨39, _⟩ => ⟨S2000x256, .f32⟩
  | .local _ .vmem, ⟨40, _⟩ => ⟨S2000x256, .f32⟩
  | .local _ .vmem, ⟨41, _⟩ => ⟨S2000x256, .bf16⟩
  | .local _ .vmem, ⟨42, _⟩ => ⟨S2000x256, .bf16⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x1, .f32⟩
  | .local _ .vmem, ⟨48, _⟩ => ⟨S2000x1, .f32⟩
  | .local _ .vmem, ⟨49, _⟩ => ⟨S2000x1, .f32⟩
  | .local _ .vmem, ⟨50, _⟩ => ⟨S2000x1, .f32⟩
  | .local _ .vmem, ⟨51, _⟩ => ⟨S1x256, .f32⟩
  | .local _ .vmem, ⟨52, _⟩ => ⟨S256x256, .f32⟩
  | .local _ .vmem, ⟨53, _⟩ => ⟨S2000x256, .f32⟩
  | .local _ .vmem, ⟨54, _⟩ => ⟨S2000x256, .f32⟩
  | .local _ .vmem, ⟨55, _⟩ => ⟨S2000x256, .bf16⟩
  | .local _ .vmem, ⟨56, _⟩ => ⟨S2000x256, .bf16⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x1, .f32⟩
  | .local _ .vmem, ⟨62, _⟩ => ⟨S2000x1, .f32⟩
  | .local _ .vmem, ⟨63, _⟩ => ⟨S2000x1, .f32⟩
  | .local _ .vmem, ⟨64, _⟩ => ⟨S2000x1, .f32⟩
  | .local _ .vmem, ⟨65, _⟩ => ⟨S1x256, .f32⟩
  | .local _ .vmem, ⟨66, _⟩ => ⟨S2000x256, .f32⟩
  | .local _ .vmem, ⟨67, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53_0 : Ref sig .tc := ⟨.hbm, 75, rfl⟩
abbrev main_v53_1 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66_0 : Ref sig .tc := ⟨.hbm, 92, rfl⟩
abbrev main_v66_1 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc4_stg7_0 : Ref sig .tc := ⟨.vmem, 55, rfl⟩
abbrev cc4_stg7_1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg2_1 : Ref sig .tc := ⟨.vmem, 62, rfl⟩
abbrev cc5_stg3_0 : Ref sig .tc := ⟨.vmem, 63, rfl⟩
abbrev cc5_stg3_1 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem3_1 : DmaSem sig := 50
abbrev cc4_sem4_0 : DmaSem sig := 51
abbrev cc4_sem5_0 : DmaSem sig := 52
abbrev cc4_sem6_0 : DmaSem sig := 53
abbrev cc4_sem6_1 : DmaSem sig := 54
abbrev cc4_sem7_0 : DmaSem sig := 55
abbrev cc4_sem7_1 : DmaSem sig := 56
abbrev cc5_sem0_0 : DmaSem sig := 57
abbrev cc5_sem0_1 : DmaSem sig := 58
abbrev cc5_sem1_0 : DmaSem sig := 59
abbrev cc5_sem1_1 : DmaSem sig := 60
abbrev cc5_sem2_0 : DmaSem sig := 61
abbrev cc5_sem2_1 : DmaSem sig := 62
abbrev cc5_sem3_0 : DmaSem sig := 63
abbrev cc5_sem3_1 : DmaSem sig := 64
abbrev cc5_sem4_0 : DmaSem sig := 65
abbrev cc5_sem5_0 : DmaSem sig := 66
abbrev cc5_sem5_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .bf16 = 32 ∨ (Rect.block (s := S50000x256) S2000x256.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .bf16 = 32 ∨ (Rect.block (s := S50000x256) S2000x256.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S50000x256.size a
  hwx4_7 : ∀ i : grid4.Coords, EltTy.bits .bf16 = 32 ∨ (Rect.block (s := S50000x256) S2000x256.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S50000x1.size a
  hwx5_3 : ∀ i : grid5.Coords, EltTy.bits .f32 = 32 ∨ (Rect.block (s := S50000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S2000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg1) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53_0) S2000x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v53_1) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53_0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v52) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg6) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66_0) S2000x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v66_1) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v77) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66_0) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v52) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 246
  | .vmem => 0
  | .smem => 0
  | _ => 0

abbrev hbmTy0_0 (i : Nat) : BufTy := match i % 128 with
  | 0 => ⟨S50000x512, .f32⟩
  | 1 => ⟨S50000x512, .f32⟩
  | 2 => ⟨S2x800000, .i32⟩
  | 3 => ⟨S2x800000, .i32⟩
  | 4 => ⟨S512x256, .f32⟩
  | 5 => ⟨S256, .f32⟩
  | 6 => ⟨S256x256, .f32⟩
  | 7 => ⟨S256, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x256, .f32⟩
  | 51 => ⟨S800000x1, .f32⟩
  | 52 => ⟨S800000x256, .f32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S_, .f32⟩
  | 59 => ⟨S50000, .f32⟩
  | 60 => ⟨S50000, .f32⟩
  | 61 => ⟨S50000x1, .f32⟩
  | 62 => ⟨S50000x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x256, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x256, .f32⟩
  | 110 => ⟨S800000x1, .f32⟩
  | 111 => ⟨S800000x256, .f32⟩
  | 112 => ⟨S800000x256, .f32⟩
  | 113 => ⟨S_, .f32⟩
  | 114 => ⟨S50000x256, .f32⟩
  | 115 => ⟨S800000x1, .i32⟩
  | 116 => ⟨S50000x256, .f32⟩
  | 117 => ⟨S_, .f32⟩
  | 118 => ⟨S50000, .f32⟩
  | 119 => ⟨S50000, .f32⟩
  | 120 => ⟨S50000x1, .f32⟩
  | 121 => ⟨S50000x256, .f32⟩
  | 122 => ⟨S50000x256, .f32⟩
  | 123 => ⟨S50000x256, .f32⟩
  | 124 => ⟨S1x256, .f32⟩
  | 125 => ⟨S50000x256, .f32⟩
  | 126 => ⟨S50000x256, .f32⟩
  | 127 => ⟨S1x800000, .i32⟩
  | _ => ⟨S50000x512, .f32⟩

abbrev hbmTy0_1 (i : Nat) : BufTy := match i % 128 with
  | 0 => ⟨S800000, .i32⟩
  | 1 => ⟨S1x800000, .i32⟩
  | 2 => ⟨S800000, .i32⟩
  | 3 => ⟨S50000x256, .f32⟩
  | 4 => ⟨S_, .f32⟩
  | 5 => ⟨S800000, .f32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S50000, .f32⟩
  | 13 => ⟨S50000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x256, .f32⟩
  | 42 => ⟨S800000x1, .f32⟩
  | 43 => ⟨S800000x256, .f32⟩
  | 44 => ⟨S800000x256, .f32⟩
  | 45 => ⟨S_, .f32⟩
  | 46 => ⟨S50000x256, .f32⟩
  | 47 => ⟨S800000x1, .i32⟩
  | 48 => ⟨S50000x256, .f32⟩
  | 49 => ⟨S_, .f32⟩
  | 50 => ⟨S50000, .f32⟩
  | 51 => ⟨S50000, .f32⟩
  | 52 => ⟨S50000x1, .f32⟩
  | 53 => ⟨S50000x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x256, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x256, .f32⟩
  | 101 => ⟨S800000x1, .f32⟩
  | 102 => ⟨S800000x256, .f32⟩
  | 103 => ⟨S800000x256, .f32⟩
  | 104 => ⟨S_, .f32⟩
  | 105 => ⟨S50000x256, .f32⟩
  | 106 => ⟨S800000x1, .i32⟩
  | 107 => ⟨S50000x256, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_23 : Ref sig .tc := ⟨.hbm, 142, rfl⟩
abbrev main_v107 : Ref sig .tc := ⟨.hbm, 143, rfl⟩
abbrev main_v108 : Ref sig .tc := ⟨.hbm, 144, rfl⟩
abbrev main_c_24 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_25 : Ref sig .tc := ⟨.hbm, 151, rfl⟩
abbrev main_v114 : Ref sig .tc := ⟨.hbm, 152, rfl⟩
abbrev main_v115 : Ref sig .tc := ⟨.hbm, 153, rfl⟩
abbrev main_c_26 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_27 : Ref sig .tc := ⟨.hbm, 161, rfl⟩
abbrev main_v122 : Ref sig .tc := ⟨.hbm, 162, rfl⟩
abbrev main_v123 : Ref sig .tc := ⟨.hbm, 163, rfl⟩
abbrev main_c_28 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_29 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_30 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_call1_cst : Ref sig .tc := ⟨.hbm, 187, rfl⟩
abbrev main_call1_v0 : Ref sig .tc := ⟨.hbm, 188, rfl⟩
abbrev main_v144 : Ref sig .tc := ⟨.hbm, 189, rfl⟩
abbrev main_v145 : Ref sig .tc := ⟨.hbm, 190, rfl⟩
abbrev main_cst_31 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_33 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_34 : Ref sig .tc := ⟨.hbm, 201, rfl⟩
abbrev main_v153 : Ref sig .tc := ⟨.hbm, 202, rfl⟩
abbrev main_v154 : Ref sig .tc := ⟨.hbm, 203, rfl⟩
abbrev main_c_35 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_c_36 : Ref sig .tc := ⟨.hbm, 210, rfl⟩
abbrev main_v160 : Ref sig .tc := ⟨.hbm, 211, rfl⟩
abbrev main_v161 : Ref sig .tc := ⟨.hbm, 212, rfl⟩
abbrev main_c_37 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_c_38 : Ref sig .tc := ⟨.hbm, 220, rfl⟩
abbrev main_v168 : Ref sig .tc := ⟨.hbm, 221, rfl⟩
abbrev main_v169 : Ref sig .tc := ⟨.hbm, 222, rfl⟩
abbrev main_c_39 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_40 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_41 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KerRun.lean ====
/-
  The idealized kernel's run with every long-lived buffer named at the end.

  The program is six kernel regions among stretches of host operations. Its run ends, on every core, with each buffer
  that outlives the regions holding the contents the last boundary of the fold through the program gives it; the two
  results and the eight arguments are among those buffers.
-/
import proofs.«179631_j7301444403487_2_alg».proof.Proof.Gen.KernelIdeal.Frame

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each core's two
    result buffers hold what the last boundary of the fold holds there, the arguments what they were launched with. -/
theorem run_results : θ_run defs (onTc (τ := τ) (main (F := F))) ⟨m, fun _ => 0, ρ⟩ (fun r => ∀ c : Dev nD,
      r.2.mem ((c.tc : Thread nD τ).loc main_v39) = W12 m ρ c (Proc.devRef .tc main_v39)
      ∧ r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v39 (by decide)),
       h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KerRun

end
-- ==== Proof.LibRows.lean ====
/-
  Row-wise gathers and the accumulating row scatter, read at an index given by coordinates.

  A table of rows `[M, b]` gathered at a column of positions `[n, 1]` gives `[n, b]`: entry `(j, q)` is the table's
  entry of column `q` in the row the position of `j` names, the position read as a signed integer and clamped into
  the table. The same for a vector `[M]` gathered into `[n]`. The accumulating scatter of rows `[n, b]` at a column
  of positions into a table `[M, b]` adds, to entry `(i, q)`, the entries of column `q` of every row whose position,
  read signed and NOT clamped, is `i`; a row positioned outside the table is added nowhere.
  Also here: the normalisation of possibly negative positions (a negative one counts from the end), a trailing
  padding and a leading slice of a vector, each read at a coordinate.
-/
import Idealize.ShloMosaic.Lib.ValueIdx
import Idealize.ShloMosaic.Lib.ValueLayout
import Idealize.ShloMosaic.Lib.Pipeline.Value
import Idealize.ShloMosaic.PureOps.Ideal.Laws

namespace Cert.Rows

open Idealize.ShloMosaic Idealize.ShloMosaic.ValueIdx

variable {α : Type}

/-! ## Positions -/

/-- A position that may be negative, normalised: a negative one has the extent of the axis, `lim` added. -/
def wrap (x lim : BitVec 32) : BitVec 32 := Scalar.select (IntOp.cmpi .slt x 0#32) (IntOp.addi x lim) x

/-- The row of a table of `M` rows a position names: read signed, clamped into `[0, M - 1]`. -/
def rowOf (M : ℕ) (hM : 0 < M) (x : BitVec 32) : Fin M := ⟨min x.toInt.toNat (M - 1), by omega⟩

/-- The column of normalised positions built from a vector of positions, read at row `j`. -/
theorem wrapCol_apply {n : ℕ} (a : IVec (⟨1, ![n]⟩ : Shape) 32) (lim : BitVec 32)
    (hb0 : (⟨0, ![]⟩ : Shape).BroadcastsInDim (⟨1, ![n]⟩ : Shape) ![])
    (hb1 : (⟨1, ![n]⟩ : Shape).BroadcastsInDim (⟨2, ![n, 1]⟩ : Shape) ![0]) (j : Fin n) (u : Fin 1) :
    broadcastInDim (⟨2, ![n, 1]⟩ : Shape) ![0] hb1
        (select (cmpi .slt a (broadcastInDim (⟨1, ![n]⟩ : Shape) ![] hb0 (constantI (⟨0, ![]⟩ : Shape) 32 0#32)))
          (addi a (broadcastInDim (⟨1, ![n]⟩ : Shape) ![] hb0 (constantI (⟨0, ![]⟩ : Shape) 32 lim))) a) (ix2 j u)
      = wrap (a (ix1 j)) lim := by
  refine (broadcastInDim_apply _ hb1 _ (ix2 j u) (ix1 j) (fun ax => ?_)).trans ?_
  · match ax with
    | ⟨0, _⟩ =>
      show j.val = if n = 1 then 0 else j.val
      split
      · have := j.isLt; omega
      · rfl
  · rfl

/-- A plain column of positions built from a vector, read at row `j`. -/
theorem col_apply {n : ℕ} (a : (⟨1, ![n]⟩ : Shape).Idx → α)
    (hb1 : (⟨1, ![n]⟩ : Shape).BroadcastsInDim (⟨2, ![n, 1]⟩ : Shape) ![0]) (j : Fin n) (u : Fin 1) :
    broadcastInDim (⟨2, ![n, 1]⟩ : Shape) ![0] hb1 a (ix2 j u) = a (ix1 j) := by
  refine broadcastInDim_apply _ hb1 _ (ix2 j u) (ix1 j) (fun ax => ?_)
  match ax with
  | ⟨0, _⟩ =>
    show j.val = if n = 1 then 0 else j.val
    split
    · have := j.isLt; omega
    · rfl

/-! ## Gathers -/

/-- The dimension numbers of a row gather: table `[M, b]`, positions `[n, 1]`, result `[n, b]`. -/
abbrev rowsDims (M n b : ℕ)
    (wf : GatherDims.WF (⟨2, ![M, b]⟩ : Shape) (⟨2, ![n, 1]⟩ : Shape) (⟨2, ![n, b]⟩ : Shape) [1] [0] [] [0] [] 1 ![1, b]) :
    GatherDims (⟨2, ![M, b]⟩ : Shape) (⟨2, ![n, 1]⟩ : Shape) (⟨2, ![n, b]⟩ : Shape) where
  offsetDims := [1]
  collapsedSliceDims := [0]
  operandBatchingDims := []
  startIndicesBatchingDims := []
  startIndexMap := [0]
  indexVectorDim := 1
  sliceSizes := ![1, b]
  wf := wf

/-- The row gather at `(j, q)`: column `q` of the row that position `j` names. -/
theorem gatherRows_apply {M n b w : ℕ} (hM : 0 < M)
    (wf : GatherDims.WF (⟨2, ![M, b]⟩ : Shape) (⟨2, ![n, 1]⟩ : Shape) (⟨2, ![n, b]⟩ : Shape) [1] [0] [] [0] [] 1 ![1, b])
    (x : (⟨2, ![M, b]⟩ : Shape).Idx → α) (idx : IVec (⟨2, ![n, 1]⟩ : Shape) w) (j : Fin n) (q : Fin b) :
    Host.gather (rowsDims M n b wf) x idx (ix2 j q)
      = x (ix2 (⟨min (idx (ix2 j (0 : Fin 1))).toInt.toNat (M - 1), by omega⟩ : Fin M) q) := by
  unfold Host.gather
  congr 1
  funext a
  refine Fin.ext ?_
  show (rowsDims M n b wf).start (ix2 j q) idx a + (rowsDims M n b wf).batchCoord (ix2 j q) a
      + (rowsDims M n b wf).offCoord (ix2 j q) a = _
  rw [GatherDims.batchCoord_eq_zero _ _ _ List.not_mem_nil]
  have h0 : (rowsDims M n b wf).start (ix2 j q) idx (0 : Fin 2) + 0 + (rowsDims M n b wf).offCoord (ix2 j q) (0 : Fin 2)
      = min (idx (ix2 j (0 : Fin 1))).toInt.toNat (M - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims M n b wf).startIndexMap from List.mem_singleton.mpr rfl)]
    have hsi : (rowsDims M n b wf).siIdx (ix2 j q) ⟨List.idxOf (0 : Fin 2) (rowsDims M n b wf).startIndexMap,
        List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    rfl
  have h1 : (rowsDims M n b wf).start (ix2 j q) idx (1 : Fin 2) + 0 + (rowsDims M n b wf).offCoord (ix2 j q) (1 : Fin 2)
      = q.val := by
    have hs : (rowsDims M n b wf).start (ix2 j q) idx (1 : Fin 2) = 0 := by
      unfold GatherDims.start
      rw [dif_neg (by simp)]
    have ho : (rowsDims M n b wf).offCoord (ix2 j q) (1 : Fin 2) = q.val := by
      unfold GatherDims.offCoord
      rw [dif_pos (by simp [GatherDims.sKept, Shape.kept])]
      rfl
    rw [hs, ho]; omega
  match a with
  | ⟨0, _⟩ => exact h0
  | ⟨1, _⟩ => exact h1

/-- The dimension numbers of a gather of a vector: `[M]` at positions `[n, 1]` into `[n]`. -/
abbrev vecDims (M n : ℕ)
    (wf : GatherDims.WF (⟨1, ![M]⟩ : Shape) (⟨2, ![n, 1]⟩ : Shape) (⟨1, ![n]⟩ : Shape) [] [0] [] [0] [] 1 ![1]) :
    GatherDims (⟨1, ![M]⟩ : Shape) (⟨2, ![n, 1]⟩ : Shape) (⟨1, ![n]⟩ : Shape) where
  offsetDims := []
  collapsedSliceDims := [0]
  operandBatchingDims := []
  startIndicesBatchingDims := []
  startIndexMap := [0]
  indexVectorDim := 1
  sliceSizes := ![1]
  wf := wf

/-- The vector gather at `j`: the entry that position `j` names. -/
theorem gatherVec_apply {M n w : ℕ} (hM : 0 < M)
    (wf : GatherDims.WF (⟨1, ![M]⟩ : Shape) (⟨2, ![n, 1]⟩ : Shape) (⟨1, ![n]⟩ : Shape) [] [0] [] [0] [] 1 ![1])
    (x : (⟨1, ![M]⟩ : Shape).Idx → α) (idx : IVec (⟨2, ![n, 1]⟩ : Shape) w) (j : Fin n) :
    Host.gather (vecDims M n wf) x idx (ix1 j)
      = x (ix1 (⟨min (idx (ix2 j (0 : Fin 1))).toInt.toNat (M - 1), by omega⟩ : Fin M)) := by
  unfold Host.gather
  congr 1
  funext a
  obtain rfl : a = 0 := Subsingleton.elim _ _
  refine Fin.ext ?_
  show (vecDims M n wf).start (ix1 j) idx 0 + (vecDims M n wf).batchCoord (ix1 j) 0 + (vecDims M n wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims M n wf).startIndexMap from List.mem_singleton.mpr rfl)]
  have hsi : (vecDims M n wf).siIdx (ix1 j) ⟨List.idxOf (0 : Fin 1) (vecDims M n wf).startIndexMap,
      List.idxOf_lt_length_iff.2 (List.mem_singleton.mpr rfl)⟩ = ix2 j (0 : Fin 1) := by
    funext c; refine Fin.ext ?_
    match c with
    | ⟨0, _⟩ => rfl
    | ⟨1, _⟩ => rfl
  rw [hsi]
  rfl

end Cert.Rows
-- ==== Proof.Spec.lean ====
/-
  Two layers of symmetric-normalised graph convolution over 50000 nodes and 800000 edges, entry by entry on the extended reals.

  An edge `e` has a source position `src e` and a target position `dst e`, both 32-bit words that may name no node. A message
  is read at the row its source names once a negative position has had the node count added and the result has been
  clamped into the table (`row`); it arrives at node `i` exactly when its target word, read signed, is `i`. A node's
  degree counts the arriving edges plus one for the node itself, and its factor `dinv` is the reciprocal square root of the degree.

  One form of a layer (`refConv`) scales every message by the factors of both ends, adds the arrivals, and adds the node's
  own row over its degree; the other (`kerConv`) scales a message by its source's factor only, adds the arrivals, scales
  the total by the node's factor, and adds the node's own row times the square of the factor.
-/
import Idealize.ShloMosaic.PureOps.Ideal
import proofs.«179631_j7301444403487_2_alg».proof.Proof.LibRows

noncomputable section

namespace Cert.GcnSpec

open Idealize.ShloMosaic
open scoped BigOperators

/-- The value of the word of `+0.0`. -/
abbrev z : EReal := Ideal.ofBits .f32 0x00000000#32
/-- The value of the word of `1.0`. -/
abbrev one : EReal := Ideal.ofBits .f32 0x3F800000#32

/-- The row of the node table a position names: the node count added to a negative one, then clamped into the table. -/
def row (v : BitVec 32) : Fin 50000 := Cert.Rows.rowOf 50000 (by decide) (Cert.Rows.wrap v 50000#32)

/-- A node's degree: the edges whose target word, read signed, is the node, plus one. -/
def deg (dst : Fin 800000 → BitVec 32) (i : Fin 50000) : EReal :=
  (z + ∑ e : Fin 800000, if (dst e).toInt = (i.val : ℤ) then one else 0) + one

/-- A node's normalising factor. -/
def dinv (dst : Fin 800000 → BitVec 32) (i : Fin 50000) : EReal := Ideal.rsqrt (deg dst i)

/-- A layer with every message scaled by both ends' factors and the node's own row divided by its degree. -/
def refConv (src dst : Fin 800000 → BitVec 32) (h : Fin 50000 → Fin 256 → EReal) (b : Fin 256 → EReal)
    (i : Fin 50000) (q : Fin 256) : EReal :=
  ((z + ∑ e : Fin 800000, if (dst e).toInt = (i.val : ℤ) then
        h (row (src e)) q * (dinv dst (row (src e)) * dinv dst (row (dst e))) else 0)
    + h i q * Ideal.div one (deg dst i)) + b q

/-- A layer with every message scaled by its source's factor, the total by the node's, and the node's own row by the
    square of the node's factor. -/
def kerConv (src dst : Fin 800000 → BitVec 32) (h : Fin 50000 → Fin 256 → EReal) (b : Fin 256 → EReal)
    (i : Fin 50000) (q : Fin 256) : EReal :=
  (dinv dst i * (z + ∑ e : Fin 800000, if (dst e).toInt = (i.val : ℤ) then
        h (row (src e)) q * dinv dst (row (src e)) else 0)
    + h i q * (dinv dst i * dinv dst i)) + b q

/-- A matrix product, entry by entry. -/
def mm {K : ℕ} (X : Fin 50000 → Fin K → EReal) (W : Fin K → Fin 256 → EReal) (i : Fin 50000) (q : Fin 256) : EReal :=
  ∑ k : Fin K, X i k * W k q

/-- The positive part. -/
def relu (x : EReal) : EReal := max x z

/-- Two layers with the positive part between them, for either form `conv` of a layer. -/
def twoLayers (conv : (Fin 50000 → Fin 256 → EReal) → (Fin 256 → EReal) → Fin 50000 → Fin 256 → EReal)
    (x : Fin 50000 → Fin 512 → EReal) (W1 : Fin 512 → Fin 256 → EReal) (b1 : Fin 256 → EReal)
    (W2 : Fin 256 → Fin 256 → EReal) (b2 : Fin 256 → EReal) : Fin 50000 → Fin 256 → EReal :=
  conv (mm (fun i k => relu (conv (mm x W1) b1 i k)) W2) b2

end Cert.GcnSpec

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Payloads.lean ====
/-
  The blocks the kernel bodies compute, read entry by entry on the extended reals.

  Each body works on a block of 2000 rows. The first multiplies the block of features by the weight matrix and also
  keeps the product with every row scaled by the row's factor. The second forms a block of the first layer's result —
  the row's factor times the gathered total, plus the row's own product times the square of the factor, plus the bias —
  takes its positive part, multiplies by the second weight matrix, and again keeps the product with every row scaled.
  The third forms a block of the second layer's result in the same way. Narrowing to sixteen bits and widening back are
  the identity on the extended reals; a matrix product accumulated into the zero block is the sum over the contracted
  coordinate of the products of the entries. The bodies of the second view are the same functions.
-/
import proofs.«179631_j7301444403487_2_alg».proof.Proof.Gen.KernelIdeal.Skeleton
import proofs.«179631_j7301444403487_2_alg».proof.Proof.Spec
import proofs.«179631_j7301444403487_2_alg».proof.Proof.LibMatmulIx
import proofs.«179631_j7301444403487_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KerPay

open Idealize.ShloMosaic Idealize.ShloMosaic.ValueIdx
open Cert.KernelIdeal Cert.KernelIdeal.Gen
open scoped BigOperators

/-! ## The two contractions: the left operand's columns against the right operand's rows -/

theorem dotX_l0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl
theorem dotX_l1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem dotX_r0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem dotX_r1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

theorem dotH_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem dotH_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem dotH_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem dotH_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a `[2000, 512]` block with a `[512, 256]` matrix into the zero block, at `(p, q)`. -/
theorem matmulX_apply {φ₁ φ₂ : FTy} (x : FVec Ideal S2000x512 φ₁) (w : FVec Ideal S512x256 φ₂) (p : Fin 2000) (q : Fin 256) :
    matmul dot_S2000x512_S512x256_S2000x256_1_0_0_1_n_n none x w (constant (F := Ideal) S2000x256 .f32 0x00000000#32) (ix2 p q)
      = ∑ k : Fin 512, x (ix2 p k) * w (ix2 k q) :=
  MatmulIx.matmul_zero_ix2 dot_S2000x512_S512x256_S2000x256_1_0_0_1_n_n rfl rfl dotX_l0 dotX_l1 dotX_r0 dotX_r1 none x w p q

/-- The product of a `[2000, 256]` block with a `[256, 256]` matrix into the zero block, at `(p, q)`. -/
theorem matmulH_apply {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) :=
  MatmulIx.matmul_zero_ix2 dot_S2000x256_S256x256_S2000x256_1_0_0_1_n_n rfl rfl dotH_l0 dotH_l1 dotH_r0 dotH_r1 none x w p q

/-! ## The first view -/

/-- The feature block times the weight matrix, at `(p, q)`. -/
theorem k0_pay1_apply (v0 : Vec Ideal S2000x512 .f32) (v2 : Vec Ideal S512x256 .f32) (p : Fin 2000) (q : Fin 256) :
    k0_pay1 (F := Ideal) v0 v2 (ix2 p q) = ∑ k : Fin 512, v0 (ix2 p k) * v2 (ix2 k q) := by
  unfold k0_pay1
  exact matmulX_apply _ _ p q

/-- The same product with every row scaled by the row's factor. -/
theorem k0_pay2_apply (v0 : Vec Ideal S2000x512 .f32) (v2 : Vec Ideal S512x256 .f32) (v6 : Vec Ideal S2000x1 .f32)
    (p : Fin 2000) (q : Fin 256) :
    k0_pay2 (F := Ideal) v0 v2 v6 (ix2 p q)
      = (∑ k : Fin 512, v0 (ix2 p k) * v2 (ix2 k q)) * v6 (ix2 p (0 : Fin 1)) := by
  unfold k0_pay2
  simp only [truncf_apply, mulf_apply, shapeCast_self, Cert.Attn.Layout.broadcastTo_a1_ab_apply, k0_pay1_apply]

/-- A block of a layer's result: the scaled total plus the scaled own row plus the bias, at `(p, q)`. -/
theorem k2_pay1_apply (v0 : Vec Ideal S2000x1 .f32) (v2 v6 : Vec Ideal S2000x256 .f32) (v8 : Vec Ideal S2000x1 .f32)
    (v13 : Vec Ideal S1x256 .f32) (p : Fin 2000) (q : Fin 256) :
    k2_pay1 (F := Ideal) v0 v2 v6 v8 v13 (ix2 p q)
      = (v0 (ix2 p (0 : Fin 1)) * v2 (ix2 p q) + v6 (ix2 p q) * v8 (ix2 p (0 : Fin 1))) + v13 (ix2 (0 : Fin 1) q) := by
  unfold k2_pay1
  simp only [addf_apply, mulf_apply, shapeCast_self, Cert.Attn.Layout.broadcastTo_a1_ab_apply, broadcastTo_1b_ab_apply]

/-- The positive part of a block of the first layer's result times the second weight matrix, at `(p, q)`. -/
theorem k1_pay1_apply (v0 : Vec Ideal S2000x1 .f32) (v2 v6 : Vec Ideal S2000x256 .f32) (v8 : Vec Ideal S2000x1 .f32)
    (v13 : Vec Ideal S1x256 .f32) (v20 : Vec Ideal S256x256 .f32) (p : Fin 2000) (q : Fin 256) :
    k1_pay1 (F := Ideal) v0 v2 v6 v8 v13 v20 (ix2 p q)
      = ∑ k : Fin 256, max ((v0 (ix2 p (0 : Fin 1)) * v2 (ix2 p k) + v6 (ix2 p k) * v8 (ix2 p (0 : Fin 1)))
          + v13 (ix2 (0 : Fin 1) k)) Cert.GcnSpec.z * v20 (ix2 k q) := by
  unfold k1_pay1
  refine (matmulH_apply _ _ p q).trans ?_
  refine Finset.sum_congr rfl fun k _ => ?_
  simp only [truncf_apply, maximumf_apply, addf_apply, mulf_apply, broadcast_apply, shapeCast_self,
    Cert.Attn.Layout.broadcastTo_a1_ab_apply, broadcastTo_1b_ab_apply]
  rfl

/-- The same product with every row scaled by the row's factor. -/
theorem k1_pay2_apply (v0 : Vec Ideal S2000x1 .f32) (v2 v6 : Vec Ideal S2000x256 .f32) (v8 : Vec Ideal S2000x1 .f32)
    (v13 : Vec Ideal S1x256 .f32) (v20 : Vec Ideal S256x256 .f32) (v24 : Vec Ideal S2000x1 .f32) (p : Fin 2000) (q : Fin 256) :
    k1_pay2 (F := Ideal) v0 v2 v6 v8 v13 v20 v24 (ix2 p q)
      = (∑ k : Fin 256, max ((v0 (ix2 p (0 : Fin 1)) * v2 (ix2 p k) + v6 (ix2 p k) * v8 (ix2 p (0 : Fin 1)))
          + v13 (ix2 (0 : Fin 1) k)) Cert.GcnSpec.z * v20 (ix2 k q)) * v24 (ix2 p (0 : Fin 1)) := by
  unfold k1_pay2
  simp only [truncf_apply, mulf_apply, shapeCast_self, Cert.Attn.Layout.broadcastTo_a1_ab_apply, k1_pay1_apply]

/-! ## The second view: the same bodies -/

theorem k3_pay1_eq : @k3_pay1 Ideal _ = @k0_pay1 Ideal _ := rfl
theorem k3_pay2_eq : @k3_pay2 Ideal _ = @k0_pay2 Ideal _ := rfl
theorem k4_pay1_eq : @k4_pay1 Ideal _ = @k1_pay1 Ideal _ := rfl
theorem k4_pay2_eq : @k4_pay2 Ideal _ = @k1_pay2 Ideal _ := rfl
theorem k5_pay1_eq : @k5_pay1 Ideal _ = @k2_pay1 Ideal _ := rfl

/-- The feature block times the weight matrix, at `(p, q)`. -/
theorem k3_pay1_apply (v0 : Vec Ideal S2000x512 .f32) (v2 : Vec Ideal S512x256 .f32) (p : Fin 2000) (q : Fin 256) :
    k3_pay1 (F := Ideal) v0 v2 (ix2 p q) = ∑ k : Fin 512, v0 (ix2 p k) * v2 (ix2 k q) :=
  (congrFun (congrFun (congrFun k3_pay1_eq v0) v2) (ix2 p q)).trans (k0_pay1_apply v0 v2 p q)

/-- The same product with every row scaled by the row's factor. -/
theorem k3_pay2_apply (v0 : Vec Ideal S2000x512 .f32) (v2 : Vec Ideal S512x256 .f32) (v6 : Vec Ideal S2000x1 .f32)
    (p : Fin 2000) (q : Fin 256) :
    k3_pay2 (F := Ideal) v0 v2 v6 (ix2 p q)
      = (∑ k : Fin 512, v0 (ix2 p k) * v2 (ix2 k q)) * v6 (ix2 p (0 : Fin 1)) :=
  (congrFun (congrFun (congrFun (congrFun k3_pay2_eq v0) v2) v6) (ix2 p q)).trans (k0_pay2_apply v0 v2 v6 p q)

/-- The positive part of a block of the first layer's result times the second weight matrix, at `(p, q)`. -/
theorem k4_pay1_apply (v0 : Vec Ideal S2000x1 .f32) (v2 v6 : Vec Ideal S2000x256 .f32) (v8 : Vec Ideal S2000x1 .f32)
    (v13 : Vec Ideal S1x256 .f32) (v20 : Vec Ideal S256x256 .f32) (p : Fin 2000) (q : Fin 256) :
    k4_pay1 (F := Ideal) v0 v2 v6 v8 v13 v20 (ix2 p q)
      = ∑ k : Fin 256, max ((v0 (ix2 p (0 : Fin 1)) * v2 (ix2 p k) + v6 (ix2 p k) * v8 (ix2 p (0 : Fin 1)))
          + v13 (ix2 (0 : Fin 1) k)) Cert.GcnSpec.z * v20 (ix2 k q) := by
  rw [k4_pay1_eq]
  exact k1_pay1_apply v0 v2 v6 v8 v13 v20 p q

/-- The same product with every row scaled by the row's factor. -/
theorem k4_pay2_apply (v0 : Vec Ideal S2000x1 .f32) (v2 v6 : Vec Ideal S2000x256 .f32) (v8 : Vec Ideal S2000x1 .f32)
    (v13 : Vec Ideal S1x256 .f32) (v20 : Vec Ideal S256x256 .f32) (v24 : Vec Ideal S2000x1 .f32) (p : Fin 2000) (q : Fin 256) :
    k4_pay2 (F := Ideal) v0 v2 v6 v8 v13 v20 v24 (ix2 p q)
      = (∑ k : Fin 256, max ((v0 (ix2 p (0 : Fin 1)) * v2 (ix2 p k) + v6 (ix2 p k) * v8 (ix2 p (0 : Fin 1)))
          + v13 (ix2 (0 : Fin 1) k)) Cert.GcnSpec.z * v20 (ix2 k q)) * v24 (ix2 p (0 : Fin 1)) := by
  rw [k4_pay2_eq]
  exact k1_pay2_apply v0 v2 v6 v8 v13 v20 v24 p q

/-- A block of a layer's result: the scaled total plus the scaled own row plus the bias, at `(p, q)`. -/
theorem k5_pay1_apply (v0 : Vec Ideal S2000x1 .f32) (v2 v6 : Vec Ideal S2000x256 .f32) (v8 : Vec Ideal S2000x1 .f32)
    (v13 : Vec Ideal S1x256 .f32) (p : Fin 2000) (q : Fin 256) :
    k5_pay1 (F := Ideal) v0 v2 v6 v8 v13 (ix2 p q)
      = (v0 (ix2 p (0 : Fin 1)) * v2 (ix2 p q) + v6 (ix2 p q) * v8 (ix2 p (0 : Fin 1))) + v13 (ix2 (0 : Fin 1) q) := by
  rw [k5_pay1_eq]
  exact k2_pay1_apply v0 v2 v6 v8 v13 p q

end Cert.KerPay

end
-- ==== Proof.KerArrays.lean ====
/-
  What the three kernels of a view compute, as whole arrays.

  Every array here has one row per node (50000 rows). The first kernel multiplies the node features by a weight matrix
  (`proj`) and also scales each row by its node's factor (`projScaled`). The second combines, row by row, the arrivals
  scaled by the node's factor, the node's own row times the squared factor and a bias, takes the positive part (`act`),
  multiplies by the second weight matrix (`proj2`) and scales again (`proj2Scaled`). The third is the same
  combination without the positive part (`combine`). An entry depends only on its own row of each operand.
-/
import proofs.«179631_j7301444403487_2_alg».proof.Proof.Gen.KernelIdeal
import proofs.«179631_j7301444403487_2_alg».proof.Proof.Spec
import Idealize.ShloMosaic.Lib.ValueIdx

noncomputable section

namespace Cert.KerReg

open Cert.KernelIdeal Idealize.ShloMosaic Idealize.ShloMosaic.ValueIdx
open scoped BigOperators

/-- The node an entry of a node-by-feature array belongs to. -/
def nodeOf (i : S50000x256.Idx) : Fin 50000 := ⟨(i 0).val, (i 0).isLt⟩
/-- The feature an entry of a node-by-feature array belongs to. -/
def featOf (i : S50000x256.Idx) : Fin 256 := ⟨(i 1).val, (i 1).isLt⟩

theorem nodeOf_ix2 (p : Fin 50000) (q : Fin 256) : nodeOf (ix2 p q) = p := rfl
theorem featOf_ix2 (p : Fin 50000) (q : Fin 256) : featOf (ix2 p q) = q := rfl

/-- Node features times a weight matrix, entry by entry. -/
def proj (X : S50000x512.Idx → EReal) (W : S512x256.Idx → EReal) : S50000x256.Idx → EReal :=
  fun i => ∑ k : Fin 512, X (ix2 (nodeOf i) k) * W (ix2 k (featOf i))

/-- The same product with every row scaled by its node's factor. -/
def projScaled (X : S50000x512.Idx → EReal) (W : S512x256.Idx → EReal) (D : S50000x1.Idx → EReal) : S50000x256.Idx → EReal :=
  fun i => proj X W i * D (ix2 (nodeOf i) (0 : Fin 1))

/-- A node's hidden feature: the positive part of the scaled arrivals plus the node's own scaled row plus the bias. -/
def act (AG H : S50000x256.Idx → EReal) (D ID : S50000x1.Idx → EReal) (B : S1x256.Idx → EReal) (n : Fin 50000) (k : Fin 256) : EReal :=
  max ((D (ix2 n (0 : Fin 1)) * AG (ix2 n k) + H (ix2 n k) * ID (ix2 n (0 : Fin 1))) + B (ix2 (0 : Fin 1) k)) Cert.GcnSpec.z

/-- The hidden features times the second weight matrix. -/
def proj2 (AG H : S50000x256.Idx → EReal) (D ID : S50000x1.Idx → EReal) (B : S1x256.Idx → EReal) (W : S256x256.Idx → EReal) :
    S50000x256.Idx → EReal :=
  fun i => ∑ k : Fin 256, act AG H D ID B (nodeOf i) k * W (ix2 k (featOf i))

/-- The same with every row scaled by its node's factor. -/
def proj2Scaled (AG H : S50000x256.Idx → EReal) (D ID : S50000x1.Idx → EReal) (B : S1x256.Idx → EReal) (W : S256x256.Idx → EReal) :
    S50000x256.Idx → EReal :=
  fun i => proj2 AG H D ID B W i * D (ix2 (nodeOf i) (0 : Fin 1))

/-- The last combination: scaled arrivals plus the node's own scaled row plus the bias. -/
def combine (AG H : S50000x256.Idx → EReal) (D ID : S50000x1.Idx → EReal) (B : S1x256.Idx → EReal) : S50000x256.Idx → EReal :=
  fun i => (D (ix2 (nodeOf i) (0 : Fin 1)) * AG (ix2 (nodeOf i) (featOf i)) + H (ix2 (nodeOf i) (featOf i)) * ID (ix2 (nodeOf i) (0 : Fin 1)))
    + B (ix2 (0 : Fin 1) (featOf i))

theorem hz : (![0, 0] : Fin 2 → Nat) = fun _ => 0 := funext fun a => by fin_cases a <;> rfl

end Cert.KerReg

end
-- ==== Proof.KerReg3.lean ====
/-
  The first kernel region of a view, as whole arrays.

  The region walks the 50000 node rows in 25 blocks of 2000. At a block it multiplies the block's rows of the node
  features by the whole weight matrix and writes back, to one array, the products and, to another, the products
  scaled row by row by the node's factor. Block `t` of either output is rows `2000 t … 2000 t + 1999`, the blocks
  cover every row, and an entry depends only on its own row of the features and of the factor: so each output array
  ends as one function of the arrays the region found, entry by entry.
-/
import proofs.«179631_j7301444403487_2_alg».proof.Proof.Gen.KernelIdeal.Frame
import proofs.«179631_j7301444403487_2_alg».proof.Proof.Payloads
import proofs.«179631_j7301444403487_2_alg».proof.Proof.KerArrays
import Idealize.ShloMosaic.Lib.Pipeline.Value
import Idealize.ShloMosaic.Lib.ValueIdx

set_option maxRecDepth 16384

noncomputable section

namespace Cert.KerReg3

open Cert.KernelIdeal Cert.KernelIdeal.Gen Cert.KerReg
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block index maps over the 25 grid points: the two outputs, the features and the factor move together along
    the rows; the weights stay; no window moves along the columns. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_4.index t (0 : Fin 2) = win3_3.index t (0 : Fin 2) ∧ win3_4.index t (1 : Fin 2) = 0
    ∧ win3_3.index t (1 : Fin 2) = 0 ∧ win3_3.index t (0 : Fin 2) ≤ 24 :=
  (by decide +kernel : ∀ t : Fin grid3.N, _)

/-- Every block of rows is some grid point's, for either output. -/
theorem idx_onto3 : ∀ q0 : Fin 25, ∃ t : Fin cfg3.N, win3_3.index t = ![q0.val, 0] :=
  (by decide +kernel : ∀ q0 : Fin 25, ∃ t : Fin grid3.N, win3_3.index t = ![q0.val, 0])
theorem idx_onto4 : ∀ q0 : Fin 25, ∃ t : Fin cfg3.N, win3_4.index t = ![q0.val, 0] :=
  (by decide +kernel : ∀ q0 : Fin 25, ∃ t : Fin grid3.N, win3_4.index t = ![q0.val, 0])

/-- What point `t` writes back to the first output is block `t` of the product of the arrays as the region finds them. -/
theorem flushed3_eq (c : Dev nD) (t : Fin cfg3.N) :
    (dat3 V c).flushed 3 t = ((cfg3.win 3).blk t).view.read (Elt Ideal) (proj (V c main_arg1) (V c main_arg4)) := by
  show (cfg3.win 3).cut (grid3.coords t) ((dat3 V c).after 3 t) = _
  rw [after3_3]
  unfold out3_3
  rw [View.canon_unit_zero hz]
  simp only [View.ld_unit_zero (S := S2000x512) hz, View.ld_unit_zero (S := S512x256) hz]
  obtain ⟨e00, e01, e10, e11, e20, e21, e40, e41, e31, e3le⟩ := idx_facts t
  funext j
  obtain ⟨p, q, rfl⟩ : ∃ (p : Fin 2000) (q : Fin 256), j = ix2 p q := ⟨j 0, j 1, eq_ix2 j⟩
  refine (Cert.KerPay.k3_pay1_apply _ _ p q).trans ?_
  show _ = proj (V c main_arg1) (V c main_arg4) (((cfg3.win 3).blk t).view.emb (ix2 p q))
  unfold proj
  refine Finset.sum_congr rfl fun k _ => ?_
  have h0 : ((cfg3.win 0).blk t).view.emb (ix2 p k) = ix2 (nodeOf (((cfg3.win 3).blk t).view.emb (ix2 p q))) k := by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 512 + 1 * k.val = k.val; omega
  have h1 : ((cfg3.win 1).blk t).view.emb (ix2 k q) = ix2 k (featOf (((cfg3.win 3).blk t).view.emb (ix2 p q))) := by
    funext a; apply Fin.ext
    match a with
    | ⟨0, _⟩ => show win3_1.index t (0 : Fin 2) * 512 + 1 * k.val = k.val; omega
    | ⟨1, _⟩ => show win3_1.index t (1 : Fin 2) * 256 + 1 * q.val = win3_3.index t (1 : Fin 2) * 256 + 1 * q.val; omega
  refine congrArg₂ (· * ·) ?_ ?_
  · show V c main_arg1 (((cfg3.win 0).blk t).view.emb (ix2 p k)) = _
    exact congrArg (V c main_arg1) h0
  · show V c main_arg4 (((cfg3.win 1).blk t).view.emb (ix2 k q)) = _
    exact congrArg (V c main_arg4) h1

/-- What point `t` writes back to the second output is block `t` of the product with every row scaled by its node's factor. -/
theorem flushed4_eq (c : Dev nD) (t : Fin cfg3.N) :
    (dat3 V c).flushed 4 t = ((cfg3.win 4).blk t).view.read (Elt Ideal) (projScaled (V c main_arg1) (V c main_arg4) (V c main_v51)) := by
  show (cfg3.win 4).cut (grid3.coords t) ((dat3 V c).after 4 t) = _
  rw [after3_4]
  unfold out3_4
  rw [View.canon_unit_zero hz]
  simp only [View.ld_unit_zero (S := S2000x512) hz, View.ld_unit_zero (S := S512x256) hz, View.ld_unit_zero (S := S2000x1) hz]
  obtain ⟨e00, e01, e10, e11, e20, e21, e40, e41, e31, e3le⟩ := idx_facts t
  funext j
  obtain ⟨p, q, rfl⟩ : ∃ (p : Fin 2000) (q : Fin 256), j = ix2 p q := ⟨j 0, j 1, eq_ix2 j⟩
  refine (Cert.KerPay.k3_pay2_apply _ _ _ p q).trans ?_
  show _ = projScaled (V c main_arg1) (V c main_arg4) (V c main_v51) (((cfg3.win 4).blk t).view.emb (ix2 p q))
  unfold projScaled proj
  have h2 : ((cfg3.win 2).blk t).view.emb (ix2 p (0 : Fin 1)) = ix2 (nodeOf (((cfg3.win 4).blk t).view.emb (ix2 p q))) (0 : Fin 1) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  refine congrArg₂ (· * ·) (Finset.sum_congr rfl fun k _ => ?_) ?_
  · have h0 : ((cfg3.win 0).blk t).view.emb (ix2 p k) = ix2 (nodeOf (((cfg3.win 4).blk t).view.emb (ix2 p q))) k := by
      funext a; apply Fin.ext
      match a with
      | ⟨0, _⟩ => show win3_0.index t (0 : Fin 2) * 2000 + 1 * p.val = win3_4.index t (0 : Fin 2) * 2000 + 1 * p.val; omega
      | ⟨1, _⟩ => show win3_0.index t (1 : Fin 2) * 512 + 1 * k.val = k.val; omega
    have h1 : ((cfg3.win 1).blk t).view.emb (ix2 k q) = ix2 k (featOf (((cfg3.win 4).blk t).view.emb (ix2 p q))) := by
      funext a; apply Fin.ext
      match a with
      | ⟨0, _⟩ => show win3_1.index t (0 : Fin 2) * 512 + 1 * k.val = k.val; omega
      | ⟨1, _⟩ => show win3_1.index t (1 : Fin 2) * 256 + 1 * q.val = win3_4.index t (1 : Fin 2) * 256 + 1 * q.val; omega
    refine congrArg₂ (· * ·) ?_ ?_
    · show V c main_arg1 (((cfg3.win 0).blk t).view.emb (ix2 p k)) = _
      exact congrArg (V c main_arg1) h0
    · show V c main_arg4 (((cfg3.win 1).blk t).view.emb (ix2 k q)) = _
      exact congrArg (V c main_arg4) h1
  · show V c main_v51 (((cfg3.win 2).blk t).view.emb (ix2 p (0 : Fin 1))) = _
    exact congrArg (V c main_v51) h2

/-- An entry of the array is in point `t`'s block of output 3 iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v53_0).slice (win3_3.rect t)).set ↔ _
  rw [View.set_slice_whole, Rect.mem_set_unit]
  exact Iff.rfl

/-- Every entry of output 3's array is in the block of the point that handles its row's block of 2000. -/
theorem cover3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ := idx_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- An entry of the array is in point `t`'s block of output 4 iff each coordinate is in the block's range on its axis. -/
theorem mem_blk4 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v53_1).slice (win3_4.rect t)).set ↔ _
  rw [View.set_slice_whole, Rect.mem_set_unit]
  exact Iff.rfl

/-- Every entry of output 4's array is in the block of the point that handles its row's block of 2000. -/
theorem cover4 (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  obtain ⟨t, ht⟩ := idx_onto4 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- The first output array after the region: the product of the arrays the region found. -/
theorem final3 (c : Dev nD) : (dat3 V c).arrAt 3 cfg3.N = proj (V c main_arg1) (V c main_arg4) :=
  (dat3 V c).arrAt_eq_of_cover 3 _ (fun t _ => flushed3_eq V c t) cover3

/-- The second output array after the region: the product with every row scaled by its node's factor. -/
theorem final4 (c : Dev nD) : (dat3 V c).arrAt 4 cfg3.N = projScaled (V c main_arg1) (V c main_arg4) (V c main_v51) :=
  (dat3 V c).arrAt_eq_of_cover 4 _ (fun t _ => flushed4_eq V c t) cover4

end Cert.KerReg3

end
-- ==== Proof.KerReg4.lean ====
/-
  The second kernel region of a view, as whole arrays.

  The region walks the 50000 node rows in 25 blocks of 2000. At a block it forms each node's hidden features — the
  arrivals scaled by the node's factor, plus the node's own row times the squared factor, plus the bias, positive part —,
  multiplies them by the whole second weight matrix and writes back the products and, to a second array, the products
  scaled row by row by the node's factor. The blocks cover every row and an entry depends only on its own row of the
  operands: each output array ends as one function of the arrays the region found.
-/
import proofs.«179631_j7301444403487_2_alg».proof.Proof.Gen.KernelIdeal.Frame
import proofs.«179631_j7301444403487_2_alg».proof.Proof.Payloads
import proofs.«179631_j7301444403487_2_alg».proof.Proof.KerArrays
import Idealize.ShloMosaic.Lib.Pipeline.Value
import Idealize.ShloMosaic.Lib.ValueIdx

set_option maxRecDepth 16384

noncomputable section

namespace Cert.KerReg4

open Cert.KernelIdeal Cert.KernelIdeal.Gen Cert.KerReg
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block index maps over the 25 grid points: both outputs and the four row-wise operands move together along the
    rows; the bias and the weights stay; no window moves along the columns. -/
theorem idx_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = win4_6.index t (0 : Fin 2) ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_7.index t (0 : Fin 2) = win4_6.index t (0 : Fin 2) ∧ win4_7.index t (1 : Fin 2) = 0
    ∧ win4_6.index t (1 : Fin 2) = 0 ∧ win4_6.index t (0 : Fin 2) ≤ 24 :=
  (by decide +kernel : ∀ t : Fin grid4.N, _)

/-- Every block of rows is some grid point's, for either output. -/
theorem idx_onto6 : ∀ q0 : Fin 25, ∃ t : Fin cfg4.N, win4_6.index t = ![q0.val, 0] :=
  (by decide +kernel : ∀ q0 : Fin 25, ∃ t : Fin grid4.N, win4_6.index t = ![q0.val, 0])
theorem idx_onto7 : ∀ q0 : Fin 25, ∃ t : Fin cfg4.N, win4_7.index t = ![q0.val, 0] :=
  (by decide +kernel : ∀ q0 : Fin 25, ∃ t : Fin grid4.N, win4_7.index t = ![q0.val, 0])

set_option maxHeartbeats 1600000 in
/-- What point `t` writes back to the first output is block `t` of the hidden features times the second weights. -/
theorem flushed6_eq (c : Dev nD) (t : Fin cfg4.N) :
    (dat4 V c).flushed 6 t = ((cfg4.win 6).blk t).view.read (Elt Ideal) (proj2 (V c main_v64) (V c main_v53_0) (V c main_v51) (V c main_v52) (V c main_v65) (V c main_arg6)) := by
  show (cfg4.win 6).cut (grid4.coords t) ((dat4 V c).after 6 t) = _
  rw [after4_6]
  unfold out4_6
  rw [View.canon_unit_zero hz]
  simp only [View.ld_unit_zero (S := S2000x256) hz, View.ld_unit_zero (S := S2000x1) hz, View.ld_unit_zero (S := S1x256) hz, View.ld_unit_zero (S := S256x256) hz]
  obtain ⟨e00, e01, e10, e11, e20, e21, e30, e31, e40, e41, e50, e51, e70, e71, e61, e6le⟩ := idx_facts t
  funext j
  obtain ⟨p, q, rfl⟩ : ∃ (p : Fin 2000) (q : Fin 256), j = ix2 p q := ⟨j 0, j 1, eq_ix2 j⟩
  refine (Cert.KerPay.k4_pay1_apply _ _ _ _ _ _ p q).trans ?_
  show _ = proj2 (V c main_v64) (V c main_v53_0) (V c main_v51) (V c main_v52) (V c main_v65) (V c main_arg6) (((cfg4.win 6).blk t).view.emb (ix2 p q))
  unfold proj2 act
  refine Finset.sum_congr rfl fun k _ => ?_
  have hag : ((cfg4.win 0).blk t).view.emb (ix2 p k) = ix2 (nodeOf (((cfg4.win 6).blk t).view.emb (ix2 p q))) k := by
    funext a; apply Fin.ext
    match a with
    | ⟨0, _⟩ => show win4_0.index t (0 : Fin 2) * 2000 + 1 * p.val = win4_6.index t (0 : Fin 2) * 2000 + 1 * p.val; omega
    | ⟨1, _⟩ => show win4_0.index t (1 : Fin 2) * 256 + 1 * k.val = k.val; omega
  have hh : ((cfg4.win 1).blk t).view.emb (ix2 p k) = ix2 (nodeOf (((cfg4.win 6).blk t).view.emb (ix2 p q))) k := by
    funext a; apply Fin.ext
    match a with
    | ⟨0, _⟩ => show win4_1.index t (0 : Fin 2) * 2000 + 1 * p.val = win4_6.index t (0 : Fin 2) * 2000 + 1 * p.val; omega
    | ⟨1, _⟩ => show win4_1.index t (1 : Fin 2) * 256 + 1 * k.val = k.val; omega
  have hd : ((cfg4.win 2).blk t).view.emb (ix2 p (0 : Fin 1)) = ix2 (nodeOf (((cfg4.win 6).blk t).view.emb (ix2 p q))) (0 : Fin 1) := by
    funext a; apply Fin.ext
    match a with
    | ⟨0, _⟩ => show win4_2.index t (0 : Fin 2) * 2000 + 1 * p.val = win4_6.index t (0 : Fin 2) * 2000 + 1 * p.val; omega
    | ⟨1, _⟩ => show win4_2.index t (1 : Fin 2) * 1 + 1 * 0 = 0; omega
  have hid : ((cfg4.win 3).blk t).view.emb (ix2 p (0 : Fin 1)) = ix2 (nodeOf (((cfg4.win 6).blk t).view.emb (ix2 p q))) (0 : Fin 1) := by
    funext a; apply Fin.ext
    match a with
    | ⟨0, _⟩ => show win4_3.index t (0 : Fin 2) * 2000 + 1 * p.val = win4_6.index t (0 : Fin 2) * 2000 + 1 * p.val; omega
    | ⟨1, _⟩ => show win4_3.index t (1 : Fin 2) * 1 + 1 * 0 = 0; omega
  have hb : ((cfg4.win 4).blk t).view.emb (ix2 (0 : Fin 1) k) = ix2 (0 : Fin 1) k := by
    funext a; apply Fin.ext
    match a with
    | ⟨0, _⟩ => show win4_4.index t (0 : Fin 2) * 1 + 1 * 0 = 0; omega
    | ⟨1, _⟩ => show win4_4.index t (1 : Fin 2) * 256 + 1 * k.val = k.val; omega
  have hw : ((cfg4.win 5).blk t).view.emb (ix2 k q) = ix2 k (featOf (((cfg4.win 6).blk t).view.emb (ix2 p q))) := by
    funext a; apply Fin.ext
    match a with
    | ⟨0, _⟩ => show win4_5.index t (0 : Fin 2) * 256 + 1 * k.val = k.val; omega
    | ⟨1, _⟩ => show win4_5.index t (1 : Fin 2) * 256 + 1 * q.val = win4_6.index t (1 : Fin 2) * 256 + 1 * q.val; omega
  refine congrArg₂ (· * ·) (congrArg (fun x => max x Cert.GcnSpec.z) (congrArg₂ (· + ·) (congrArg₂ (· + ·) (congrArg₂ (· * ·) ?_ ?_) (congrArg₂ (· * ·) ?_ ?_)) ?_)) ?_
  · show V c main_v51 (((cfg4.win 2).blk t).view.emb (ix2 p (0 : Fin 1))) = _
    exact congrArg (V c main_v51) hd
  · show V c main_v64 (((cfg4.win 0).blk t).view.emb (ix2 p k)) = _
    exact congrArg (V c main_v64) hag
  · show V c main_v53_0 (((cfg4.win 1).blk t).view.emb (ix2 p k)) = _
    exact congrArg (V c main_v53_0) hh
  · show V c main_v52 (((cfg4.win 3).blk t).view.emb (ix2 p (0 : Fin 1))) = _
    exact congrArg (V c main_v52) hid
  · show V c main_v65 (((cfg4.win 4).blk t).view.emb (ix2 (0 : Fin 1) k)) = _
    exact congrArg (V c main_v65) hb
  · show V c main_arg6 (((cfg4.win 5).blk t).view.emb (ix2 k q)) = _
    exact congrArg (V c main_arg6) hw

set_option maxHeartbeats 1600000 in
/-- What point `t` writes back to the second output is block `t` of the same products scaled by the node's factor. -/
theorem flushed7_eq (c : Dev nD) (t : Fin cfg4.N) :
    (dat4 V c).flushed 7 t = ((cfg4.win 7).blk t).view.read (Elt Ideal) (proj2Scaled (V c main_v64) (V c main_v53_0) (V c main_v51) (V c main_v52) (V c main_v65) (V c main_arg6)) := by
  show (cfg4.win 7).cut (grid4.coords t) ((dat4 V c).after 7 t) = _
  rw [after4_7]
  unfold out4_7
  rw [View.canon_unit_zero hz]
  simp only [View.ld_unit_zero (S := S2000x256) hz, View.ld_unit_zero (S := S2000x1) hz, View.ld_unit_zero (S := S1x256) hz, View.ld_unit_zero (S := S256x256) hz]
  obtain ⟨e00, e01, e10, e11, e20, e21, e30, e31, e40, e41, e50, e51, e70, e71, e61, e6le⟩ := idx_facts t
  funext j
  obtain ⟨p, q, rfl⟩ : ∃ (p : Fin 2000) (q : Fin 256), j = ix2 p q := ⟨j 0, j 1, eq_ix2 j⟩
  refine (Cert.KerPay.k4_pay2_apply _ _ _ _ _ _ _ p q).trans ?_
  show _ = proj2Scaled (V c main_v64) (V c main_v53_0) (V c main_v51) (V c main_v52) (V c main_v65) (V c main_arg6) (((cfg4.win 7).blk t).view.emb (ix2 p q))
  unfold proj2Scaled proj2 act
  have hd2 : ((cfg4.win 2).blk t).view.emb (ix2 p (0 : Fin 1)) = ix2 (nodeOf (((cfg4.win 7).blk t).view.emb (ix2 p q))) (0 : Fin 1) := by
    funext a; apply Fin.ext
    match a with
    | ⟨0, _⟩ => show win4_2.index t (0 : Fin 2) * 2000 + 1 * p.val = win4_7.index t (0 : Fin 2) * 2000 + 1 * p.val; omega
    | ⟨1, _⟩ => show win4_2.index t (1 : Fin 2) * 1 + 1 * 0 = 0; omega
  refine congrArg₂ (· * ·) ?_ ?_
  · refine Finset.sum_congr rfl fun k _ => ?_
    have hag : ((cfg4.win 0).blk t).view.emb (ix2 p k) = ix2 (nodeOf (((cfg4.win 7).blk t).view.emb (ix2 p q))) k := by
      funext a; apply Fin.ext
      match a with
      | ⟨0, _⟩ => show win4_0.index t (0 : Fin 2) * 2000 + 1 * p.val = win4_7.index t (0 : Fin 2) * 2000 + 1 * p.val; omega
      | ⟨1, _⟩ => show win4_0.index t (1 : Fin 2) * 256 + 1 * k.val = k.val; omega
    have hh : ((cfg4.win 1).blk t).view.emb (ix2 p k) = ix2 (nodeOf (((cfg4.win 7).blk t).view.emb (ix2 p q))) k := by
      funext a; apply Fin.ext
      match a with
      | ⟨0, _⟩ => show win4_1.index t (0 : Fin 2) * 2000 + 1 * p.val = win4_7.index t (0 : Fin 2) * 2000 + 1 * p.val; omega
      | ⟨1, _⟩ => show win4_1.index t (1 : Fin 2) * 256 + 1 * k.val = k.val; omega
    have hd : ((cfg4.win 2).blk t).view.emb (ix2 p (0 : Fin 1)) = ix2 (nodeOf (((cfg4.win 7).blk t).view.emb (ix2 p q))) (0 : Fin 1) := by
      funext a; apply Fin.ext
      match a with
      | ⟨0, _⟩ => show win4_2.index t (0 : Fin 2) * 2000 + 1 * p.val = win4_7.index t (0 : Fin 2) * 2000 + 1 * p.val; omega
      | ⟨1, _⟩ => show win4_2.index t (1 : Fin 2) * 1 + 1 * 0 = 0; omega
    have hid : ((cfg4.win 3).blk t).view.emb (ix2 p (0 : Fin 1)) = ix2 (nodeOf (((cfg4.win 7).blk t).view.emb (ix2 p q))) (0 : Fin 1) := by
      funext a; apply Fin.ext
      match a with
      | ⟨0, _⟩ => show win4_3.index t (0 : Fin 2) * 2000 + 1 * p.val = win4_7.index t (0 : Fin 2) * 2000 + 1 * p.val; omega
      | ⟨1, _⟩ => show win4_3.index t (1 : Fin 2) * 1 + 1 * 0 = 0; omega
    have hb : ((cfg4.win 4).blk t).view.emb (ix2 (0 : Fin 1) k) = ix2 (0 : Fin 1) k := by
      funext a; apply Fin.ext
      match a with
      | ⟨0, _⟩ => show win4_4.index t (0 : Fin 2) * 1 + 1 * 0 = 0; omega
      | ⟨1, _⟩ => show win4_4.index t (1 : Fin 2) * 256 + 1 * k.val = k.val; omega
    have hw : ((cfg4.win 5).blk t).view.emb (ix2 k q) = ix2 k (featOf (((cfg4.win 7).blk t).view.emb (ix2 p q))) := by
      funext a; apply Fin.ext
      match a with
      | ⟨0, _⟩ => show win4_5.index t (0 : Fin 2) * 256 + 1 * k.val = k.val; omega
      | ⟨1, _⟩ => show win4_5.index t (1 : Fin 2) * 256 + 1 * q.val = win4_7.index t (1 : Fin 2) * 256 + 1 * q.val; omega
    refine congrArg₂ (· * ·) (congrArg (fun x => max x Cert.GcnSpec.z) (congrArg₂ (· + ·) (congrArg₂ (· + ·) (congrArg₂ (· * ·) ?_ ?_) (congrArg₂ (· * ·) ?_ ?_)) ?_)) ?_
    · show V c main_v51 (((cfg4.win 2).blk t).view.emb (ix2 p (0 : Fin 1))) = _
      exact congrArg (V c main_v51) hd
    · show V c main_v64 (((cfg4.win 0).blk t).view.emb (ix2 p k)) = _
      exact congrArg (V c main_v64) hag
    · show V c main_v53_0 (((cfg4.win 1).blk t).view.emb (ix2 p k)) = _
      exact congrArg (V c main_v53_0) hh
    · show V c main_v52 (((cfg4.win 3).blk t).view.emb (ix2 p (0 : Fin 1))) = _
      exact congrArg (V c main_v52) hid
    · show V c main_v65 (((cfg4.win 4).blk t).view.emb (ix2 (0 : Fin 1) k)) = _
      exact congrArg (V c main_v65) hb
    · show V c main_arg6 (((cfg4.win 5).blk t).view.emb (ix2 k q)) = _
      exact congrArg (V c main_arg6) hw
  · show V c main_v51 (((cfg4.win 2).blk t).view.emb (ix2 p (0 : Fin 1))) = _
    exact congrArg (V c main_v51) hd2

/-- An entry of the array is in point `t`'s block of output 6 iff each coordinate is in the block's range on its axis. -/
theorem mem_blk6 (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v66_0).slice (win4_6.rect t)).set ↔ _
  rw [View.set_slice_whole, Rect.mem_set_unit]
  exact Iff.rfl

/-- Every entry of output 6's array is in the block of the point that handles its row's block of 2000. -/
theorem cover6 (i : S50000x256.Idx) :
    ∃ t : Fin cfg4.N, (cfg4.win 6).flush t = true ∧ i ∈ ((cfg4.win 6).blk t).view.set := by
  have hi0 : (i 0).val < 50000 := (i 0).isLt
  have hi1 : (i 1).val < 256 := (i 1).isLt
  obtain ⟨t, ht⟩ := idx_onto6 ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [mem_blk6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 256 ≤ (i 1).val ∧ (i 1).val < win4_6.index t (1 : Fin 2) * 256 + 256; omega

/-- An entry of the array is in point `t`'s block of output 7 iff each coordinate is in the block's range on its axis. -/
theorem mem_blk7 (t : Fin cfg4.N) (i : S50000x256.Idx) :
    i ∈ ((cfg4.win 7).blk t).view.set ↔ ∀ a : Fin 2, win4_7.index t a * S2000x256.size a ≤ (i a).val ∧ (i a).val < win4_7.index t a * S2000x256.size a + S2000x256.size a := by
  show i ∈ ((View.whole main_v66_1).slice (win4_7.rect t)).set ↔ _
  rw [View.set_slice_whole, Rect.mem_set_unit]
  exact Iff.rfl

/-- Every entry of output 7's array is in the block of the point that handles its row's block of 2000. -/
theorem cover7 (i : S50000x256.Idx) :
    ∃ t : Fin cfg4.N, (cfg4.win 7).flush t = true ∧ i ∈ ((cfg4.win 7).blk t).view.set := by
  have hi0 : (i 0).val < 50000 := (i 0).isLt
  have hi1 : (i 1).val < 256 := (i 1).isLt
  obtain ⟨t, ht⟩ := idx_onto7 ⟨(i 0).val / 2000, by omega⟩
  have q0 : win4_7.index t (0 : Fin 2) = (i 0).val / 2000 := congrFun ht 0
  have q1 : win4_7.index t (1 : Fin 2) = 0 := congrFun ht 1
  refine ⟨t, flush4_7 t, ?_⟩
  rw [mem_blk7]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 256 ≤ (i 1).val ∧ (i 1).val < win4_7.index t (1 : Fin 2) * 256 + 256; omega

/-- The first output array after the region. -/
theorem final6 (c : Dev nD) : (dat4 V c).arrAt 6 cfg4.N = proj2 (V c main_v64) (V c main_v53_0) (V c main_v51) (V c main_v52) (V c main_v65) (V c main_arg6) :=
  (dat4 V c).arrAt_eq_of_cover 6 _ (fun t _ => flushed6_eq V c t) cover6

/-- The second output array after the region. -/
theorem final7 (c : Dev nD) : (dat4 V c).arrAt 7 cfg4.N = proj2Scaled (V c main_v64) (V c main_v53_0) (V c main_v51) (V c main_v52) (V c main_v65) (V c main_arg6) :=
  (dat4 V c).arrAt_eq_of_cover 7 _ (fun t _ => flushed7_eq V c t) cover7

end Cert.KerReg4

end
-- ==== Proof.KerReg5.lean ====
/-
  The third kernel region of a view, as a whole array.

  The region walks the 50000 node rows in 25 blocks of 2000 and writes back, entry by entry, the arrivals scaled by the
  node's factor, plus the node's own row times the squared factor, plus the bias. The blocks cover every row and an
  entry depends only on its own row of the operands: the output array ends as one function of the arrays the region found.
-/
import proofs.«179631_j7301444403487_2_alg».proof.Proof.Gen.KernelIdeal.Frame
import proofs.«179631_j7301444403487_2_alg».proof.Proof.Payloads
import proofs.«179631_j7301444403487_2_alg».proof.Proof.KerArrays
import Idealize.ShloMosaic.Lib.Pipeline.Value
import Idealize.ShloMosaic.Lib.ValueIdx

set_option maxRecDepth 16384

noncomputable section

namespace Cert.KerReg5

open Cert.KernelIdeal Cert.KernelIdeal.Gen Cert.KerReg
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block index maps over the 25 grid points: the output and the four row-wise operands move together along the
    rows; the bias stays; no window moves along the columns. -/
theorem idx_facts : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = win5_5.index t (0 : Fin 2) ∧ win5_2.index t (1 : Fin 2) = 0
    ∧ win5_3.index t (0 : Fin 2) = win5_5.index t (0 : Fin 2) ∧ win5_3.index t (1 : Fin 2) = 0
    ∧ win5_4.index t (0 : Fin 2) = 0 ∧ win5_4.index t (1 : Fin 2) = 0
    ∧ win5_5.index t (1 : Fin 2) = 0 ∧ win5_5.index t (0 : Fin 2) ≤ 24 :=
  (by decide +kernel : ∀ t : Fin grid5.N, _)

/-- Every block of rows is some grid point's. -/
theorem idx_onto5 : ∀ q0 : Fin 25, ∃ t : Fin cfg5.N, win5_5.index t = ![q0.val, 0] :=
  (by decide +kernel : ∀ q0 : Fin 25, ∃ t : Fin grid5.N, win5_5.index t = ![q0.val, 0])

set_option maxHeartbeats 1600000 in
/-- What point `t` writes back is block `t` of the combination of the arrays as the region finds them. -/
theorem flushed5_eq (c : Dev nD) (t : Fin cfg5.N) :
    (dat5 V c).flushed 5 t = ((cfg5.win 5).blk t).view.read (Elt Ideal) (combine (V c main_v77) (V c main_v66_0) (V c main_v51) (V c main_v52) (V c main_v78)) := by
  show (cfg5.win 5).cut (grid5.coords t) ((dat5 V c).after 5 t) = _
  rw [after5_5]
  unfold out5_5
  rw [View.canon_unit_zero hz]
  simp only [View.ld_unit_zero (S := S2000x256) hz, View.ld_unit_zero (S := S2000x1) hz, View.ld_unit_zero (S := S1x256) hz]
  obtain ⟨e00, e01, e10, e11, e20, e21, e30, e31, e40, e41, e51, e5le⟩ := idx_facts t
  funext j
  obtain ⟨p, q, rfl⟩ : ∃ (p : Fin 2000) (q : Fin 256), j = ix2 p q := ⟨j 0, j 1, eq_ix2 j⟩
  refine (Cert.KerPay.k5_pay1_apply _ _ _ _ _ p q).trans ?_
  show _ = combine (V c main_v77) (V c main_v66_0) (V c main_v51) (V c main_v52) (V c main_v78) (((cfg5.win 5).blk t).view.emb (ix2 p q))
  unfold combine
  have hag : ((cfg5.win 0).blk t).view.emb (ix2 p q) = ix2 (nodeOf (((cfg5.win 5).blk t).view.emb (ix2 p q))) (featOf (((cfg5.win 5).blk t).view.emb (ix2 p q))) := by
    funext a; apply Fin.ext
    match a with
    | ⟨0, _⟩ => show win5_0.index t (0 : Fin 2) * 2000 + 1 * p.val = win5_5.index t (0 : Fin 2) * 2000 + 1 * p.val; omega
    | ⟨1, _⟩ => show win5_0.index t (1 : Fin 2) * 256 + 1 * q.val = win5_5.index t (1 : Fin 2) * 256 + 1 * q.val; omega
  have hh : ((cfg5.win 1).blk t).view.emb (ix2 p q) = ix2 (nodeOf (((cfg5.win 5).blk t).view.emb (ix2 p q))) (featOf (((cfg5.win 5).blk t).view.emb (ix2 p q))) := by
    funext a; apply Fin.ext
    match a with
    | ⟨0, _⟩ => show win5_1.index t (0 : Fin 2) * 2000 + 1 * p.val = win5_5.index t (0 : Fin 2) * 2000 + 1 * p.val; omega
    | ⟨1, _⟩ => show win5_1.index t (1 : Fin 2) * 256 + 1 * q.val = win5_5.index t (1 : Fin 2) * 256 + 1 * q.val; omega
  have hd : ((cfg5.win 2).blk t).view.emb (ix2 p (0 : Fin 1)) = ix2 (nodeOf (((cfg5.win 5).blk t).view.emb (ix2 p q))) (0 : Fin 1) := by
    funext a; apply Fin.ext
    match a with
    | ⟨0, _⟩ => show win5_2.index t (0 : Fin 2) * 2000 + 1 * p.val = win5_5.index t (0 : Fin 2) * 2000 + 1 * p.val; omega
    | ⟨1, _⟩ => show win5_2.index t (1 : Fin 2) * 1 + 1 * 0 = 0; omega
  have hid : ((cfg5.win 3).blk t).view.emb (ix2 p (0 : Fin 1)) = ix2 (nodeOf (((cfg5.win 5).blk t).view.emb (ix2 p q))) (0 : Fin 1) := by
    funext a; apply Fin.ext
    match a with
    | ⟨0, _⟩ => show win5_3.index t (0 : Fin 2) * 2000 + 1 * p.val = win5_5.index t (0 : Fin 2) * 2000 + 1 * p.val; omega
    | ⟨1, _⟩ => show win5_3.index t (1 : Fin 2) * 1 + 1 * 0 = 0; omega
  have hb : ((cfg5.win 4).blk t).view.emb (ix2 (0 : Fin 1) q) = ix2 (0 : Fin 1) (featOf (((cfg5.win 5).blk t).view.emb (ix2 p q))) := by
    funext a; apply Fin.ext
    match a with
    | ⟨0, _⟩ => show win5_4.index t (0 : Fin 2) * 1 + 1 * 0 = 0; omega
    | ⟨1, _⟩ => show win5_4.index t (1 : Fin 2) * 256 + 1 * q.val = win5_5.index t (1 : Fin 2) * 256 + 1 * q.val; omega
  refine congrArg₂ (· + ·) (congrArg₂ (· + ·) (congrArg₂ (· * ·) ?_ ?_) (congrArg₂ (· * ·) ?_ ?_)) ?_
  · show V c main_v51 (((cfg5.win 2).blk t).view.emb (ix2 p (0 : Fin 1))) = _
    exact congrArg (V c main_v51) hd
  · show V c main_v77 (((cfg5.win 0).blk t).view.emb (ix2 p q)) = _
    exact congrArg (V c main_v77) hag
  · show V c main_v66_0 (((cfg5.win 1).blk t).view.emb (ix2 p q)) = _
    exact congrArg (V c main_v66_0) hh
  · show V c main_v52 (((cfg5.win 3).blk t).view.emb (ix2 p (0 : Fin 1))) = _
    exact congrArg (V c main_v52) hid
  · show V c main_v78 (((cfg5.win 4).blk t).view.emb (ix2 (0 : Fin 1) q)) = _
    exact congrArg (V c main_v78) hb

/-- An entry of the array is in point `t`'s block of output 5 iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v79).slice (win5_5.rect t)).set ↔ _
  rw [View.set_slice_whole, Rect.mem_set_unit]
  exact Iff.rfl

/-- Every entry of output 5's array is in the block of the point that handles its row's block of 2000. -/
theorem cover5 (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, ht⟩ := idx_onto5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- The output array after the region. -/
theorem final5 (c : Dev nD) : (dat5 V c).arrAt 5 cfg5.N = combine (V c main_v77) (V c main_v66_0) (V c main_v51) (V c main_v52) (V c main_v78) :=
  (dat5 V c).arrAt_eq_of_cover 5 _ (fun t _ => flushed5_eq V c t) cover5

end Cert.KerReg5

end
-- ==== Proof.KerReg0.lean ====
/-
  The first kernel region of a view, as whole arrays.

  The region walks the 50000 node rows in 25 blocks of 2000. At a block it multiplies the block's rows of the node
  features by the whole weight matrix and writes back, to one array, the products and, to another, the products
  scaled row by row by the node's factor. Block `t` of either output is rows `2000 t … 2000 t + 1999`, the blocks
  cover every row, and an entry depends only on its own row of the features and of the factor: so each output array
  ends as one function of the arrays the region found, entry by entry.
-/
import proofs.«179631_j7301444403487_2_alg».proof.Proof.Gen.KernelIdeal.Frame
import proofs.«179631_j7301444403487_2_alg».proof.Proof.Payloads
import proofs.«179631_j7301444403487_2_alg».proof.Proof.KerArrays
import Idealize.ShloMosaic.Lib.Pipeline.Value
import Idealize.ShloMosaic.Lib.ValueIdx

set_option maxRecDepth 16384

noncomputable section

namespace Cert.KerReg0

open Cert.KernelIdeal Cert.KernelIdeal.Gen Cert.KerReg
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block index maps over the 25 grid points: the two outputs, the features and the factor move together along
    the rows; the weights stay; no window moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_4.index t (0 : Fin 2) = win0_3.index t (0 : Fin 2) ∧ win0_4.index t (1 : Fin 2) = 0
    ∧ win0_3.index t (1 : Fin 2) = 0 ∧ win0_3.index t (0 : Fin 2) ≤ 24 :=
  (by decide +kernel : ∀ t : Fin grid0.N, _)

/-- Every block of rows is some grid point's, for either output. -/
theorem idx_onto3 : ∀ q0 : Fin 25, ∃ t : Fin cfg0.N, win0_3.index t = ![q0.val, 0] :=
  (by decide +kernel : ∀ q0 : Fin 25, ∃ t : Fin grid0.N, win0_3.index t = ![q0.val, 0])
theorem idx_onto4 : ∀ q0 : Fin 25, ∃ t : Fin cfg0.N, win0_4.index t = ![q0.val, 0] :=
  (by decide +kernel : ∀ q0 : Fin 25, ∃ t : Fin grid0.N, win0_4.index t = ![q0.val, 0])

/-- What point `t` writes back to the first output is block `t` of the product of the arrays as the region finds them. -/
theorem flushed3_eq (c : Dev nD) (t : Fin cfg0.N) :
    (dat0 V c).flushed 3 t = ((cfg0.win 3).blk t).view.read (Elt Ideal) (proj (V c main_arg0) (V c main_arg4)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x256) hz]
  obtain ⟨e00, e01, e10, e11, e20, e21, e40, e41, e31, e3le⟩ := idx_facts t
  funext j
  obtain ⟨p, q, rfl⟩ : ∃ (p : Fin 2000) (q : Fin 256), j = ix2 p q := ⟨j 0, j 1, eq_ix2 j⟩
  refine (Cert.KerPay.k0_pay1_apply _ _ p q).trans ?_
  show _ = proj (V c main_arg0) (V c main_arg4) (((cfg0.win 3).blk t).view.emb (ix2 p q))
  unfold proj
  refine Finset.sum_congr rfl fun k _ => ?_
  have h0 : ((cfg0.win 0).blk t).view.emb (ix2 p k) = ix2 (nodeOf (((cfg0.win 3).blk t).view.emb (ix2 p q))) k := by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 512 + 1 * k.val = k.val; omega
  have h1 : ((cfg0.win 1).blk t).view.emb (ix2 k q) = ix2 k (featOf (((cfg0.win 3).blk t).view.emb (ix2 p q))) := by
    funext a; apply Fin.ext
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  refine congrArg₂ (· * ·) ?_ ?_
  · show V c main_arg0 (((cfg0.win 0).blk t).view.emb (ix2 p k)) = _
    exact congrArg (V c main_arg0) h0
  · show V c main_arg4 (((cfg0.win 1).blk t).view.emb (ix2 k q)) = _
    exact congrArg (V c main_arg4) h1

/-- What point `t` writes back to the second output is block `t` of the product with every row scaled by its node's factor. -/
theorem flushed4_eq (c : Dev nD) (t : Fin cfg0.N) :
    (dat0 V c).flushed 4 t = ((cfg0.win 4).blk t).view.read (Elt Ideal) (projScaled (V c main_arg0) (V c main_arg4) (V c main_v11)) := by
  show (cfg0.win 4).cut (grid0.coords t) ((dat0 V c).after 4 t) = _
  rw [after0_4]
  unfold out0_4
  rw [View.canon_unit_zero hz]
  simp only [View.ld_unit_zero (S := S2000x512) hz, View.ld_unit_zero (S := S512x256) hz, View.ld_unit_zero (S := S2000x1) hz]
  obtain ⟨e00, e01, e10, e11, e20, e21, e40, e41, e31, e3le⟩ := idx_facts t
  funext j
  obtain ⟨p, q, rfl⟩ : ∃ (p : Fin 2000) (q : Fin 256), j = ix2 p q := ⟨j 0, j 1, eq_ix2 j⟩
  refine (Cert.KerPay.k0_pay2_apply _ _ _ p q).trans ?_
  show _ = projScaled (V c main_arg0) (V c main_arg4) (V c main_v11) (((cfg0.win 4).blk t).view.emb (ix2 p q))
  unfold projScaled proj
  have h2 : ((cfg0.win 2).blk t).view.emb (ix2 p (0 : Fin 1)) = ix2 (nodeOf (((cfg0.win 4).blk t).view.emb (ix2 p q))) (0 : Fin 1) := by
    funext a; apply Fin.ext
    match a with
    | ⟨0, _⟩ => show win0_2.index t (0 : Fin 2) * 2000 + 1 * p.val = win0_4.index t (0 : Fin 2) * 2000 + 1 * p.val; omega
    | ⟨1, _⟩ => show win0_2.index t (1 : Fin 2) * 1 + 1 * 0 = 0; omega
  refine congrArg₂ (· * ·) (Finset.sum_congr rfl fun k _ => ?_) ?_
  · have h0 : ((cfg0.win 0).blk t).view.emb (ix2 p k) = ix2 (nodeOf (((cfg0.win 4).blk t).view.emb (ix2 p q))) k := by
      funext a; apply Fin.ext
      match a with
      | ⟨0, _⟩ => show win0_0.index t (0 : Fin 2) * 2000 + 1 * p.val = win0_4.index t (0 : Fin 2) * 2000 + 1 * p.val; omega
      | ⟨1, _⟩ => show win0_0.index t (1 : Fin 2) * 512 + 1 * k.val = k.val; omega
    have h1 : ((cfg0.win 1).blk t).view.emb (ix2 k q) = ix2 k (featOf (((cfg0.win 4).blk t).view.emb (ix2 p q))) := by
      funext a; apply Fin.ext
      match a with
      | ⟨0, _⟩ => show win0_1.index t (0 : Fin 2) * 512 + 1 * k.val = k.val; omega
      | ⟨1, _⟩ => show win0_1.index t (1 : Fin 2) * 256 + 1 * q.val = win0_4.index t (1 : Fin 2) * 256 + 1 * q.val; omega
    refine congrArg₂ (· * ·) ?_ ?_
    · show V c main_arg0 (((cfg0.win 0).blk t).view.emb (ix2 p k)) = _
      exact congrArg (V c main_arg0) h0
    · show V c main_arg4 (((cfg0.win 1).blk t).view.emb (ix2 k q)) = _
      exact congrArg (V c main_arg4) h1
  · show V c main_v11 (((cfg0.win 2).blk t).view.emb (ix2 p (0 : Fin 1))) = _
    exact congrArg (V c main_v11) h2

/-- An entry of the array is in point `t`'s block of output 3 iff each coordinate is in the block's range on its axis. -/
theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v13_0).slice (win0_3.rect t)).set ↔ _
  rw [View.set_slice_whole, Rect.mem_set_unit]
  exact Iff.rfl

/-- Every entry of output 3's array is in the block of the point that handles its row's block of 2000. -/
theorem cover3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto3 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- An entry of the array is in point `t`'s block of output 4 iff each coordinate is in the block's range on its axis. -/
theorem mem_blk4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v13_1).slice (win0_4.rect t)).set ↔ _
  rw [View.set_slice_whole, Rect.mem_set_unit]
  exact Iff.rfl

/-- Every entry of output 4's array is in the block of the point that handles its row's block of 2000. -/
theorem cover4 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := idx_onto4 ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- The first output array after the region: the product of the arrays the region found. -/
theorem final3 (c : Dev nD) : (dat0 V c).arrAt 3 cfg0.N = proj (V c main_arg0) (V c main_arg4) :=
  (dat0 V c).arrAt_eq_of_cover 3 _ (fun t _ => flushed3_eq V c t) cover3

/-- The second output array after the region: the product with every row scaled by its node's factor. -/
theorem final4 (c : Dev nD) : (dat0 V c).arrAt 4 cfg0.N = projScaled (V c main_arg0) (V c main_arg4) (V c main_v11) :=
  (dat0 V c).arrAt_eq_of_cover 4 _ (fun t _ => flushed4_eq V c t) cover4

end Cert.KerReg0

end
-- ==== Proof.KerReg1.lean ====
/-
  The second kernel region of a view, as whole arrays.

  The region walks the 50000 node rows in 25 blocks of 2000. At a block it forms each node's hidden features — the
  arrivals scaled by the node's factor, plus the node's own row times the squared factor, plus the bias, positive part —,
  multiplies them by the whole second weight matrix and writes back the products and, to a second array, the products
  scaled row by row by the node's factor. The blocks cover every row and an entry depends only on its own row of the
  operands: each output array ends as one function of the arrays the region found.
-/
import proofs.«179631_j7301444403487_2_alg».proof.Proof.Gen.KernelIdeal.Frame
import proofs.«179631_j7301444403487_2_alg».proof.Proof.Payloads
import proofs.«179631_j7301444403487_2_alg».proof.Proof.KerArrays
import Idealize.ShloMosaic.Lib.Pipeline.Value
import Idealize.ShloMosaic.Lib.ValueIdx

set_option maxRecDepth 16384

noncomputable section

namespace Cert.KerReg1

open Cert.KernelIdeal Cert.KernelIdeal.Gen Cert.KerReg
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block index maps over the 25 grid points: both outputs and the four row-wise operands move together along the
    rows; the bias and the weights stay; no window moves along the columns. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = win1_6.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_7.index t (0 : Fin 2) = win1_6.index t (0 : Fin 2) ∧ win1_7.index t (1 : Fin 2) = 0
    ∧ win1_6.index t (1 : Fin 2) = 0 ∧ win1_6.index t (0 : Fin 2) ≤ 24 :=
  (by decide +kernel : ∀ t : Fin grid1.N, _)

/-- Every block of rows is some grid point's, for either output. -/
theorem idx_onto6 : ∀ q0 : Fin 25, ∃ t : Fin cfg1.N, win1_6.index t = ![q0.val, 0] :=
  (by decide +kernel : ∀ q0 : Fin 25, ∃ t : Fin grid1.N, win1_6.index t = ![q0.val, 0])
theorem idx_onto7 : ∀ q0 : Fin 25, ∃ t : Fin cfg1.N, win1_7.index t = ![q0.val, 0] :=
  (by decide +kernel : ∀ q0 : Fin 25, ∃ t : Fin grid1.N, win1_7.index t = ![q0.val, 0])

/-- What point `t` writes back to the first output is block `t` of the hidden features times the second weights. -/
theorem flushed6_eq (c : Dev nD) (t : Fin cfg1.N) :
    (dat1 V c).flushed 6 t = ((cfg1.win 6).blk t).view.read (Elt Ideal) (proj2 (V c main_v24) (V c main_v13_0) (V c main_v11) (V c main_v12) (V c main_v25) (V c main_arg6)) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S1x256) hz, View.ld_unit_zero (S := S256x256) hz]
  obtain ⟨e00, e01, e10, e11, e20, e21, e30, e31, e40, e41, e50, e51, e70, e71, e61, e6le⟩ := idx_facts t
  funext j
  obtain ⟨p, q, rfl⟩ : ∃ (p : Fin 2000) (q : Fin 256), j = ix2 p q := ⟨j 0, j 1, eq_ix2 j⟩
  refine (Cert.KerPay.k1_pay1_apply _ _ _ _ _ _ p q).trans ?_
  show _ = proj2 (V c main_v24) (V c main_v13_0) (V c main_v11) (V c main_v12) (V c main_v25) (V c main_arg6) (((cfg1.win 6).blk t).view.emb (ix2 p q))
  unfold proj2 act
  refine Finset.sum_congr rfl fun k _ => ?_
  have hag : ((cfg1.win 0).blk t).view.emb (ix2 p k) = ix2 (nodeOf (((cfg1.win 6).blk t).view.emb (ix2 p q))) k := by
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 256 + 1 * k.val = k.val; omega
  have hh : ((cfg1.win 1).blk t).view.emb (ix2 p k) = ix2 (nodeOf (((cfg1.win 6).blk t).view.emb (ix2 p q))) k := by
    funext a; apply Fin.ext
    match a with
    | ⟨0, _⟩ => show win1_1.index t (0 : Fin 2) * 2000 + 1 * p.val = win1_6.index t (0 : Fin 2) * 2000 + 1 * p.val; omega
    | ⟨1, _⟩ => show win1_1.index t (1 : Fin 2) * 256 + 1 * k.val = k.val; omega
  have hd : ((cfg1.win 2).blk t).view.emb (ix2 p (0 : Fin 1)) = ix2 (nodeOf (((cfg1.win 6).blk t).view.emb (ix2 p q))) (0 : Fin 1) := by
    funext a; apply Fin.ext
    match a with
    | ⟨0, _⟩ => show win1_2.index t (0 : Fin 2) * 2000 + 1 * p.val = win1_6.index t (0 : Fin 2) * 2000 + 1 * p.val; omega
    | ⟨1, _⟩ => show win1_2.index t (1 : Fin 2) * 1 + 1 * 0 = 0; omega
  have hid : ((cfg1.win 3).blk t).view.emb (ix2 p (0 : Fin 1)) = ix2 (nodeOf (((cfg1.win 6).blk t).view.emb (ix2 p q))) (0 : Fin 1) := by
    funext a; apply Fin.ext
    match a with
    | ⟨0, _⟩ => show win1_3.index t (0 : Fin 2) * 2000 + 1 * p.val = win1_6.index t (0 : Fin 2) * 2000 + 1 * p.val; omega
    | ⟨1, _⟩ => show win1_3.index t (1 : Fin 2) * 1 + 1 * 0 = 0; omega
  have hb : ((cfg1.win 4).blk t).view.emb (ix2 (0 : Fin 1) k) = ix2 (0 : Fin 1) k := by
    funext a; apply Fin.ext
    match a with
    | ⟨0, _⟩ => show win1_4.index t (0 : Fin 2) * 1 + 1 * 0 = 0; omega
    | ⟨1, _⟩ => show win1_4.index t (1 : Fin 2) * 256 + 1 * k.val = k.val; omega
  have hw : ((cfg1.win 5).blk t).view.emb (ix2 k q) = ix2 k (featOf (((cfg1.win 6).blk t).view.emb (ix2 p q))) := by
    funext a; apply Fin.ext
    match a with
    | ⟨0, _⟩ => show win1_5.index t (0 : Fin 2) * 256 + 1 * k.val = k.val; omega
    | ⟨1, _⟩ => show win1_5.index t (1 : Fin 2) * 256 + 1 * q.val = win1_6.index t (1 : Fin 2) * 256 + 1 * q.val; omega
  refine congrArg₂ (· * ·) (congrArg (fun x => max x Cert.GcnSpec.z) (congrArg₂ (· + ·) (congrArg₂ (· + ·) (congrArg₂ (· * ·) ?_ ?_) (congrArg₂ (· * ·) ?_ ?_)) ?_)) ?_
  · show V c main_v11 (((cfg1.win 2).blk t).view.emb (ix2 p (0 : Fin 1))) = _
    exact congrArg (V c main_v11) hd
  · show V c main_v24 (((cfg1.win 0).blk t).view.emb (ix2 p k)) = _
    exact congrArg (V c main_v24) hag
  · show V c main_v13_0 (((cfg1.win 1).blk t).view.emb (ix2 p k)) = _
    exact congrArg (V c main_v13_0) hh
  · show V c main_v12 (((cfg1.win 3).blk t).view.emb (ix2 p (0 : Fin 1))) = _
    exact congrArg (V c main_v12) hid
  · show V c main_v25 (((cfg1.win 4).blk t).view.emb (ix2 (0 : Fin 1) k)) = _
    exact congrArg (V c main_v25) hb
  · show V c main_arg6 (((cfg1.win 5).blk t).view.emb (ix2 k q)) = _
    exact congrArg (V c main_arg6) hw

/-- What point `t` writes back to the second output is block `t` of the same products scaled by the node's factor. -/
theorem flushed7_eq (c : Dev nD) (t : Fin cfg1.N) :
    (dat1 V c).flushed 7 t = ((cfg1.win 7).blk t).view.read (Elt Ideal) (proj2Scaled (V c main_v24) (V c main_v13_0) (V c main_v11) (V c main_v12) (V c main_v25) (V c main_arg6)) := by
  show (cfg1.win 7).cut (grid1.coords t) ((dat1 V c).after 7 t) = _
  rw [after1_7]
  unfold out1_7
  rw [View.canon_unit_zero hz]
  simp only [View.ld_unit_zero (S := S2000x256) hz, View.ld_unit_zero (S := S2000x1) hz, View.ld_unit_zero (S := S1x256) hz, View.ld_unit_zero (S := S256x256) hz]
  obtain ⟨e00, e01, e10, e11, e20, e21, e30, e31, e40, e41, e50, e51, e70, e71, e61, e6le⟩ := idx_facts t
  funext j
  obtain ⟨p, q, rfl⟩ : ∃ (p : Fin 2000) (q : Fin 256), j = ix2 p q := ⟨j 0, j 1, eq_ix2 j⟩
  refine (Cert.KerPay.k1_pay2_apply _ _ _ _ _ _ _ p q).trans ?_
  show _ = proj2Scaled (V c main_v24) (V c main_v13_0) (V c main_v11) (V c main_v12) (V c main_v25) (V c main_arg6) (((cfg1.win 7).blk t).view.emb (ix2 p q))
  unfold proj2Scaled proj2 act
  have hd2 : ((cfg1.win 2).blk t).view.emb (ix2 p (0 : Fin 1)) = ix2 (nodeOf (((cfg1.win 7).blk t).view.emb (ix2 p q))) (0 : Fin 1) := by
    funext a; apply Fin.ext
    match a with
    | ⟨0, _⟩ => show win1_2.index t (0 : Fin 2) * 2000 + 1 * p.val = win1_7.index t (0 : Fin 2) * 2000 + 1 * p.val; omega
    | ⟨1, _⟩ => show win1_2.index t (1 : Fin 2) * 1 + 1 * 0 = 0; omega
  refine congrArg₂ (· * ·) ?_ ?_
  · refine Finset.sum_congr rfl fun k _ => ?_
    have hag : ((cfg1.win 0).blk t).view.emb (ix2 p k) = ix2 (nodeOf (((cfg1.win 7).blk t).view.emb (ix2 p q))) k := by
      funext a; apply Fin.ext
      match a with
      | ⟨0, _⟩ => show win1_0.index t (0 : Fin 2) * 2000 + 1 * p.val = win1_7.index t (0 : Fin 2) * 2000 + 1 * p.val; omega
      | ⟨1, _⟩ => show win1_0.index t (1 : Fin 2) * 256 + 1 * k.val = k.val; omega
    have hh : ((cfg1.win 1).blk t).view.emb (ix2 p k) = ix2 (nodeOf (((cfg1.win 7).blk t).view.emb (ix2 p q))) k := by
      funext a; apply Fin.ext
      match a with
      | ⟨0, _⟩ => show win1_1.index t (0 : Fin 2) * 2000 + 1 * p.val = win1_7.index t (0 : Fin 2) * 2000 + 1 * p.val; omega
      | ⟨1, _⟩ => show win1_1.index t (1 : Fin 2) * 256 + 1 * k.val = k.val; omega
    have hd : ((cfg1.win 2).blk t).view.emb (ix2 p (0 : Fin 1)) = ix2 (nodeOf (((cfg1.win 7).blk t).view.emb (ix2 p q))) (0 : Fin 1) := by
      funext a; apply Fin.ext
      match a with
      | ⟨0, _⟩ => show win1_2.index t (0 : Fin 2) * 2000 + 1 * p.val = win1_7.index t (0 : Fin 2) * 2000 + 1 * p.val; omega
      | ⟨1, _⟩ => show win1_2.index t (1 : Fin 2) * 1 + 1 * 0 = 0; omega
    have hid : ((cfg1.win 3).blk t).view.emb (ix2 p (0 : Fin 1)) = ix2 (nodeOf (((cfg1.win 7).blk t).view.emb (ix2 p q))) (0 : Fin 1) := by
      funext a; apply Fin.ext
      match a with
      | ⟨0, _⟩ => show win1_3.index t (0 : Fin 2) * 2000 + 1 * p.val = win1_7.index t (0 : Fin 2) * 2000 + 1 * p.val; omega
      | ⟨1, _⟩ => show win1_3.index t (1 : Fin 2) * 1 + 1 * 0 = 0; omega
    have hb : ((cfg1.win 4).blk t).view.emb (ix2 (0 : Fin 1) k) = ix2 (0 : Fin 1) k := by
      funext a; apply Fin.ext
      match a with
      | ⟨0, _⟩ => show win1_4.index t (0 : Fin 2) * 1 + 1 * 0 = 0; omega
      | ⟨1, _⟩ => show win1_4.index t (1 : Fin 2) * 256 + 1 * k.val = k.val; omega
    have hw : ((cfg1.win 5).blk t).view.emb (ix2 k q) = ix2 k (featOf (((cfg1.win 7).blk t).view.emb (ix2 p q))) := by
      funext a; apply Fin.ext
      match a with
      | ⟨0, _⟩ => show win1_5.index t (0 : Fin 2) * 256 + 1 * k.val = k.val; omega
      | ⟨1, _⟩ => show win1_5.index t (1 : Fin 2) * 256 + 1 * q.val = win1_7.index t (1 : Fin 2) * 256 + 1 * q.val; omega
    refine congrArg₂ (· * ·) (congrArg (fun x => max x Cert.GcnSpec.z) (congrArg₂ (· + ·) (congrArg₂ (· + ·) (congrArg₂ (· * ·) ?_ ?_) (congrArg₂ (· * ·) ?_ ?_)) ?_)) ?_
    · show V c main_v11 (((cfg1.win 2).blk t).view.emb (ix2 p (0 : Fin 1))) = _
      exact congrArg (V c main_v11) hd
    · show V c main_v24 (((cfg1.win 0).blk t).view.emb (ix2 p k)) = _
      exact congrArg (V c main_v24) hag
    · show V c main_v13_0 (((cfg1.win 1).blk t).view.emb (ix2 p k)) = _
      exact congrArg (V c main_v13_0) hh
    · show V c main_v12 (((cfg1.win 3).blk t).view.emb (ix2 p (0 : Fin 1))) = _
      exact congrArg (V c main_v12) hid
    · show V c main_v25 (((cfg1.win 4).blk t).view.emb (ix2 (0 : Fin 1) k)) = _
      exact congrArg (V c main_v25) hb
    · show V c main_arg6 (((cfg1.win 5).blk t).view.emb (ix2 k q)) = _
      exact congrArg (V c main_arg6) hw
  · show V c main_v11 (((cfg1.win 2).blk t).view.emb (ix2 p (0 : Fin 1))) = _
    exact congrArg (V c main_v11) hd2

/-- An entry of the array is in point `t`'s block of output 6 iff each coordinate is in the block's range on its axis. -/
theorem mem_blk6 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v26_0).slice (win1_6.rect t)).set ↔ _
  rw [View.set_slice_whole, Rect.mem_set_unit]
  exact Iff.rfl

/-- Every entry of output 6's array is in the block of the point that handles its row's block of 2000. -/
theorem cover6 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto6 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- An entry of the array is in point `t`'s block of output 7 iff each coordinate is in the block's range on its axis. -/
theorem mem_blk7 (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v26_1).slice (win1_7.rect t)).set ↔ _
  rw [View.set_slice_whole, Rect.mem_set_unit]
  exact Iff.rfl

/-- Every entry of output 7's array is in the block of the point that handles its row's block of 2000. -/
theorem cover7 (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ := idx_onto7 ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 256 ≤ (i 1).val ∧ (i 1).val < win1_7.index t (1 : Fin 2) * 256 + 256; omega

/-- The first output array after the region. -/
theorem final6 (c : Dev nD) : (dat1 V c).arrAt 6 cfg1.N = proj2 (V c main_v24) (V c main_v13_0) (V c main_v11) (V c main_v12) (V c main_v25) (V c main_arg6) :=
  (dat1 V c).arrAt_eq_of_cover 6 _ (fun t _ => flushed6_eq V c t) cover6

/-- The second output array after the region. -/
theorem final7 (c : Dev nD) : (dat1 V c).arrAt 7 cfg1.N = proj2Scaled (V c main_v24) (V c main_v13_0) (V c main_v11) (V c main_v12) (V c main_v25) (V c main_arg6) :=
  (dat1 V c).arrAt_eq_of_cover 7 _ (fun t _ => flushed7_eq V c t) cover7

end Cert.KerReg1

end
-- ==== Proof.KerReg2.lean ====
/-
  The third kernel region of a view, as a whole array.

  The region walks the 50000 node rows in 25 blocks of 2000 and writes back, entry by entry, the arrivals scaled by the
  node's factor, plus the node's own row times the squared factor, plus the bias. The blocks cover every row and an
  entry depends only on its own row of the operands: the output array ends as one function of the arrays the region found.
-/
import proofs.«179631_j7301444403487_2_alg».proof.Proof.Gen.KernelIdeal.Frame
import proofs.«179631_j7301444403487_2_alg».proof.Proof.Payloads
import proofs.«179631_j7301444403487_2_alg».proof.Proof.KerArrays
import Idealize.ShloMosaic.Lib.Pipeline.Value
import Idealize.ShloMosaic.Lib.ValueIdx

set_option maxRecDepth 16384

noncomputable section

namespace Cert.KerReg2

open Cert.KernelIdeal Cert.KernelIdeal.Gen Cert.KerReg
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block index maps over the 25 grid points: the output and the four row-wise operands move together along the
    rows; the bias stays; no window moves along the columns. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = win2_5.index t (0 : Fin 2) ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24 :=
  (by decide +kernel : ∀ t : Fin grid2.N, _)

/-- Every block of rows is some grid point's. -/
theorem idx_onto5 : ∀ q0 : Fin 25, ∃ t : Fin cfg2.N, win2_5.index t = ![q0.val, 0] :=
  (by decide +kernel : ∀ q0 : Fin 25, ∃ t : Fin grid2.N, win2_5.index t = ![q0.val, 0])

/-- What point `t` writes back is block `t` of the combination of the arrays as the region finds them. -/
theorem flushed5_eq (c : Dev nD) (t : Fin cfg2.N) :
    (dat2 V c).flushed 5 t = ((cfg2.win 5).blk t).view.read (Elt Ideal) (combine (V c main_v37) (V c main_v26_0) (V c main_v11) (V c main_v12) (V c main_v38)) := by
  show (cfg2.win 5).cut (grid2.coords t) ((dat2 V c).after 5 t) = _
  rw [after2_5]
  unfold out2_5
  rw [View.canon_unit_zero hz]
  simp only [View.ld_unit_zero (S := S2000x256) hz, View.ld_unit_zero (S := S2000x1) hz, View.ld_unit_zero (S := S1x256) hz]
  obtain ⟨e00, e01, e10, e11, e20, e21, e30, e31, e40, e41, e51, e5le⟩ := idx_facts t
  funext j
  obtain ⟨p, q, rfl⟩ : ∃ (p : Fin 2000) (q : Fin 256), j = ix2 p q := ⟨j 0, j 1, eq_ix2 j⟩
  refine (Cert.KerPay.k2_pay1_apply _ _ _ _ _ p q).trans ?_
  show _ = combine (V c main_v37) (V c main_v26_0) (V c main_v11) (V c main_v12) (V c main_v38) (((cfg2.win 5).blk t).view.emb (ix2 p q))
  unfold combine
  have hag : ((cfg2.win 0).blk t).view.emb (ix2 p q) = ix2 (nodeOf (((cfg2.win 5).blk t).view.emb (ix2 p q))) (featOf (((cfg2.win 5).blk t).view.emb (ix2 p q))) := by
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 256 + 1 * q.val = win2_5.index t (1 : Fin 2) * 256 + 1 * q.val; omega
  have hh : ((cfg2.win 1).blk t).view.emb (ix2 p q) = ix2 (nodeOf (((cfg2.win 5).blk t).view.emb (ix2 p q))) (featOf (((cfg2.win 5).blk t).view.emb (ix2 p q))) := by
    funext a; apply Fin.ext
    match a with
    | ⟨0, _⟩ => show win2_1.index t (0 : Fin 2) * 2000 + 1 * p.val = win2_5.index t (0 : Fin 2) * 2000 + 1 * p.val; omega
    | ⟨1, _⟩ => show win2_1.index t (1 : Fin 2) * 256 + 1 * q.val = win2_5.index t (1 : Fin 2) * 256 + 1 * q.val; omega
  have hd : ((cfg2.win 2).blk t).view.emb (ix2 p (0 : Fin 1)) = ix2 (nodeOf (((cfg2.win 5).blk t).view.emb (ix2 p q))) (0 : Fin 1) := by
    funext a; apply Fin.ext
    match a with
    | ⟨0, _⟩ => show win2_2.index t (0 : Fin 2) * 2000 + 1 * p.val = win2_5.index t (0 : Fin 2) * 2000 + 1 * p.val; omega
    | ⟨1, _⟩ => show win2_2.index t (1 : Fin 2) * 1 + 1 * 0 = 0; omega
  have hid : ((cfg2.win 3).blk t).view.emb (ix2 p (0 : Fin 1)) = ix2 (nodeOf (((cfg2.win 5).blk t).view.emb (ix2 p q))) (0 : Fin 1) := by
    funext a; apply Fin.ext
    match a with
    | ⟨0, _⟩ => show win2_3.index t (0 : Fin 2) * 2000 + 1 * p.val = win2_5.index t (0 : Fin 2) * 2000 + 1 * p.val; omega
    | ⟨1, _⟩ => show win2_3.index t (1 : Fin 2) * 1 + 1 * 0 = 0; omega
  have hb : ((cfg2.win 4).blk t).view.emb (ix2 (0 : Fin 1) q) = ix2 (0 : Fin 1) (featOf (((cfg2.win 5).blk t).view.emb (ix2 p q))) := by
    funext a; apply Fin.ext
    match a with
    | ⟨0, _⟩ => show win2_4.index t (0 : Fin 2) * 1 + 1 * 0 = 0; omega
    | ⟨1, _⟩ => show win2_4.index t (1 : Fin 2) * 256 + 1 * q.val = win2_5.index t (1 : Fin 2) * 256 + 1 * q.val; omega
  refine congrArg₂ (· + ·) (congrArg₂ (· + ·) (congrArg₂ (· * ·) ?_ ?_) (congrArg₂ (· * ·) ?_ ?_)) ?_
  · show V c main_v11 (((cfg2.win 2).blk t).view.emb (ix2 p (0 : Fin 1))) = _
    exact congrArg (V c main_v11) hd
  · show V c main_v37 (((cfg2.win 0).blk t).view.emb (ix2 p q)) = _
    exact congrArg (V c main_v37) hag
  · show V c main_v26_0 (((cfg2.win 1).blk t).view.emb (ix2 p q)) = _
    exact congrArg (V c main_v26_0) hh
  · show V c main_v12 (((cfg2.win 3).blk t).view.emb (ix2 p (0 : Fin 1))) = _
    exact congrArg (V c main_v12) hid
  · show V c main_v38 (((cfg2.win 4).blk t).view.emb (ix2 (0 : Fin 1) q)) = _
    exact congrArg (V c main_v38) hb

/-- An entry of the array is in point `t`'s block of output 5 iff each coordinate is in the block's range on its axis. -/
theorem mem_blk5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v39).slice (win2_5.rect t)).set ↔ _
  rw [View.set_slice_whole, Rect.mem_set_unit]
  exact Iff.rfl

/-- Every entry of output 5's array is in the block of the point that handles its row's block of 2000. -/
theorem cover5 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := idx_onto5 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The output array after the region. -/
theorem final5 (c : Dev nD) : (dat2 V c).arrAt 5 cfg2.N = combine (V c main_v37) (V c main_v26_0) (V c main_v11) (V c main_v12) (V c main_v38) :=
  (dat2 V c).arrAt_eq_of_cover 5 _ (fun t _ => flushed5_eq V c t) cover5

end Cert.KerReg2

end
-- ==== Proof.KerHost.lean ====
/-
  The host arithmetic between a view's kernel regions, as functions of the view's edge array.

  From the edge array the host takes the two vectors of positions (sources, targets); counts, for every node, the
  targets that are that node, adds one and takes the reciprocal square root (a column of factors) and its square; and,
  between regions, gathers rows of a node table at the sources (a negative position first has the node count added) and
  adds each gathered row into the row its target names. The same operations serve both views.
-/
import proofs.«179631_j7301444403487_2_alg».proof.Proof.Gen.KernelIdeal
import Idealize.ShloMosaic.PureOps.Ideal

noncomputable section

namespace Cert.KerHost

open Cert.KernelIdeal Cert.KernelIdeal.Facts₀ Cert.KernelIdeal.Facts Idealize.ShloMosaic

/-- The source positions: row 0 of the edge array. -/
def srcVec (E : IVec S2x800000 32) : IVec S800000 32 :=
  shapeCast S800000 (extractStridedSlice S1x800000 ![0, 0] E slices_S2x800000_S1x800000_0_0) shapeCasts_S1x800000_S800000

/-- The target positions: row 1 of the edge array. -/
def dstVec (E : IVec S2x800000 32) : IVec S800000 32 :=
  shapeCast S800000 (extractStridedSlice S1x800000 ![1, 0] E slices_S2x800000_S1x800000_1_0) shapeCasts_S1x800000_S800000

/-- The targets as a column of scatter positions. -/
def dstCol (E : IVec S2x800000 32) : IVec S800000x1 32 :=
  broadcastInDim S800000x1 ![0] bcast_S800000_S800000x1_0 (dstVec E)

/-- Every node's degree: one per arriving edge, plus one. -/
def degVec (E : IVec S2x800000 32) : FVec Ideal S50000 .f32 :=
  addf (Host.scatterAdd scatter_S50000_S800000x1_S800000_n_0_0_1
      (broadcastInDim S50000 ![] bcast_S_S50000 (constant (F := Ideal) S_ .f32 0x00000000#32))
      (dstCol E)
      (broadcastInDim S800000 ![] bcast_S_S800000 (constant (F := Ideal) S_ .f32 0x3F800000#32)))
    (broadcastInDim S50000 ![] bcast_S_S50000 (constant (F := Ideal) S_ .f32 0x3F800000#32))

/-- The column of the nodes' factors. -/
def dinvCol (E : IVec S2x800000 32) : FVec Ideal S50000x1 .f32 :=
  broadcastInDim S50000x1 ![0] bcast_S50000_S50000x1_0 (Host.rsqrt (degVec E))

/-- The column of the squares of the factors. -/
def invdegCol (E : IVec S2x800000 32) : FVec Ideal S50000x1 .f32 :=
  mulf (dinvCol E) (dinvCol E)

/-- The sources as a column of gather positions, a negative one with the node count added. -/
def srcCol (E : IVec S2x800000 32) : IVec S800000x1 32 :=
  broadcastInDim S800000x1 ![0] bcast_S800000_S800000x1_0
    (select (cmpi .slt (srcVec E) (broadcastInDim S800000 ![] bcast_S_S800000 (constantI S_ 32 0#32)))
      (addi (srcVec E) (broadcastInDim S800000 ![] bcast_S_S800000 (constantI S_ 32 50000#32))) (srcVec E))

/-- The arrivals: each edge's row of the table `M` at its source, added into the row its target names. -/
def agg (E : IVec S2x800000 32) (M : FVec Ideal S50000x256 .bf16) :
    FVec Ideal S50000x256 .f32 :=
  Host.scatterAdd scatter_S50000x256_S800000x1_S800000x256_1_0_0_1
    (broadcastInDim S50000x256 ![] bcast_S_S50000x256 (constant (F := Ideal) S_ .f32 0x00000000#32))
    (dstCol E)
    (extf .f32 (Host.gather gather_S50000x256_S800000x1_S800000x256_1_0_n_n_0_1_1256 M (srcCol E)) bitsLt_bf16_f32)

/-- A bias vector as a one-row matrix. -/
def biasRow (B : FVec Ideal S256 .f32) : FVec Ideal S1x256 .f32 :=
  shapeCast S1x256 B shapeCasts_S256_S1x256

end Cert.KerHost

end
-- ==== Proof.KerView.lean ====
/-
  A view's result as one function of its arguments, through the three kernels and the host arithmetic between them.

  With the factor column and its square computed from the edge array, the first kernel projects the node features, the
  host adds the scaled projections along the edges, the second kernel turns arrivals and projections into hidden
  features and projects those, the host adds along the edges again, and the third kernel combines. Both views are this
  one function, at their own features and edges.
-/
import proofs.«179631_j7301444403487_2_alg».proof.Proof.KerArrays
import proofs.«179631_j7301444403487_2_alg».proof.Proof.KerHost

noncomputable section

namespace Cert.KerView

open Cert.KernelIdeal Cert.KernelIdeal.Facts₀ Cert.KernelIdeal.Facts Cert.KerReg Cert.KerHost Idealize.ShloMosaic

/-- The arrivals of the first layer. -/
def agg1 (E : IVec S2x800000 32) (X : S50000x512.Idx → EReal) (Wa : S512x256.Idx → EReal) : S50000x256.Idx → EReal :=
  agg E (projScaled X Wa (dinvCol E))

/-- The arrivals of the second layer. -/
def agg2 (E : IVec S2x800000 32) (X : S50000x512.Idx → EReal) (Wa : S512x256.Idx → EReal) (Ba : S256.Idx → EReal)
    (Wb : S256x256.Idx → EReal) : S50000x256.Idx → EReal :=
  agg E (proj2Scaled (agg1 E X Wa) (proj X Wa) (dinvCol E) (invdegCol E) (biasRow Ba) Wb)

/-- A view's result. -/
def out (E : IVec S2x800000 32) (X : S50000x512.Idx → EReal) (Wa : S512x256.Idx → EReal) (Ba : S256.Idx → EReal)
    (Wb : S256x256.Idx → EReal) (Bb : S256.Idx → EReal) : S50000x256.Idx → EReal :=
  combine (agg2 E X Wa Ba Wb) (proj2 (agg1 E X Wa) (proj X Wa) (dinvCol E) (invdegCol E) (biasRow Ba) Wb)
    (dinvCol E) (invdegCol E) (biasRow Bb)

/-- The arrivals as a function of the two position vectors and the table. -/
def aggOf (s d : IVec S800000 32) (M : FVec Ideal S50000x256 .bf16) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (extf .f32 (Host.gather gather_S50000x256_S800000x1_S800000x256_1_0_n_n_0_1_1256 M
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))) bitsLt_bf16_f32)

theorem agg_eq_aggOf (E : IVec S2x800000 32) (M : FVec Ideal S50000x256 .bf16) : agg E M = aggOf (srcVec E) (dstVec E) M := rfl

theorem aggOf_congr {s s' d d' : IVec S800000 32} {M M' : FVec Ideal S50000x256 .bf16} (h1 : s = s') (h2 : d = d') (h3 : M = M') :
    aggOf s d M = aggOf s' d' M' := by subst h1 h2 h3; rfl

theorem proj_congr {X X' : S50000x512.Idx → EReal} {W W' : S512x256.Idx → EReal} (h1 : X = X') (h2 : W = W') :
    proj X W = proj X' W' := by subst h1 h2; rfl

theorem projScaled_congr {X X' : S50000x512.Idx → EReal} {W W' : S512x256.Idx → EReal} {D D' : S50000x1.Idx → EReal}
    (h1 : X = X') (h2 : W = W') (h3 : D = D') : projScaled X W D = projScaled X' W' D' := by subst h1 h2 h3; rfl

theorem proj2_congr {AG AG' H H' : S50000x256.Idx → EReal} {D D' ID ID' : S50000x1.Idx → EReal} {B B' : S1x256.Idx → EReal}
    {W W' : S256x256.Idx → EReal} (h1 : AG = AG') (h2 : H = H') (h3 : D = D') (h4 : ID = ID') (h5 : B = B') (h6 : W = W') :
    proj2 AG H D ID B W = proj2 AG' H' D' ID' B' W' := by subst h1 h2 h3 h4 h5 h6; rfl

theorem proj2Scaled_congr {AG AG' H H' : S50000x256.Idx → EReal} {D D' ID ID' : S50000x1.Idx → EReal} {B B' : S1x256.Idx → EReal}
    {W W' : S256x256.Idx → EReal} (h1 : AG = AG') (h2 : H = H') (h3 : D = D') (h4 : ID = ID') (h5 : B = B') (h6 : W = W') :
    proj2Scaled AG H D ID B W = proj2Scaled AG' H' D' ID' B' W' := by subst h1 h2 h3 h4 h5 h6; rfl

theorem combine_congr {AG AG' H H' : S50000x256.Idx → EReal} {D D' ID ID' : S50000x1.Idx → EReal} {B B' : S1x256.Idx → EReal}
    (h1 : AG = AG') (h2 : H = H') (h3 : D = D') (h4 : ID = ID') (h5 : B = B') :
    combine AG H D ID B = combine AG' H' D' ID' B' := by subst h1 h2 h3 h4 h5; rfl

end Cert.KerView

end
-- ==== Proof.KerFold1.lean ====
/-
  The first view through the program: what each buffer of the view holds at each boundary between the host stretches
  and the kernel regions, from the launch to the view's result.

  A host stretch is read operation by operation; a kernel region leaves each of its output arrays at the whole-array
  function of the arrays it found, its input arrays as found, and every other buffer untouched. Followed boundary by
  boundary, the view's result buffer ends at the view's function of the argument arrays, and every argument array is
  still what it was launched with when the second view starts.
-/
import proofs.«179631_j7301444403487_2_alg».proof.Proof.KerReg0
import proofs.«179631_j7301444403487_2_alg».proof.Proof.KerReg1
import proofs.«179631_j7301444403487_2_alg».proof.Proof.KerReg2
import proofs.«179631_j7301444403487_2_alg».proof.Proof.KerView
import Idealize.ShloMosaic.Lib.StableHlo.Run

set_option maxRecDepth 16384

noncomputable section

namespace Cert.KerFold1

open Cert.KernelIdeal Cert.KernelIdeal.Gen Cert.KerReg Cert.KerView
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  by
  show StableHlo.after hostOps0 (W0 m ρ c) (Proc.devRef .tc main_arg0) = _
  after_results

theorem W1_arg1 (c : Dev nD) : W1 m ρ c (Proc.devRef .tc main_arg1) = m ((c : Thread nD τ).loc main_arg1) :=
  by
  show StableHlo.after hostOps0 (W0 m ρ c) (Proc.devRef .tc main_arg1) = _
  after_results

theorem W1_arg2 (c : Dev nD) : W1 m ρ c (Proc.devRef .tc main_arg2) = m ((c : Thread nD τ).loc main_arg2) :=
  by
  show StableHlo.after hostOps0 (W0 m ρ c) (Proc.devRef .tc main_arg2) = _
  after_results

theorem W1_arg3 (c : Dev nD) : W1 m ρ c (Proc.devRef .tc main_arg3) = m ((c : Thread nD τ).loc main_arg3) :=
  by
  show StableHlo.after hostOps0 (W0 m ρ c) (Proc.devRef .tc main_arg3) = _
  after_results

theorem W1_arg4 (c : Dev nD) : W1 m ρ c (Proc.devRef .tc main_arg4) = m ((c : Thread nD τ).loc main_arg4) :=
  by
  show StableHlo.after hostOps0 (W0 m ρ c) (Proc.devRef .tc main_arg4) = _
  after_results

theorem W1_arg5 (c : Dev nD) : W1 m ρ c (Proc.devRef .tc main_arg5) = m ((c : Thread nD τ).loc main_arg5) :=
  by
  show StableHlo.after hostOps0 (W0 m ρ c) (Proc.devRef .tc main_arg5) = _
  after_results

theorem W1_arg6 (c : Dev nD) : W1 m ρ c (Proc.devRef .tc main_arg6) = m ((c : Thread nD τ).loc main_arg6) :=
  by
  show StableHlo.after hostOps0 (W0 m ρ c) (Proc.devRef .tc main_arg6) = _
  after_results

theorem W1_arg7 (c : Dev nD) : W1 m ρ c (Proc.devRef .tc main_arg7) = m ((c : Thread nD τ).loc main_arg7) :=
  by
  show StableHlo.after hostOps0 (W0 m ρ c) (Proc.devRef .tc main_arg7) = _
  after_results

theorem W1_v1 (c : Dev nD) : W1 m ρ c (Proc.devRef .tc main_v1) = Cert.KerHost.srcVec (m ((c : Thread nD τ).loc main_arg2)) :=
  by
  show StableHlo.after hostOps0 (W0 m ρ c) (Proc.devRef .tc main_v1) = _
  after_results
  rfl

theorem W1_v3 (c : Dev nD) : W1 m ρ c (Proc.devRef .tc main_v3) = Cert.KerHost.dstVec (m ((c : Thread nD τ).loc main_arg2)) :=
  by
  show StableHlo.after hostOps0 (W0 m ρ c) (Proc.devRef .tc main_v3) = _
  after_results
  rfl

theorem W1_v11 (c : Dev nD) : W1 m ρ c (Proc.devRef .tc main_v11) = Cert.KerHost.dinvCol (m ((c : Thread nD τ).loc main_arg2)) :=
  by
  show StableHlo.after hostOps0 (W0 m ρ c) (Proc.devRef .tc main_v11) = _
  after_results
  rfl

theorem W1_v12 (c : Dev nD) : W1 m ρ c (Proc.devRef .tc main_v12) = Cert.KerHost.invdegCol (m ((c : Thread nD τ).loc main_arg2)) :=
  by
  show StableHlo.after hostOps0 (W0 m ρ c) (Proc.devRef .tc main_v12) = _
  after_results
  rfl

theorem W2_v13_0 (c : Dev nD) : W2 m ρ c (Proc.devRef .tc main_v13_0) = proj (m ((c : Thread nD τ).loc main_arg0)) (m ((c : Thread nD τ).loc main_arg4)) :=
  (W2_arr m ρ c 3).trans ((Cert.KerReg0.final3 (V1 m ρ) c).trans (proj_congr (W1_arg0 m ρ c) (W1_arg4 m ρ c)))

theorem W2_v13_1 (c : Dev nD) : W2 m ρ c (Proc.devRef .tc main_v13_1) = projScaled (m ((c : Thread nD τ).loc main_arg0)) (m ((c : Thread nD τ).loc main_arg4)) (Cert.KerHost.dinvCol (m ((c : Thread nD τ).loc main_arg2))) :=
  (W2_arr m ρ c 4).trans ((Cert.KerReg0.final4 (V1 m ρ) c).trans (projScaled_congr (W1_arg0 m ρ c) (W1_arg4 m ρ c) (W1_v11 m ρ c)))

theorem W2_v1 (c : Dev nD) : W2 m ρ c (Proc.devRef .tc main_v1) = Cert.KerHost.srcVec (m ((c : Thread nD τ).loc main_arg2)) :=
  (W2_of_ne m ρ c main_v1 (by decide)).trans (W1_v1 m ρ c)

theorem W2_v3 (c : Dev nD) : W2 m ρ c (Proc.devRef .tc main_v3) = Cert.KerHost.dstVec (m ((c : Thread nD τ).loc main_arg2)) :=
  (W2_of_ne m ρ c main_v3 (by decide)).trans (W1_v3 m ρ c)

theorem W2_v12 (c : Dev nD) : W2 m ρ c (Proc.devRef .tc main_v12) = Cert.KerHost.invdegCol (m ((c : Thread nD τ).loc main_arg2)) :=
  (W2_of_ne m ρ c main_v12 (by decide)).trans (W1_v12 m ρ c)

theorem W2_v11 (c : Dev nD) : W2 m ρ c (Proc.devRef .tc main_v11) = Cert.KerHost.dinvCol (m ((c : Thread nD τ).loc main_arg2)) :=
  (W2_arr m ρ c 2).trans ((((dat0 (V1 m ρ) c).arrAt_in 2 rfl _).trans (A_eq0 (V1 m ρ) c 2)).trans (W1_v11 m ρ c))

theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (W1_arg0 m ρ c))

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_arr m ρ c 1).trans ((((dat0 (V1 m ρ) c).arrAt_in 1 rfl _).trans (A_eq0 (V1 m ρ) c 1)).trans (W1_arg4 m ρ c))

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

set_option maxHeartbeats 1000000 in
theorem W3_v24 (c : Dev nD) : W3 m ρ c (Proc.devRef .tc main_v24) = agg1 (m ((c : Thread nD τ).loc main_arg2)) (m ((c : Thread nD τ).loc main_arg0)) (m ((c : Thread nD τ).loc main_arg4)) :=
  by
  show StableHlo.after hostOps1 (W2 m ρ c) (Proc.devRef .tc main_v24) = _
  after_results_simp
  exact (aggOf_congr (W2_v1 m ρ c) (W2_v3 m ρ c) (W2_v13_1 m ρ c)).trans (agg_eq_aggOf _ _).symm

theorem W3_v25 (c : Dev nD) : W3 m ρ c (Proc.devRef .tc main_v25) = Cert.KerHost.biasRow (m ((c : Thread nD τ).loc main_arg5)) :=
  by
  show StableHlo.after hostOps1 (W2 m ρ c) (Proc.devRef .tc main_v25) = _
  after_results
  rw [W2_arg5 m ρ c]
  rfl

theorem W3_v13_0 (c : Dev nD) : W3 m ρ c (Proc.devRef .tc main_v13_0) = proj (m ((c : Thread nD τ).loc main_arg0)) (m ((c : Thread nD τ).loc main_arg4)) :=
  by
  show StableHlo.after hostOps1 (W2 m ρ c) (Proc.devRef .tc main_v13_0) = _
  after_results
  exact W2_v13_0 m ρ c

theorem W3_v11 (c : Dev nD) : W3 m ρ c (Proc.devRef .tc main_v11) = Cert.KerHost.dinvCol (m ((c : Thread nD τ).loc main_arg2)) :=
  by
  show StableHlo.after hostOps1 (W2 m ρ c) (Proc.devRef .tc main_v11) = _
  after_results
  exact W2_v11 m ρ c

theorem W3_v12 (c : Dev nD) : W3 m ρ c (Proc.devRef .tc main_v12) = Cert.KerHost.invdegCol (m ((c : Thread nD τ).loc main_arg2)) :=
  by
  show StableHlo.after hostOps1 (W2 m ρ c) (Proc.devRef .tc main_v12) = _
  after_results
  exact W2_v12 m ρ c

theorem W3_v1 (c : Dev nD) : W3 m ρ c (Proc.devRef .tc main_v1) = Cert.KerHost.srcVec (m ((c : Thread nD τ).loc main_arg2)) :=
  by
  show StableHlo.after hostOps1 (W2 m ρ c) (Proc.devRef .tc main_v1) = _
  after_results
  exact W2_v1 m ρ c

theorem W3_v3 (c : Dev nD) : W3 m ρ c (Proc.devRef .tc main_v3) = Cert.KerHost.dstVec (m ((c : Thread nD τ).loc main_arg2)) :=
  by
  show StableHlo.after hostOps1 (W2 m ρ c) (Proc.devRef .tc main_v3) = _
  after_results
  exact W2_v3 m ρ c

theorem W3_arg0 (c : Dev nD) : W3 m ρ c (Proc.devRef .tc main_arg0) = m ((c : Thread nD τ).loc main_arg0) :=
  by
  show StableHlo.after hostOps1 (W2 m ρ c) (Proc.devRef .tc main_arg0) = _
  after_results
  exact W2_arg0 m ρ c

theorem W3_arg1 (c : Dev nD) : W3 m ρ c (Proc.devRef .tc main_arg1) = m ((c : Thread nD τ).loc main_arg1) :=
  by
  show StableHlo.after hostOps1 (W2 m ρ c) (Proc.devRef .tc main_arg1) = _
  after_results
  exact W2_arg1 m ρ c

theorem W3_arg2 (c : Dev nD) : W3 m ρ c (Proc.devRef .tc main_arg2) = m ((c : Thread nD τ).loc main_arg2) :=
  by
  show StableHlo.after hostOps1 (W2 m ρ c) (Proc.devRef .tc main_arg2) = _
  after_results
  exact W2_arg2 m ρ c

theorem W3_arg3 (c : Dev nD) : W3 m ρ c (Proc.devRef .tc main_arg3) = m ((c : Thread nD τ).loc main_arg3) :=
  by
  show StableHlo.after hostOps1 (W2 m ρ c) (Proc.devRef .tc main_arg3) = _
  after_results
  exact W2_arg3 m ρ c

theorem W3_arg4 (c : Dev nD) : W3 m ρ c (Proc.devRef .tc main_arg4) = m ((c : Thread nD τ).loc main_arg4) :=
  by
  show StableHlo.after hostOps1 (W2 m ρ c) (Proc.devRef .tc main_arg4) = _
  after_results
  exact W2_arg4 m ρ c

theorem W3_arg5 (c : Dev nD) : W3 m ρ c (Proc.devRef .tc main_arg5) = m ((c : Thread nD τ).loc main_arg5) :=
  by
  show StableHlo.after hostOps1 (W2 m ρ c) (Proc.devRef .tc main_arg5) = _
  after_results
  exact W2_arg5 m ρ c

theorem W3_arg6 (c : Dev nD) : W3 m ρ c (Proc.devRef .tc main_arg6) = m ((c : Thread nD τ).loc main_arg6) :=
  by
  show StableHlo.after hostOps1 (W2 m ρ c) (Proc.devRef .tc main_arg6) = _
  after_results
  exact W2_arg6 m ρ c

theorem W3_arg7 (c : Dev nD) : W3 m ρ c (Proc.devRef .tc main_arg7) = m ((c : Thread nD τ).loc main_arg7) :=
  by
  show StableHlo.after hostOps1 (W2 m ρ c) (Proc.devRef .tc main_arg7) = _
  after_results
  exact W2_arg7 m ρ c

theorem W4_v26_0 (c : Dev nD) : W4 m ρ c (Proc.devRef .tc main_v26_0) = proj2 (agg1 (m ((c : Thread nD τ).loc main_arg2)) (m ((c : Thread nD τ).loc main_arg0)) (m ((c : Thread nD τ).loc main_arg4))) (proj (m ((c : Thread nD τ).loc main_arg0)) (m ((c : Thread nD τ).loc main_arg4))) (Cert.KerHost.dinvCol (m ((c : Thread nD τ).loc main_arg2))) (Cert.KerHost.invdegCol (m ((c : Thread nD τ).loc main_arg2))) (Cert.KerHost.biasRow (m ((c : Thread nD τ).loc main_arg5))) (m ((c : Thread nD τ).loc main_arg6)) :=
  (W4_arr m ρ c 6).trans ((Cert.KerReg1.final6 (V3 m ρ) c).trans (proj2_congr (W3_v24 m ρ c) (W3_v13_0 m ρ c) (W3_v11 m ρ c) (W3_v12 m ρ c) (W3_v25 m ρ c) (W3_arg6 m ρ c)))

theorem W4_v26_1 (c : Dev nD) : W4 m ρ c (Proc.devRef .tc main_v26_1) = proj2Scaled (agg1 (m ((c : Thread nD τ).loc main_arg2)) (m ((c : Thread nD τ).loc main_arg0)) (m ((c : Thread nD τ).loc main_arg4))) (proj (m ((c : Thread nD τ).loc main_arg0)) (m ((c : Thread nD τ).loc main_arg4))) (Cert.KerHost.dinvCol (m ((c : Thread nD τ).loc main_arg2))) (Cert.KerHost.invdegCol (m ((c : Thread nD τ).loc main_arg2))) (Cert.KerHost.biasRow (m ((c : Thread nD τ).loc main_arg5))) (m ((c : Thread nD τ).loc main_arg6)) :=
  (W4_arr m ρ c 7).trans ((Cert.KerReg1.final7 (V3 m ρ) c).trans (proj2Scaled_congr (W3_v24 m ρ c) (W3_v13_0 m ρ c) (W3_v11 m ρ c) (W3_v12 m ρ c) (W3_v25 m ρ c) (W3_arg6 m ρ c)))

theorem W4_v1 (c : Dev nD) : W4 m ρ c (Proc.devRef .tc main_v1) = Cert.KerHost.srcVec (m ((c : Thread nD τ).loc main_arg2)) :=
  (W4_of_ne m ρ c main_v1 (by decide)).trans (W3_v1 m ρ c)

theorem W4_v3 (c : Dev nD) : W4 m ρ c (Proc.devRef .tc main_v3) = Cert.KerHost.dstVec (m ((c : Thread nD τ).loc main_arg2)) :=
  (W4_of_ne m ρ c main_v3 (by decide)).trans (W3_v3 m ρ c)

theorem W4_v11 (c : Dev nD) : W4 m ρ c (Proc.devRef .tc main_v11) = Cert.KerHost.dinvCol (m ((c : Thread nD τ).loc main_arg2)) :=
  (W4_arr m ρ c 2).trans ((((dat1 (V3 m ρ) c).arrAt_in 2 rfl _).trans (A_eq1 (V3 m ρ) c 2)).trans (W3_v11 m ρ c))

theorem W4_v12 (c : Dev nD) : W4 m ρ c (Proc.devRef .tc main_v12) = Cert.KerHost.invdegCol (m ((c : Thread nD τ).loc main_arg2)) :=
  (W4_arr m ρ c 3).trans ((((dat1 (V3 m ρ) c).arrAt_in 3 rfl _).trans (A_eq1 (V3 m ρ) c 3)).trans (W3_v12 m ρ c))

theorem W4_arg0 (c : Dev nD) : W4 m ρ c (Proc.devRef .tc main_arg0) = m ((c : Thread nD τ).loc main_arg0) :=
  (W4_of_ne m ρ c main_arg0 (by decide)).trans (W3_arg0 m ρ c)

theorem W4_arg1 (c : Dev nD) : W4 m ρ c (Proc.devRef .tc main_arg1) = m ((c : Thread nD τ).loc main_arg1) :=
  (W4_of_ne m ρ c main_arg1 (by decide)).trans (W3_arg1 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg5 (c : Dev nD) : W4 m ρ c (Proc.devRef .tc main_arg5) = m ((c : Thread nD τ).loc main_arg5) :=
  (W4_of_ne m ρ c main_arg5 (by decide)).trans (W3_arg5 m ρ c)

theorem W4_arg6 (c : Dev nD) : W4 m ρ c (Proc.devRef .tc main_arg6) = m ((c : Thread nD τ).loc main_arg6) :=
  (W4_arr m ρ c 5).trans ((((dat1 (V3 m ρ) c).arrAt_in 5 rfl _).trans (A_eq1 (V3 m ρ) c 5)).trans (W3_arg6 m ρ c))

theorem W4_arg7 (c : Dev nD) : W4 m ρ c (Proc.devRef .tc main_arg7) = m ((c : Thread nD τ).loc main_arg7) :=
  (W4_of_ne m ρ c main_arg7 (by decide)).trans (W3_arg7 m ρ c)

set_option maxHeartbeats 1000000 in
theorem W5_v37 (c : Dev nD) : W5 m ρ c (Proc.devRef .tc main_v37) = agg2 (m ((c : Thread nD τ).loc main_arg2)) (m ((c : Thread nD τ).loc main_arg0)) (m ((c : Thread nD τ).loc main_arg4)) (m ((c : Thread nD τ).loc main_arg5)) (m ((c : Thread nD τ).loc main_arg6)) :=
  by
  show StableHlo.after hostOps2 (W4 m ρ c) (Proc.devRef .tc main_v37) = _
  after_results_simp
  exact (aggOf_congr (W4_v1 m ρ c) (W4_v3 m ρ c) (W4_v26_1 m ρ c)).trans (agg_eq_aggOf _ _).symm

theorem W5_v38 (c : Dev nD) : W5 m ρ c (Proc.devRef .tc main_v38) = Cert.KerHost.biasRow (m ((c : Thread nD τ).loc main_arg7)) :=
  by
  show StableHlo.after hostOps2 (W4 m ρ c) (Proc.devRef .tc main_v38) = _
  after_results
  rw [W4_arg7 m ρ c]
  rfl

theorem W5_v26_0 (c : Dev nD) : W5 m ρ c (Proc.devRef .tc main_v26_0) = proj2 (agg1 (m ((c : Thread nD τ).loc main_arg2)) (m ((c : Thread nD τ).loc main_arg0)) (m ((c : Thread nD τ).loc main_arg4))) (proj (m ((c : Thread nD τ).loc main_arg0)) (m ((c : Thread nD τ).loc main_arg4))) (Cert.KerHost.dinvCol (m ((c : Thread nD τ).loc main_arg2))) (Cert.KerHost.invdegCol (m ((c : Thread nD τ).loc main_arg2))) (Cert.KerHost.biasRow (m ((c : Thread nD τ).loc main_arg5))) (m ((c : Thread nD τ).loc main_arg6)) :=
  by
  show StableHlo.after hostOps2 (W4 m ρ c) (Proc.devRef .tc main_v26_0) = _
  after_results
  exact W4_v26_0 m ρ c

theorem W5_v11 (c : Dev nD) : W5 m ρ c (Proc.devRef .tc main_v11) = Cert.KerHost.dinvCol (m ((c : Thread nD τ).loc main_arg2)) :=
  by
  show StableHlo.after hostOps2 (W4 m ρ c) (Proc.devRef .tc main_v11) = _
  after_results
  exact W4_v11 m ρ c

theorem W5_v12 (c : Dev nD) : W5 m ρ c (Proc.devRef .tc main_v12) = Cert.KerHost.invdegCol (m ((c : Thread nD τ).loc main_arg2)) :=
  by
  show StableHlo.after hostOps2 (W4 m ρ c) (Proc.devRef .tc main_v12) = _
  after_results
  exact W4_v12 m ρ c

theorem W5_arg0 (c : Dev nD) : W5 m ρ c (Proc.devRef .tc main_arg0) = m ((c : Thread nD τ).loc main_arg0) :=
  by
  show StableHlo.after hostOps2 (W4 m ρ c) (Proc.devRef .tc main_arg0) = _
  after_results
  exact W4_arg0 m ρ c

theorem W5_arg1 (c : Dev nD) : W5 m ρ c (Proc.devRef .tc main_arg1) = m ((c : Thread nD τ).loc main_arg1) :=
  by
  show StableHlo.after hostOps2 (W4 m ρ c) (Proc.devRef .tc main_arg1) = _
  after_results
  exact W4_arg1 m ρ c

theorem W5_arg2 (c : Dev nD) : W5 m ρ c (Proc.devRef .tc main_arg2) = m ((c : Thread nD τ).loc main_arg2) :=
  by
  show StableHlo.after hostOps2 (W4 m ρ c) (Proc.devRef .tc main_arg2) = _
  after_results
  exact W4_arg2 m ρ c

theorem W5_arg3 (c : Dev nD) : W5 m ρ c (Proc.devRef .tc main_arg3) = m ((c : Thread nD τ).loc main_arg3) :=
  by
  show StableHlo.after hostOps2 (W4 m ρ c) (Proc.devRef .tc main_arg3) = _
  after_results
  exact W4_arg3 m ρ c

theorem W5_arg4 (c : Dev nD) : W5 m ρ c (Proc.devRef .tc main_arg4) = m ((c : Thread nD τ).loc main_arg4) :=
  by
  show StableHlo.after hostOps2 (W4 m ρ c) (Proc.devRef .tc main_arg4) = _
  after_results
  exact W4_arg4 m ρ c

theorem W5_arg5 (c : Dev nD) : W5 m ρ c (Proc.devRef .tc main_arg5) = m ((c : Thread nD τ).loc main_arg5) :=
  by
  show StableHlo.after hostOps2 (W4 m ρ c) (Proc.devRef .tc main_arg5) = _
  after_results
  exact W4_arg5 m ρ c

theorem W5_arg6 (c : Dev nD) : W5 m ρ c (Proc.devRef .tc main_arg6) = m ((c : Thread nD τ).loc main_arg6) :=
  by
  show StableHlo.after hostOps2 (W4 m ρ c) (Proc.devRef .tc main_arg6) = _
  after_results
  exact W4_arg6 m ρ c

theorem W5_arg7 (c : Dev nD) : W5 m ρ c (Proc.devRef .tc main_arg7) = m ((c : Thread nD τ).loc main_arg7) :=
  by
  show StableHlo.after hostOps2 (W4 m ρ c) (Proc.devRef .tc main_arg7) = _
  after_results
  exact W4_arg7 m ρ c

theorem W6_v39 (c : Dev nD) : W6 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) :=
  (W6_arr m ρ c 5).trans ((Cert.KerReg2.final5 (V5 m ρ) c).trans (combine_congr (W5_v37 m ρ c) (W5_v26_0 m ρ c) (W5_v11 m ρ c) (W5_v12 m ρ c) (W5_v38 m ρ c)))

theorem W6_arg0 (c : Dev nD) : W6 m ρ c (Proc.devRef .tc main_arg0) = m ((c : Thread nD τ).loc main_arg0) :=
  (W6_of_ne m ρ c main_arg0 (by decide)).trans (W5_arg0 m ρ c)

theorem W6_arg1 (c : Dev nD) : W6 m ρ c (Proc.devRef .tc main_arg1) = m ((c : Thread nD τ).loc main_arg1) :=
  (W6_of_ne m ρ c main_arg1 (by decide)).trans (W5_arg1 m ρ c)

theorem W6_arg2 (c : Dev nD) : W6 m ρ c (Proc.devRef .tc main_arg2) = m ((c : Thread nD τ).loc main_arg2) :=
  (W6_of_ne m ρ c main_arg2 (by decide)).trans (W5_arg2 m ρ c)

theorem W6_arg3 (c : Dev nD) : W6 m ρ c (Proc.devRef .tc main_arg3) = m ((c : Thread nD τ).loc main_arg3) :=
  (W6_of_ne m ρ c main_arg3 (by decide)).trans (W5_arg3 m ρ c)

theorem W6_arg4 (c : Dev nD) : W6 m ρ c (Proc.devRef .tc main_arg4) = m ((c : Thread nD τ).loc main_arg4) :=
  (W6_of_ne m ρ c main_arg4 (by decide)).trans (W5_arg4 m ρ c)

theorem W6_arg5 (c : Dev nD) : W6 m ρ c (Proc.devRef .tc main_arg5) = m ((c : Thread nD τ).loc main_arg5) :=
  (W6_of_ne m ρ c main_arg5 (by decide)).trans (W5_arg5 m ρ c)

theorem W6_arg6 (c : Dev nD) : W6 m ρ c (Proc.devRef .tc main_arg6) = m ((c : Thread nD τ).loc main_arg6) :=
  (W6_of_ne m ρ c main_arg6 (by decide)).trans (W5_arg6 m ρ c)

theorem W6_arg7 (c : Dev nD) : W6 m ρ c (Proc.devRef .tc main_arg7) = m ((c : Thread nD τ).loc main_arg7) :=
  (W6_of_ne m ρ c main_arg7 (by decide)).trans (W5_arg7 m ρ c)

end Cert.KerFold1

end
-- ==== Proof.KerFold2.lean ====
/-
  The second view through the program, from the boundary where the first view ends to the return.

  The second view's stretches and regions are read as the first view's were, starting from argument arrays that the
  first view left as launched. The first view's result buffer is touched by nothing that follows, so it ends holding
  what the first view left there.
-/
import proofs.«179631_j7301444403487_2_alg».proof.Proof.KerReg3
import proofs.«179631_j7301444403487_2_alg».proof.Proof.KerReg4
import proofs.«179631_j7301444403487_2_alg».proof.Proof.KerReg5
import proofs.«179631_j7301444403487_2_alg».proof.Proof.KerFold1
import proofs.«179631_j7301444403487_2_alg».proof.Proof.KerView
import Idealize.ShloMosaic.Lib.StableHlo.Run

set_option maxRecDepth 16384

noncomputable section

namespace Cert.KerFold2

open Cert.KernelIdeal Cert.KernelIdeal.Gen Cert.KerReg Cert.KerView
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem W7_arg1 (c : Dev nD) : W7 m ρ c (Proc.devRef .tc main_arg1) = m ((c : Thread nD τ).loc main_arg1) :=
  by
  show StableHlo.after hostOps3 (W6 m ρ c) (Proc.devRef .tc main_arg1) = _
  after_results
  exact Cert.KerFold1.W6_arg1 m ρ c

theorem W7_arg3 (c : Dev nD) : W7 m ρ c (Proc.devRef .tc main_arg3) = m ((c : Thread nD τ).loc main_arg3) :=
  by
  show StableHlo.after hostOps3 (W6 m ρ c) (Proc.devRef .tc main_arg3) = _
  after_results
  exact Cert.KerFold1.W6_arg3 m ρ c

theorem W7_arg4 (c : Dev nD) : W7 m ρ c (Proc.devRef .tc main_arg4) = m ((c : Thread nD τ).loc main_arg4) :=
  by
  show StableHlo.after hostOps3 (W6 m ρ c) (Proc.devRef .tc main_arg4) = _
  after_results
  exact Cert.KerFold1.W6_arg4 m ρ c

theorem W7_arg5 (c : Dev nD) : W7 m ρ c (Proc.devRef .tc main_arg5) = m ((c : Thread nD τ).loc main_arg5) :=
  by
  show StableHlo.after hostOps3 (W6 m ρ c) (Proc.devRef .tc main_arg5) = _
  after_results
  exact Cert.KerFold1.W6_arg5 m ρ c

theorem W7_arg6 (c : Dev nD) : W7 m ρ c (Proc.devRef .tc main_arg6) = m ((c : Thread nD τ).loc main_arg6) :=
  by
  show StableHlo.after hostOps3 (W6 m ρ c) (Proc.devRef .tc main_arg6) = _
  after_results
  exact Cert.KerFold1.W6_arg6 m ρ c

theorem W7_arg7 (c : Dev nD) : W7 m ρ c (Proc.devRef .tc main_arg7) = m ((c : Thread nD τ).loc main_arg7) :=
  by
  show StableHlo.after hostOps3 (W6 m ρ c) (Proc.devRef .tc main_arg7) = _
  after_results
  exact Cert.KerFold1.W6_arg7 m ρ c

theorem W7_v41 (c : Dev nD) : W7 m ρ c (Proc.devRef .tc main_v41) = Cert.KerHost.srcVec (m ((c : Thread nD τ).loc main_arg3)) :=
  by
  show StableHlo.after hostOps3 (W6 m ρ c) (Proc.devRef .tc main_v41) = _
  after_results
  rw [Cert.KerFold1.W6_arg3 m ρ c]
  rfl

theorem W7_v43 (c : Dev nD) : W7 m ρ c (Proc.devRef .tc main_v43) = Cert.KerHost.dstVec (m ((c : Thread nD τ).loc main_arg3)) :=
  by
  show StableHlo.after hostOps3 (W6 m ρ c) (Proc.devRef .tc main_v43) = _
  after_results
  rw [Cert.KerFold1.W6_arg3 m ρ c]
  rfl

theorem W7_v51 (c : Dev nD) : W7 m ρ c (Proc.devRef .tc main_v51) = Cert.KerHost.dinvCol (m ((c : Thread nD τ).loc main_arg3)) :=
  by
  show StableHlo.after hostOps3 (W6 m ρ c) (Proc.devRef .tc main_v51) = _
  after_results
  rw [Cert.KerFold1.W6_arg3 m ρ c]
  rfl

theorem W7_v52 (c : Dev nD) : W7 m ρ c (Proc.devRef .tc main_v52) = Cert.KerHost.invdegCol (m ((c : Thread nD τ).loc main_arg3)) :=
  by
  show StableHlo.after hostOps3 (W6 m ρ c) (Proc.devRef .tc main_v52) = _
  after_results
  rw [Cert.KerFold1.W6_arg3 m ρ c]
  rfl

theorem W8_v53_0 (c : Dev nD) : W8 m ρ c (Proc.devRef .tc main_v53_0) = proj (m ((c : Thread nD τ).loc main_arg1)) (m ((c : Thread nD τ).loc main_arg4)) :=
  (W8_arr m ρ c 3).trans ((Cert.KerReg3.final3 (V7 m ρ) c).trans (proj_congr (W7_arg1 m ρ c) (W7_arg4 m ρ c)))

theorem W8_v53_1 (c : Dev nD) : W8 m ρ c (Proc.devRef .tc main_v53_1) = projScaled (m ((c : Thread nD τ).loc main_arg1)) (m ((c : Thread nD τ).loc main_arg4)) (Cert.KerHost.dinvCol (m ((c : Thread nD τ).loc main_arg3))) :=
  (W8_arr m ρ c 4).trans ((Cert.KerReg3.final4 (V7 m ρ) c).trans (projScaled_congr (W7_arg1 m ρ c) (W7_arg4 m ρ c) (W7_v51 m ρ c)))

theorem W8_v41 (c : Dev nD) : W8 m ρ c (Proc.devRef .tc main_v41) = Cert.KerHost.srcVec (m ((c : Thread nD τ).loc main_arg3)) :=
  (W8_of_ne m ρ c main_v41 (by decide)).trans (W7_v41 m ρ c)

theorem W8_v43 (c : Dev nD) : W8 m ρ c (Proc.devRef .tc main_v43) = Cert.KerHost.dstVec (m ((c : Thread nD τ).loc main_arg3)) :=
  (W8_of_ne m ρ c main_v43 (by decide)).trans (W7_v43 m ρ c)

theorem W8_v52 (c : Dev nD) : W8 m ρ c (Proc.devRef .tc main_v52) = Cert.KerHost.invdegCol (m ((c : Thread nD τ).loc main_arg3)) :=
  (W8_of_ne m ρ c main_v52 (by decide)).trans (W7_v52 m ρ c)

theorem W8_v51 (c : Dev nD) : W8 m ρ c (Proc.devRef .tc main_v51) = Cert.KerHost.dinvCol (m ((c : Thread nD τ).loc main_arg3)) :=
  (W8_arr m ρ c 2).trans ((((dat3 (V7 m ρ) c).arrAt_in 2 rfl _).trans (A_eq3 (V7 m ρ) c 2)).trans (W7_v51 m ρ c))

theorem W8_arg1 (c : Dev nD) : W8 m ρ c (Proc.devRef .tc main_arg1) = m ((c : Thread nD τ).loc main_arg1) :=
  (W8_arr m ρ c 0).trans ((((dat3 (V7 m ρ) c).arrAt_in 0 rfl _).trans (A_eq3 (V7 m ρ) c 0)).trans (W7_arg1 m ρ c))

theorem W8_arg3 (c : Dev nD) : W8 m ρ c (Proc.devRef .tc main_arg3) = m ((c : Thread nD τ).loc main_arg3) :=
  (W8_of_ne m ρ c main_arg3 (by decide)).trans (W7_arg3 m ρ c)

theorem W8_arg4 (c : Dev nD) : W8 m ρ c (Proc.devRef .tc main_arg4) = m ((c : Thread nD τ).loc main_arg4) :=
  (W8_arr m ρ c 1).trans ((((dat3 (V7 m ρ) c).arrAt_in 1 rfl _).trans (A_eq3 (V7 m ρ) c 1)).trans (W7_arg4 m ρ c))

theorem W8_arg5 (c : Dev nD) : W8 m ρ c (Proc.devRef .tc main_arg5) = m ((c : Thread nD τ).loc main_arg5) :=
  (W8_of_ne m ρ c main_arg5 (by decide)).trans (W7_arg5 m ρ c)

theorem W8_arg6 (c : Dev nD) : W8 m ρ c (Proc.devRef .tc main_arg6) = m ((c : Thread nD τ).loc main_arg6) :=
  (W8_of_ne m ρ c main_arg6 (by decide)).trans (W7_arg6 m ρ c)

theorem W8_arg7 (c : Dev nD) : W8 m ρ c (Proc.devRef .tc main_arg7) = m ((c : Thread nD τ).loc main_arg7) :=
  (W8_of_ne m ρ c main_arg7 (by decide)).trans (W7_arg7 m ρ c)

set_option maxHeartbeats 1000000 in
theorem W9_v64 (c : Dev nD) : W9 m ρ c (Proc.devRef .tc main_v64) = agg1 (m ((c : Thread nD τ).loc main_arg3)) (m ((c : Thread nD τ).loc main_arg1)) (m ((c : Thread nD τ).loc main_arg4)) :=
  by
  show StableHlo.after hostOps4 (W8 m ρ c) (Proc.devRef .tc main_v64) = _
  after_results_simp
  exact (aggOf_congr (W8_v41 m ρ c) (W8_v43 m ρ c) (W8_v53_1 m ρ c)).trans (agg_eq_aggOf _ _).symm

theorem W9_v65 (c : Dev nD) : W9 m ρ c (Proc.devRef .tc main_v65) = Cert.KerHost.biasRow (m ((c : Thread nD τ).loc main_arg5)) :=
  by
  show StableHlo.after hostOps4 (W8 m ρ c) (Proc.devRef .tc main_v65) = _
  after_results
  rw [W8_arg5 m ρ c]
  rfl

theorem W9_v53_0 (c : Dev nD) : W9 m ρ c (Proc.devRef .tc main_v53_0) = proj (m ((c : Thread nD τ).loc main_arg1)) (m ((c : Thread nD τ).loc main_arg4)) :=
  by
  show StableHlo.after hostOps4 (W8 m ρ c) (Proc.devRef .tc main_v53_0) = _
  after_results
  exact W8_v53_0 m ρ c

theorem W9_v51 (c : Dev nD) : W9 m ρ c (Proc.devRef .tc main_v51) = Cert.KerHost.dinvCol (m ((c : Thread nD τ).loc main_arg3)) :=
  by
  show StableHlo.after hostOps4 (W8 m ρ c) (Proc.devRef .tc main_v51) = _
  after_results
  exact W8_v51 m ρ c

theorem W9_v52 (c : Dev nD) : W9 m ρ c (Proc.devRef .tc main_v52) = Cert.KerHost.invdegCol (m ((c : Thread nD τ).loc main_arg3)) :=
  by
  show StableHlo.after hostOps4 (W8 m ρ c) (Proc.devRef .tc main_v52) = _
  after_results
  exact W8_v52 m ρ c

theorem W9_v41 (c : Dev nD) : W9 m ρ c (Proc.devRef .tc main_v41) = Cert.KerHost.srcVec (m ((c : Thread nD τ).loc main_arg3)) :=
  by
  show StableHlo.after hostOps4 (W8 m ρ c) (Proc.devRef .tc main_v41) = _
  after_results
  exact W8_v41 m ρ c

theorem W9_v43 (c : Dev nD) : W9 m ρ c (Proc.devRef .tc main_v43) = Cert.KerHost.dstVec (m ((c : Thread nD τ).loc main_arg3)) :=
  by
  show StableHlo.after hostOps4 (W8 m ρ c) (Proc.devRef .tc main_v43) = _
  after_results
  exact W8_v43 m ρ c

theorem W9_arg1 (c : Dev nD) : W9 m ρ c (Proc.devRef .tc main_arg1) = m ((c : Thread nD τ).loc main_arg1) :=
  by
  show StableHlo.after hostOps4 (W8 m ρ c) (Proc.devRef .tc main_arg1) = _
  after_results
  exact W8_arg1 m ρ c

theorem W9_arg3 (c : Dev nD) : W9 m ρ c (Proc.devRef .tc main_arg3) = m ((c : Thread nD τ).loc main_arg3) :=
  by
  show StableHlo.after hostOps4 (W8 m ρ c) (Proc.devRef .tc main_arg3) = _
  after_results
  exact W8_arg3 m ρ c

theorem W9_arg4 (c : Dev nD) : W9 m ρ c (Proc.devRef .tc main_arg4) = m ((c : Thread nD τ).loc main_arg4) :=
  by
  show StableHlo.after hostOps4 (W8 m ρ c) (Proc.devRef .tc main_arg4) = _
  after_results
  exact W8_arg4 m ρ c

theorem W9_arg5 (c : Dev nD) : W9 m ρ c (Proc.devRef .tc main_arg5) = m ((c : Thread nD τ).loc main_arg5) :=
  by
  show StableHlo.after hostOps4 (W8 m ρ c) (Proc.devRef .tc main_arg5) = _
  after_results
  exact W8_arg5 m ρ c

theorem W9_arg6 (c : Dev nD) : W9 m ρ c (Proc.devRef .tc main_arg6) = m ((c : Thread nD τ).loc main_arg6) :=
  by
  show StableHlo.after hostOps4 (W8 m ρ c) (Proc.devRef .tc main_arg6) = _
  after_results
  exact W8_arg6 m ρ c

theorem W9_arg7 (c : Dev nD) : W9 m ρ c (Proc.devRef .tc main_arg7) = m ((c : Thread nD τ).loc main_arg7) :=
  by
  show StableHlo.after hostOps4 (W8 m ρ c) (Proc.devRef .tc main_arg7) = _
  after_results
  exact W8_arg7 m ρ c

theorem W10_v66_0 (c : Dev nD) : W10 m ρ c (Proc.devRef .tc main_v66_0) = proj2 (agg1 (m ((c : Thread nD τ).loc main_arg3)) (m ((c : Thread nD τ).loc main_arg1)) (m ((c : Thread nD τ).loc main_arg4))) (proj (m ((c : Thread nD τ).loc main_arg1)) (m ((c : Thread nD τ).loc main_arg4))) (Cert.KerHost.dinvCol (m ((c : Thread nD τ).loc main_arg3))) (Cert.KerHost.invdegCol (m ((c : Thread nD τ).loc main_arg3))) (Cert.KerHost.biasRow (m ((c : Thread nD τ).loc main_arg5))) (m ((c : Thread nD τ).loc main_arg6)) :=
  (W10_arr m ρ c 6).trans ((Cert.KerReg4.final6 (V9 m ρ) c).trans (proj2_congr (W9_v64 m ρ c) (W9_v53_0 m ρ c) (W9_v51 m ρ c) (W9_v52 m ρ c) (W9_v65 m ρ c) (W9_arg6 m ρ c)))

theorem W10_v66_1 (c : Dev nD) : W10 m ρ c (Proc.devRef .tc main_v66_1) = proj2Scaled (agg1 (m ((c : Thread nD τ).loc main_arg3)) (m ((c : Thread nD τ).loc main_arg1)) (m ((c : Thread nD τ).loc main_arg4))) (proj (m ((c : Thread nD τ).loc main_arg1)) (m ((c : Thread nD τ).loc main_arg4))) (Cert.KerHost.dinvCol (m ((c : Thread nD τ).loc main_arg3))) (Cert.KerHost.invdegCol (m ((c : Thread nD τ).loc main_arg3))) (Cert.KerHost.biasRow (m ((c : Thread nD τ).loc main_arg5))) (m ((c : Thread nD τ).loc main_arg6)) :=
  (W10_arr m ρ c 7).trans ((Cert.KerReg4.final7 (V9 m ρ) c).trans (proj2Scaled_congr (W9_v64 m ρ c) (W9_v53_0 m ρ c) (W9_v51 m ρ c) (W9_v52 m ρ c) (W9_v65 m ρ c) (W9_arg6 m ρ c)))

theorem W10_v41 (c : Dev nD) : W10 m ρ c (Proc.devRef .tc main_v41) = Cert.KerHost.srcVec (m ((c : Thread nD τ).loc main_arg3)) :=
  (W10_of_ne m ρ c main_v41 (by decide)).trans (W9_v41 m ρ c)

theorem W10_v43 (c : Dev nD) : W10 m ρ c (Proc.devRef .tc main_v43) = Cert.KerHost.dstVec (m ((c : Thread nD τ).loc main_arg3)) :=
  (W10_of_ne m ρ c main_v43 (by decide)).trans (W9_v43 m ρ c)

theorem W10_v51 (c : Dev nD) : W10 m ρ c (Proc.devRef .tc main_v51) = Cert.KerHost.dinvCol (m ((c : Thread nD τ).loc main_arg3)) :=
  (W10_arr m ρ c 2).trans ((((dat4 (V9 m ρ) c).arrAt_in 2 rfl _).trans (A_eq4 (V9 m ρ) c 2)).trans (W9_v51 m ρ c))

theorem W10_v52 (c : Dev nD) : W10 m ρ c (Proc.devRef .tc main_v52) = Cert.KerHost.invdegCol (m ((c : Thread nD τ).loc main_arg3)) :=
  (W10_arr m ρ c 3).trans ((((dat4 (V9 m ρ) c).arrAt_in 3 rfl _).trans (A_eq4 (V9 m ρ) c 3)).trans (W9_v52 m ρ c))

theorem W10_arg1 (c : Dev nD) : W10 m ρ c (Proc.devRef .tc main_arg1) = m ((c : Thread nD τ).loc main_arg1) :=
  (W10_of_ne m ρ c main_arg1 (by decide)).trans (W9_arg1 m ρ c)

theorem W10_arg3 (c : Dev nD) : W10 m ρ c (Proc.devRef .tc main_arg3) = m ((c : Thread nD τ).loc main_arg3) :=
  (W10_of_ne m ρ c main_arg3 (by decide)).trans (W9_arg3 m ρ c)

theorem W10_arg4 (c : Dev nD) : W10 m ρ c (Proc.devRef .tc main_arg4) = m ((c : Thread nD τ).loc main_arg4) :=
  (W10_of_ne m ρ c main_arg4 (by decide)).trans (W9_arg4 m ρ c)

theorem W10_arg5 (c : Dev nD) : W10 m ρ c (Proc.devRef .tc main_arg5) = m ((c : Thread nD τ).loc main_arg5) :=
  (W10_of_ne m ρ c main_arg5 (by decide)).trans (W9_arg5 m ρ c)

theorem W10_arg6 (c : Dev nD) : W10 m ρ c (Proc.devRef .tc main_arg6) = m ((c : Thread nD τ).loc main_arg6) :=
  (W10_arr m ρ c 5).trans ((((dat4 (V9 m ρ) c).arrAt_in 5 rfl _).trans (A_eq4 (V9 m ρ) c 5)).trans (W9_arg6 m ρ c))

theorem W10_arg7 (c : Dev nD) : W10 m ρ c (Proc.devRef .tc main_arg7) = m ((c : Thread nD τ).loc main_arg7) :=
  (W10_of_ne m ρ c main_arg7 (by decide)).trans (W9_arg7 m ρ c)

set_option maxHeartbeats 1000000 in
theorem W11_v77 (c : Dev nD) : W11 m ρ c (Proc.devRef .tc main_v77) = agg2 (m ((c : Thread nD τ).loc main_arg3)) (m ((c : Thread nD τ).loc main_arg1)) (m ((c : Thread nD τ).loc main_arg4)) (m ((c : Thread nD τ).loc main_arg5)) (m ((c : Thread nD τ).loc main_arg6)) :=
  by
  show StableHlo.after hostOps5 (W10 m ρ c) (Proc.devRef .tc main_v77) = _
  after_results_simp
  exact (aggOf_congr (W10_v41 m ρ c) (W10_v43 m ρ c) (W10_v66_1 m ρ c)).trans (agg_eq_aggOf _ _).symm

theorem W11_v78 (c : Dev nD) : W11 m ρ c (Proc.devRef .tc main_v78) = Cert.KerHost.biasRow (m ((c : Thread nD τ).loc main_arg7)) :=
  by
  show StableHlo.after hostOps5 (W10 m ρ c) (Proc.devRef .tc main_v78) = _
  after_results
  rw [W10_arg7 m ρ c]
  rfl

theorem W11_v66_0 (c : Dev nD) : W11 m ρ c (Proc.devRef .tc main_v66_0) = proj2 (agg1 (m ((c : Thread nD τ).loc main_arg3)) (m ((c : Thread nD τ).loc main_arg1)) (m ((c : Thread nD τ).loc main_arg4))) (proj (m ((c : Thread nD τ).loc main_arg1)) (m ((c : Thread nD τ).loc main_arg4))) (Cert.KerHost.dinvCol (m ((c : Thread nD τ).loc main_arg3))) (Cert.KerHost.invdegCol (m ((c : Thread nD τ).loc main_arg3))) (Cert.KerHost.biasRow (m ((c : Thread nD τ).loc main_arg5))) (m ((c : Thread nD τ).loc main_arg6)) :=
  by
  show StableHlo.after hostOps5 (W10 m ρ c) (Proc.devRef .tc main_v66_0) = _
  after_results
  exact W10_v66_0 m ρ c

theorem W11_v51 (c : Dev nD) : W11 m ρ c (Proc.devRef .tc main_v51) = Cert.KerHost.dinvCol (m ((c : Thread nD τ).loc main_arg3)) :=
  by
  show StableHlo.after hostOps5 (W10 m ρ c) (Proc.devRef .tc main_v51) = _
  after_results
  exact W10_v51 m ρ c

theorem W11_v52 (c : Dev nD) : W11 m ρ c (Proc.devRef .tc main_v52) = Cert.KerHost.invdegCol (m ((c : Thread nD τ).loc main_arg3)) :=
  by
  show StableHlo.after hostOps5 (W10 m ρ c) (Proc.devRef .tc main_v52) = _
  after_results
  exact W10_v52 m ρ c

theorem W11_arg1 (c : Dev nD) : W11 m ρ c (Proc.devRef .tc main_arg1) = m ((c : Thread nD τ).loc main_arg1) :=
  by
  show StableHlo.after hostOps5 (W10 m ρ c) (Proc.devRef .tc main_arg1) = _
  after_results
  exact W10_arg1 m ρ c

theorem W11_arg3 (c : Dev nD) : W11 m ρ c (Proc.devRef .tc main_arg3) = m ((c : Thread nD τ).loc main_arg3) :=
  by
  show StableHlo.after hostOps5 (W10 m ρ c) (Proc.devRef .tc main_arg3) = _
  after_results
  exact W10_arg3 m ρ c

theorem W11_arg4 (c : Dev nD) : W11 m ρ c (Proc.devRef .tc main_arg4) = m ((c : Thread nD τ).loc main_arg4) :=
  by
  show StableHlo.after hostOps5 (W10 m ρ c) (Proc.devRef .tc main_arg4) = _
  after_results
  exact W10_arg4 m ρ c

theorem W11_arg5 (c : Dev nD) : W11 m ρ c (Proc.devRef .tc main_arg5) = m ((c : Thread nD τ).loc main_arg5) :=
  by
  show StableHlo.after hostOps5 (W10 m ρ c) (Proc.devRef .tc main_arg5) = _
  after_results
  exact W10_arg5 m ρ c

theorem W11_arg6 (c : Dev nD) : W11 m ρ c (Proc.devRef .tc main_arg6) = m ((c : Thread nD τ).loc main_arg6) :=
  by
  show StableHlo.after hostOps5 (W10 m ρ c) (Proc.devRef .tc main_arg6) = _
  after_results
  exact W10_arg6 m ρ c

theorem W11_arg7 (c : Dev nD) : W11 m ρ c (Proc.devRef .tc main_arg7) = m ((c : Thread nD τ).loc main_arg7) :=
  by
  show StableHlo.after hostOps5 (W10 m ρ c) (Proc.devRef .tc main_arg7) = _
  after_results
  exact W10_arg7 m ρ c

theorem W12_v79 (c : Dev nD) : W12 m ρ c (Proc.devRef .tc main_v79) = out (m ((c : Thread nD τ).loc main_arg3)) (m ((c : Thread nD τ).loc main_arg1)) (m ((c : Thread nD τ).loc main_arg4)) (m ((c : Thread nD τ).loc main_arg5)) (m ((c : Thread nD τ).loc main_arg6)) (m ((c : Thread nD τ).loc main_arg7)) :=
  (W12_arr m ρ c 5).trans ((Cert.KerReg5.final5 (V11 m ρ) c).trans (combine_congr (W11_v77 m ρ c) (W11_v66_0 m ρ c) (W11_v51 m ρ c) (W11_v52 m ρ c) (W11_v78 m ρ c)))

theorem W12_arg1 (c : Dev nD) : W12 m ρ c (Proc.devRef .tc main_arg1) = m ((c : Thread nD τ).loc main_arg1) :=
  (W12_of_ne m ρ c main_arg1 (by decide)).trans (W11_arg1 m ρ c)

theorem W12_arg3 (c : Dev nD) : W12 m ρ c (Proc.devRef .tc main_arg3) = m ((c : Thread nD τ).loc main_arg3) :=
  (W12_of_ne m ρ c main_arg3 (by decide)).trans (W11_arg3 m ρ c)

theorem W12_arg4 (c : Dev nD) : W12 m ρ c (Proc.devRef .tc main_arg4) = m ((c : Thread nD τ).loc main_arg4) :=
  (W12_of_ne m ρ c main_arg4 (by decide)).trans (W11_arg4 m ρ c)

theorem W12_arg5 (c : Dev nD) : W12 m ρ c (Proc.devRef .tc main_arg5) = m ((c : Thread nD τ).loc main_arg5) :=
  (W12_of_ne m ρ c main_arg5 (by decide)).trans (W11_arg5 m ρ c)

theorem W12_arg6 (c : Dev nD) : W12 m ρ c (Proc.devRef .tc main_arg6) = m ((c : Thread nD τ).loc main_arg6) :=
  (W12_of_ne m ρ c main_arg6 (by decide)).trans (W11_arg6 m ρ c)

theorem W12_arg7 (c : Dev nD) : W12 m ρ c (Proc.devRef .tc main_arg7) = m ((c : Thread nD τ).loc main_arg7) :=
  (W12_of_ne m ρ c main_arg7 (by decide)).trans (W11_arg7 m ρ c)

theorem W7_v39 (c : Dev nD) : W7 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v39) = _
  after_results
  exact Cert.KerFold1.W6_v39 m ρ c

theorem W8_v39 (c : Dev nD) : W8 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) :=
  (W8_of_ne m ρ c main_v39 (by decide)).trans (W7_v39 m ρ c)

theorem W9_v39 (c : Dev nD) : W9 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v39) = _
  after_results
  exact W8_v39 m ρ c

theorem W10_v39 (c : Dev nD) : W10 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) :=
  (W10_of_ne m ρ c main_v39 (by decide)).trans (W9_v39 m ρ c)

theorem W11_v39 (c : Dev nD) : W11 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v39) = _
  after_results
  exact W10_v39 m ρ c

theorem W12_v39 (c : Dev nD) : W12 m ρ c (Proc.devRef .tc main_v39) = out (m ((c : Thread nD τ).loc main_arg2)) (m ((c : Thread nD τ).loc main_arg0)) (m ((c : Thread nD τ).loc main_arg4)) (m ((c : Thread nD τ).loc main_arg5)) (m ((c : Thread nD τ).loc main_arg6)) (m ((c : Thread nD τ).loc main_arg7)) :=
  (W12_of_ne m ρ c main_v39 (by decide)).trans (W11_v39 m ρ c)

end Cert.KerFold2

end
-- ==== Proof.LibScatterAddCol.lean ====
/-
  The host's accumulating scatter of a column of positions into a vector, read at an index: the entry already there
  plus the sum, over all updates, of the update where its position (read as a signed integer) is that index and
  zero where it is not. An update whose position falls outside the vector is added nowhere.
-/
import Idealize.ShloMosaic.Lib.ValueIdx
import Idealize.ShloMosaic.PureOps.Ideal.Laws

namespace Cert.ScatterAddCol

open Idealize.ShloMosaic Idealize.ShloMosaic.ValueIdx

/-- A sum over the indices of a vector shape is the sum over its one coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  Fintype.sum_equiv ⟨fun j => j 0, fun a => ix1 a, fun j => (eq_ix1 j).symm, fun _ => rfl⟩ _ _
    (fun j => congrArg f (eq_ix1 j))

variable {n m w : ℕ}

/-- With one position per update (a column `[n, 1]`), no window axes, and the vector's one axis the scattered one,
    update `j` lands at index `i` exactly when its position, read signed, is `i`. -/
theorem resultIdx?_eq_some_iff (wf : ScatterDims.WF (⟨1, ![m]⟩ : Shape) (⟨2, ![n, 1]⟩ : Shape) (⟨1, ![n]⟩ : Shape) [] [0] [0] 1)
    (idx : IVec (⟨2, ![n, 1]⟩ : Shape) w) (j : Fin n) (i : Fin m) :
    (ScatterDims.mk (s := (⟨1, ![m]⟩ : Shape)) (si := (⟨2, ![n, 1]⟩ : Shape)) (u := (⟨1, ![n]⟩ : Shape)) [] [0] [0] 1 wf).resultIdx?
        (ix1 j) idx = some (ix1 i)
      ↔ (idx (ix2 j (0 : Fin 1))).toInt = (i.val : ℤ) := by
  set d : ScatterDims (⟨1, ![m]⟩ : Shape) (⟨2, ![n, 1]⟩ : Shape) (⟨1, ![n]⟩ : Shape) := ScatterDims.mk [] [0] [0] 1 wf with hd
  have hstart : ∀ a, d.start (ix1 j) idx a = (idx (ix2 j (0 : Fin 1))).toInt := by
    intro a
    have ha : a = (0 : Fin 1) := Subsingleton.elim _ _
    subst ha
    unfold ScatterDims.start
    rw [dif_pos (by simp [hd])]
    congr 2
    funext b
    apply Fin.ext
    match b with
    | ⟨0, _⟩ => rfl
    | ⟨1, _⟩ => rfl
  have hwin : ∀ a, d.window (ix1 j) a = 0 := by
    intro a
    have ha : a = (0 : Fin 1) := Subsingleton.elim _ _
    subst ha
    unfold ScatterDims.window
    rw [dif_neg (by simp [hd, ScatterDims.sKept, Shape.kept])]
  unfold ScatterDims.resultIdx?
  constructor
  · intro h
    split at h
    · rename_i hc
      have h0 := congrFun (Option.some.inj h) (0 : Fin 1)
      have hv := congrArg Fin.val h0
      simp only [hstart, hwin] at hv hc
      have := (hc 0).1
      simp only [Nat.cast_zero, add_zero] at hv this
      show (idx (ix2 j 0)).toInt = (i.val : ℤ)
      have hv' : ((idx (ix2 j 0)).toInt).toNat = i.val := hv
      omega
    · exact absurd h (by simp)
  · intro h
    have hc : ∀ a, 0 ≤ d.start (ix1 j) idx a + (d.window (ix1 j) a : ℤ) ∧
        d.start (ix1 j) idx a + (d.window (ix1 j) a : ℤ) < ((⟨1, ![m]⟩ : Shape).size a : ℤ) := by
      intro a
      have ha : a = (0 : Fin 1) := Subsingleton.elim _ _
      subst ha
      rw [hstart, hwin, h]
      have := i.isLt
      constructor
      · simp
      · show (i.val : ℤ) + ((0 : ℕ) : ℤ) < (m : ℤ); omega
    rw [dif_pos hc]
    congr 1
    funext a
    have ha : a = (0 : Fin 1) := Subsingleton.elim _ _
    subst ha
    apply Fin.ext
    show (d.start (ix1 j) idx 0 + (d.window (ix1 j) 0 : ℤ)).toNat = i.val
    rw [hstart, hwin, h]; simp

/-- The accumulating scatter at an index: what was there plus every update positioned there. -/
theorem hostScatterAdd_apply (wf : ScatterDims.WF (⟨1, ![m]⟩ : Shape) (⟨2, ![n, 1]⟩ : Shape) (⟨1, ![n]⟩ : Shape) [] [0] [0] 1)
    (x : (⟨1, ![m]⟩ : Shape).Idx → EReal) (idx : IVec (⟨2, ![n, 1]⟩ : Shape) w) (upd : (⟨1, ![n]⟩ : Shape).Idx → EReal) (i : Fin m) :
    Ideal.hostScatterAdd (ScatterDims.mk (s := (⟨1, ![m]⟩ : Shape)) (si := (⟨2, ![n, 1]⟩ : Shape)) (u := (⟨1, ![n]⟩ : Shape)) [] [0] [0] 1 wf)
        x idx upd (ix1 i)
      = x (ix1 i) + ∑ j : Fin n, if (idx (ix2 j (0 : Fin 1))).toInt = (i.val : ℤ) then upd (ix1 j) else 0 := by
  unfold Ideal.hostScatterAdd
  rw [Finset.sum_filter, sum_idx1]
  congr 1
  refine Finset.sum_congr rfl fun j _ => ?_
  simp only [resultIdx?_eq_some_iff wf idx j i]

end Cert.ScatterAddCol
-- ==== Proof.LibRowScatter.lean ====
/-
  The accumulating scatter of rows into a table, a trailing padding of a vector and a leading slice of a vector, each
  read at an index given by coordinates.

  Rows `[n, b]` scattered at a column of positions `[n, 1]` into a table `[M, b]`, accumulating: entry `(i, q)` of
  the result is the table's entry plus the sum, over all rows `j`, of the row's entry of column `q` when the row's
  position, read as a signed integer and not clamped, is `i`, and of zero when it is not. A row positioned outside
  the table is added nowhere.
-/
import Idealize.ShloMosaic.Lib.ValueIdx
import Idealize.ShloMosaic.Lib.Pipeline.Value
import Idealize.ShloMosaic.PureOps.Ideal.Laws

namespace Cert.RowScatter

open Idealize.ShloMosaic Idealize.ShloMosaic.ValueIdx

variable {α : Type} {M n b w : ℕ}

/-- The dimension numbers of the row scatter: the table's axis 0 is the scattered one, its axis 1 the window. -/
abbrev rowsScatter (M n b : ℕ)
    (wf : ScatterDims.WF (⟨2, ![M, b]⟩ : Shape) (⟨2, ![n, 1]⟩ : Shape) (⟨2, ![n, b]⟩ : Shape) [1] [0] [0] 1) :
    ScatterDims (⟨2, ![M, b]⟩ : Shape) (⟨2, ![n, 1]⟩ : Shape) (⟨2, ![n, b]⟩ : Shape) :=
  ScatterDims.mk [1] [0] [0] 1 wf

/-- Entry `(j, q)` of the rows lands at `(i, r)` exactly when the position of row `j`, read signed, is `i` and the
    columns agree. -/
theorem resultIdx?_iff (wf : ScatterDims.WF (⟨2, ![M, b]⟩ : Shape) (⟨2, ![n, 1]⟩ : Shape) (⟨2, ![n, b]⟩ : Shape) [1] [0] [0] 1)
    (idx : IVec (⟨2, ![n, 1]⟩ : Shape) w) (j : Fin n) (q : Fin b) (i : Fin M) (r : Fin b) :
    (rowsScatter M n b wf).resultIdx? (ix2 j q) idx = some (ix2 i r)
      ↔ (idx (ix2 j (0 : Fin 1))).toInt = (i.val : ℤ) ∧ q = r := by
  set d := rowsScatter M n b wf with hd
  have hs0 : d.start (ix2 j q) idx (0 : Fin 2) = (idx (ix2 j (0 : Fin 1))).toInt := by
    unfold ScatterDims.start
    rw [dif_pos (by simp [hd])]
    congr 2
    funext c; apply Fin.ext
    match c with
    | ⟨0, _⟩ => rfl
    | ⟨1, _⟩ => rfl
  have hs1 : d.start (ix2 j q) idx (1 : Fin 2) = 0 := by
    unfold ScatterDims.start
    rw [dif_neg (by simp [hd])]
  have hw0 : d.window (ix2 j q) (0 : Fin 2) = 0 := by
    unfold ScatterDims.window
    rw [dif_neg (by simp [hd, ScatterDims.sKept, Shape.kept])]
  have hw1 : d.window (ix2 j q) (1 : Fin 2) = q.val := by
    unfold ScatterDims.window
    rw [dif_pos (by simp [hd, ScatterDims.sKept, Shape.kept])]
    rfl
  unfold ScatterDims.resultIdx?
  constructor
  · intro h
    split at h
    · rename_i hc
      have hf := Option.some.inj h
      have e0 : (d.start (ix2 j q) idx (0 : Fin 2) + (d.window (ix2 j q) (0 : Fin 2) : ℤ)).toNat = i.val :=
        congrArg Fin.val (congrFun hf (0 : Fin 2))
      have e1 : (d.start (ix2 j q) idx (1 : Fin 2) + (d.window (ix2 j q) (1 : Fin 2) : ℤ)).toNat = r.val :=
        congrArg Fin.val (congrFun hf (1 : Fin 2))
      have c0 := (hc (0 : Fin 2)).1
      rw [hs0, hw0] at e0 c0
      rw [hs1, hw1] at e1
      refine ⟨by omega, Fin.ext (by omega)⟩
    · exact absurd h (by simp)
  · rintro ⟨h, rfl⟩
    have hc : ∀ a, 0 ≤ d.start (ix2 j q) idx a + (d.window (ix2 j q) a : ℤ) ∧
        d.start (ix2 j q) idx a + (d.window (ix2 j q) a : ℤ) < ((⟨2, ![M, b]⟩ : Shape).size a : ℤ) := by
      intro a
      have c0 : 0 ≤ d.start (ix2 j q) idx (0 : Fin 2) + (d.window (ix2 j q) (0 : Fin 2) : ℤ) ∧
          d.start (ix2 j q) idx (0 : Fin 2) + (d.window (ix2 j q) (0 : Fin 2) : ℤ) < (M : ℤ) := by
        rw [hs0, hw0, h]; have := i.isLt; omega
      have c1 : 0 ≤ d.start (ix2 j q) idx (1 : Fin 2) + (d.window (ix2 j q) (1 : Fin 2) : ℤ) ∧
          d.start (ix2 j q) idx (1 : Fin 2) + (d.window (ix2 j q) (1 : Fin 2) : ℤ) < (b : ℤ) := by
        rw [hs1, hw1]; have := q.isLt; omega
      match a with
      | ⟨0, _⟩ => exact c0
      | ⟨1, _⟩ => exact c1
    rw [dif_pos hc]
    congr 1
    funext a
    apply Fin.ext
    have v0 : (d.start (ix2 j q) idx (0 : Fin 2) + (d.window (ix2 j q) (0 : Fin 2) : ℤ)).toNat = i.val := by
      rw [hs0, hw0, h]; simp
    have v1 : (d.start (ix2 j q) idx (1 : Fin 2) + (d.window (ix2 j q) (1 : Fin 2) : ℤ)).toNat = q.val := by
      rw [hs1, hw1]; simp
    match a with
    | ⟨0, _⟩ => exact v0
    | ⟨1, _⟩ => exact v1

/-- The accumulating row scatter at `(i, q)`: what was there plus column `q` of every row positioned at `i`. -/
theorem scatterAddRows_apply
    (wf : ScatterDims.WF (⟨2, ![M, b]⟩ : Shape) (⟨2, ![n, 1]⟩ : Shape) (⟨2, ![n, b]⟩ : Shape) [1] [0] [0] 1)
    (x : (⟨2, ![M, b]⟩ : Shape).Idx → EReal) (idx : IVec (⟨2, ![n, 1]⟩ : Shape) w)
    (upd : (⟨2, ![n, b]⟩ : Shape).Idx → EReal) (i : Fin M) (q : Fin b) :
    Ideal.hostScatterAdd (rowsScatter M n b wf) x idx upd (ix2 i q)
      = x (ix2 i q) + ∑ j : Fin n, if (idx (ix2 j (0 : Fin 1))).toInt = (i.val : ℤ) then upd (ix2 j q) else 0 := by
  unfold Ideal.hostScatterAdd
  rw [Finset.sum_filter, sum_idx2]
  congr 1
  refine Finset.sum_congr rfl fun j _ => ?_
  simp only [resultIdx?_iff wf idx j _ i q]
  by_cases hA : (idx (ix2 j (0 : Fin 1))).toInt = (i.val : ℤ)
  · simp only [hA, true_and, if_true]
    rw [Finset.sum_eq_single q (fun r _ hr => if_neg hr) (fun h => absurd (Finset.mem_univ q) h)]
    exact if_pos rfl
  · simp only [hA, false_and, if_false, Finset.sum_const_zero]

/-! ## A trailing padding and a leading slice -/

/-- A vector padded at its end, read before the padding: the vector's entry. -/
theorem pad_lt {n N hi : ℕ} (x : (⟨1, ![n]⟩ : Shape).Idx → α) {u : Shape} (v : u.Idx → α)
    (hp : (⟨1, ![n]⟩ : Shape).Pads ![0] ![hi] ![0] (⟨1, ![N]⟩ : Shape)) (hu : 0 < u.numel) (j : Fin N) (hj : j.val < n) :
    pad (⟨1, ![N]⟩ : Shape) ![0] ![hi] ![0] x v hp hu (ix1 j) = x (ix1 ⟨j.val, hj⟩) := by
  unfold pad
  split
  · congr 1
    funext a
    obtain rfl : a = 0 := Subsingleton.elim _ _
    apply Fin.ext
    show (j.val - 0) / (0 + 1) = j.val
    omega
  · rename_i hn
    refine absurd (fun a => ?_) hn
    obtain rfl : a = 0 := Subsingleton.elim _ _
    show 0 ≤ j.val ∧ (j.val - 0) % (0 + 1) = 0 ∧ (j.val - 0) / (0 + 1) < n
    refine ⟨Nat.zero_le _, by omega, by omega⟩

/-- A vector padded at its end, read inside the padding: the padding value. -/
theorem pad_ge {n N hi : ℕ} (x : (⟨1, ![n]⟩ : Shape).Idx → α) {u : Shape} (v : u.Idx → α)
    (hp : (⟨1, ![n]⟩ : Shape).Pads ![0] ![hi] ![0] (⟨1, ![N]⟩ : Shape)) (hu : 0 < u.numel) (j : Fin N) (hj : n ≤ j.val) :
    pad (⟨1, ![N]⟩ : Shape) ![0] ![hi] ![0] x v hp hu (ix1 j) = v (Shape.Idx.first hu) := by
  unfold pad
  split
  · rename_i hin
    have h0 := (hin (0 : Fin 1)).2.2
    have : (j.val - 0) / (0 + 1) < n := h0
    omega
  · rfl

/-- The leading slice of a vector reads the vector's entry of the same position. -/
theorem sliceHead_apply {n N : ℕ} (x : (⟨1, ![N]⟩ : Shape).Idx → α)
    (h : (⟨1, ![N]⟩ : Shape).Slices ![0] (⟨1, ![n]⟩ : Shape)) (i : Fin n) (hi : i.val < N) :
    extractStridedSlice (⟨1, ![n]⟩ : Shape) ![0] x h (ix1 i) = x (ix1 ⟨i.val, hi⟩) := by
  refine extractStridedSlice_apply _ x h (ix1 i) (ix1 ⟨i.val, hi⟩) fun a => ?_
  obtain rfl : a = 0 := Subsingleton.elim _ _
  show i.val = 0 + i.val
  omega

end Cert.RowScatter
-- ==== Proof.LibHostScatterRows.lean ====
/-
  The host's accumulating row scatter, as a host program spells it, read at an entry of the table.

  Rows `[n, b]` scattered at a column of positions `[n, 1]` into a table `[M, b]`, accumulating, on the extended reals: entry
  `(i, q)` of the result is the table's entry plus the sum, over all rows `j`, of the row's entry of column `q` when the row's
  position, read as a signed integer, is `i`, and of zero when it is not.

  The statement is over variable operands.
-/
import proofs.«179631_j7301444403487_2_alg».proof.Proof.LibRowScatter

noncomputable section

namespace Cert.HostScatterRows

open Idealize.ShloMosaic Idealize.ShloMosaic.ValueIdx

/-- The accumulating row scatter in the host's spelling at `(i, q)`: what was there plus column `q` of every row positioned at
    `i`. -/
theorem scatterAddRows_host {M n b w : ℕ}
    (wf : ScatterDims.WF (⟨2, ![M, b]⟩ : Shape) (⟨2, ![n, 1]⟩ : Shape) (⟨2, ![n, b]⟩ : Shape) [1] [0] [0] 1)
    (x : (⟨2, ![M, b]⟩ : Shape).Idx → EReal) (idx : IVec (⟨2, ![n, 1]⟩ : Shape) w)
    (upd : (⟨2, ![n, b]⟩ : Shape).Idx → EReal) (i : Fin M) (q : Fin b) :
    Host.scatterAdd (F := Ideal) (φ := .f32) (Cert.RowScatter.rowsScatter M n b wf) x idx upd (ix2 i q)
      = x (ix2 i q) + ∑ j : Fin n, if (idx (ix2 j (0 : Fin 1))).toInt = (i.val : ℤ) then upd (ix2 j q) else 0 :=
  Cert.RowScatter.scatterAddRows_apply wf x idx upd i q

end Cert.HostScatterRows

end
-- ==== Proof.KerHostRead.lean ====
/-
  The host arithmetic between a view's kernel regions, read entry by entry.

  Row 0 of the edge array holds the source words and row 1 the target words. The column of targets reads the target
  word of its row; the column of sources reads the source word with the node count added where it is negative. The
  degree vector at node `i` is the count of the edges whose target word, read signed, is `i`, plus one; the column of
  factors reads the reciprocal square root of the degree, and the column of squares its square. The arrivals at entry
  `(i, q)` are the sum, over the edges whose target word is `i`, of entry `q` of the table's row that the edge's source
  names. A bias vector cast to one row reads the vector's entry.
-/
import proofs.«179631_j7301444403487_2_alg».proof.Proof.KerHost
import proofs.«179631_j7301444403487_2_alg».proof.Proof.Spec
import proofs.«179631_j7301444403487_2_alg».proof.Proof.LibRows
import proofs.«179631_j7301444403487_2_alg».proof.Proof.LibScatterAddCol
import proofs.«179631_j7301444403487_2_alg».proof.Proof.LibHostScatterRows
import Idealize.ShloMosaic.Lib.ValueIdx
import Idealize.ShloMosaic.Lib.IdealHost
import Idealize.ShloMosaic.Lib.ValueLayout
import Idealize.ShloMosaic.Lib.Pipeline.Value

noncomputable section

namespace Cert.KerHost

open Cert.KernelIdeal Cert.KernelIdeal.Facts₀ Cert.KernelIdeal.Facts Idealize.ShloMosaic Idealize.ShloMosaic.ValueIdx
open scoped BigOperators

/-- The source word of every edge: row 0 of the edge array. -/
abbrev src (E : IVec S2x800000 32) : Fin 800000 → BitVec 32 := fun e => E (ix2 (0 : Fin 2) e)

/-- The target word of every edge: row 1 of the edge array. -/
abbrev dst (E : IVec S2x800000 32) : Fin 800000 → BitVec 32 := fun e => E (ix2 (1 : Fin 2) e)

/-! ## Positions -/

/-- The vector of sources at edge `e`. -/
theorem srcVec_apply (E : IVec S2x800000 32) (e : Fin 800000) : srcVec E (ix1 e) = src E e := by
  unfold srcVec
  refine (shapeCast_1a_a_apply _ shapeCasts_S1x800000_S800000 e).trans ?_
  exact extractStridedSlice_apply ![0, 0] E slices_S2x800000_S1x800000_0_0 (ix2 (0 : Fin 1) e) (ix2 (0 : Fin 2) e)
    (fun a => match a with
      | ⟨0, _⟩ => by show (0 : ℕ) = 0 + 0; rfl
      | ⟨1, _⟩ => by show e.val = 0 + e.val; omega)

/-- The vector of targets at edge `e`. -/
theorem dstVec_apply (E : IVec S2x800000 32) (e : Fin 800000) : dstVec E (ix1 e) = dst E e := by
  unfold dstVec
  refine (shapeCast_1a_a_apply _ shapeCasts_S1x800000_S800000 e).trans ?_
  exact extractStridedSlice_apply ![1, 0] E slices_S2x800000_S1x800000_1_0 (ix2 (0 : Fin 1) e) (ix2 (1 : Fin 2) e)
    (fun a => match a with
      | ⟨0, _⟩ => by show (1 : ℕ) = 1 + 0; rfl
      | ⟨1, _⟩ => by show e.val = 0 + e.val; omega)

/-- The column of targets at row `e`. -/
theorem dstCol_apply (E : IVec S2x800000 32) (e : Fin 800000) (u : Fin 1) : dstCol E (ix2 e u) = dst E e := by
  unfold dstCol
  exact (Cert.Rows.col_apply (dstVec E) bcast_S800000_S800000x1_0 e u).trans (dstVec_apply E e)

/-- The column of sources at row `e`: the source word, the node count added where it is negative. -/
theorem srcCol_apply (E : IVec S2x800000 32) (e : Fin 800000) (u : Fin 1) :
    srcCol E (ix2 e u) = Cert.Rows.wrap (src E e) 50000#32 := by
  unfold srcCol
  exact (Cert.Rows.wrapCol_apply (srcVec E) 50000#32 bcast_S_S800000 bcast_S800000_S800000x1_0 e u).trans
    (congrArg (fun v => Cert.Rows.wrap v 50000#32) (srcVec_apply E e))

/-! ## Degrees and factors -/

/-- The accumulating scatter of a vector of updates at a column of positions into a vector, at node `i`. -/
theorem scatterAddCol_host (x : FVec Ideal S50000 .f32) (idx : IVec S800000x1 32) (upd : FVec Ideal S800000 .f32)
    (i : Fin 50000) :
    Host.scatterAdd (F := Ideal) scatter_S50000_S800000x1_S800000_n_0_0_1 x idx upd (ix1 i)
      = x (ix1 i) + ∑ j : Fin 800000, if (idx (ix2 j (0 : Fin 1))).toInt = (i.val : ℤ) then upd (ix1 j) else 0 :=
  Cert.ScatterAddCol.hostScatterAdd_apply scatter_S50000_S800000x1_S800000_n_0_0_1_wf x idx upd i

/-- A scalar constant laid along every entry of an array reads the constant's value. -/
theorem splat_apply {T : Shape} (h : S_.BroadcastsInDim T ![]) (b : BitVec 32) (j : T.Idx) :
    broadcastInDim T ![] h (constant (F := Ideal) S_ .f32 b) j = Ideal.ofBits .f32 b :=
  (broadcastInDim_scalar_apply h (constant (F := Ideal) S_ .f32 b) j).trans (constant_apply (s := S_) (φ := .f32) b ix0)

/-- The scatter of updates into a vector followed by the addition of a second vector, at node `i`. -/
theorem scatterAddCol_add (x y : FVec Ideal S50000 .f32) (idx : IVec S800000x1 32) (upd : FVec Ideal S800000 .f32)
    (i : Fin 50000) :
    addf (Host.scatterAdd (F := Ideal) scatter_S50000_S800000x1_S800000_n_0_0_1 x idx upd) y (ix1 i)
      = (x (ix1 i) + ∑ j : Fin 800000, if (idx (ix2 j (0 : Fin 1))).toInt = (i.val : ℤ) then upd (ix1 j) else 0)
        + y (ix1 i) :=
  (addf_apply _ y (ix1 i)).trans (congrArg (· + y (ix1 i)) (scatterAddCol_host x idx upd i))

/-- The degree vector at node `i`. -/
theorem degVec_apply (E : IVec S2x800000 32) (i : Fin 50000) : degVec E (ix1 i) = Cert.GcnSpec.deg (dst E) i := by
  unfold degVec Cert.GcnSpec.deg
  refine (scatterAddCol_add _ _ (dstCol E) _ i).trans ?_
  rw [splat_apply bcast_S_S50000 0x00000000#32 (ix1 i), splat_apply bcast_S_S50000 0x3F800000#32 (ix1 i)]
  refine congrArg (fun t => (Cert.GcnSpec.z + t) + Cert.GcnSpec.one) (Finset.sum_congr rfl fun e _ => ?_)
  rw [dstCol_apply E e 0, splat_apply bcast_S_S800000 0x3F800000#32 (ix1 e)]

/-- The host's reciprocal square root of an array reads the reciprocal square root of the entry. -/
theorem hostRsqrt_apply {s : Shape} (v : FVec Ideal s .f32) (j : s.Idx) : Host.rsqrt v j = Ideal.rsqrt (v j) := rfl

/-- The column of factors at node `i`. -/
theorem dinvCol_apply (E : IVec S2x800000 32) (i : Fin 50000) (u : Fin 1) :
    dinvCol E (ix2 i u) = Cert.GcnSpec.dinv (dst E) i := by
  unfold dinvCol Cert.GcnSpec.dinv
  refine (Cert.Rows.col_apply (Host.rsqrt (degVec E)) bcast_S50000_S50000x1_0 i u).trans ?_
  refine (hostRsqrt_apply (degVec E) (ix1 i)).trans ?_
  rw [degVec_apply E i]

/-- The column of squared factors at node `i`. -/
theorem invdegCol_apply (E : IVec S2x800000 32) (i : Fin 50000) (u : Fin 1) :
    invdegCol E (ix2 i u) = Cert.GcnSpec.dinv (dst E) i * Cert.GcnSpec.dinv (dst E) i := by
  unfold invdegCol
  refine (mulf_apply (dinvCol E) (dinvCol E) (ix2 i u)).trans ?_
  rw [dinvCol_apply E i u]

/-! ## Arrivals -/

/-- The accumulating scatter of rows at a column of positions into a table, at `(i, q)`. -/
theorem scatterAddRows_host' (x : FVec Ideal S50000x256 .f32) (idx : IVec S800000x1 32) (upd : FVec Ideal S800000x256 .f32)
    (i : Fin 50000) (q : Fin 256) :
    Host.scatterAdd (F := Ideal) scatter_S50000x256_S800000x1_S800000x256_1_0_0_1 x idx upd (ix2 i q)
      = x (ix2 i q) + ∑ j : Fin 800000, if (idx (ix2 j (0 : Fin 1))).toInt = (i.val : ℤ) then upd (ix2 j q) else 0 :=
  Cert.HostScatterRows.scatterAddRows_host scatter_S50000x256_S800000x1_S800000x256_1_0_0_1_wf x idx upd i q

/-- The gather of the rows of a table at a column of positions, at `(j, q)`. -/
theorem gatherRows_host (M : FVec Ideal S50000x256 .bf16) (idx : IVec S800000x1 32) (j : Fin 800000) (q : Fin 256) :
    Host.gather gather_S50000x256_S800000x1_S800000x256_1_0_n_n_0_1_1256 M idx (ix2 j q)
      = M (ix2 (Cert.Rows.rowOf 50000 (by decide) (idx (ix2 j (0 : Fin 1)))) q) :=
  Cert.Rows.gatherRows_apply (by decide) gather_S50000x256_S800000x1_S800000x256_1_0_n_n_0_1_1256_wf M idx j q

/-- The arrivals at `(i, q)`: over the edges whose target word is `i`, entry `q` of the row the source names. -/
theorem agg_apply (E : IVec S2x800000 32) (M : FVec Ideal S50000x256 .bf16) (i : Fin 50000) (q : Fin 256) :
    agg E M (ix2 i q)
      = Cert.GcnSpec.z + ∑ e : Fin 800000, if (dst E e).toInt = (i.val : ℤ) then
          M (ix2 (Cert.GcnSpec.row (src E e)) q) else 0 := by
  unfold agg
  refine (scatterAddRows_host' _ (dstCol E) _ i q).trans ?_
  refine congrArg₂ (· + ·) rfl (Finset.sum_congr rfl fun e _ => ?_)
  rw [dstCol_apply E e 0]
  refine congrArg (fun t => if (dst E e).toInt = (i.val : ℤ) then t else 0) ?_
  refine (gatherRows_host M (srcCol E) e q).trans ?_
  rw [srcCol_apply E e 0]
  rfl

/-! ## The bias -/

/-- A bias vector as one row, at `(0, q)`. -/
theorem biasRow_apply (B : FVec Ideal S256 .f32) (u : Fin 1) (q : Fin 256) : biasRow B (ix2 u q) = B (ix1 q) := by
  unfold biasRow
  exact shapeCast_a_1a_apply B shapeCasts_S256_S1x256 u q

end Cert.KerHost

end
-- ==== Proof.KerValue.lean ====
/-
  A view's result through the three kernels and the host arithmetic between them is two layers of the specification's
  kernel form of the graph convolution.

  The first kernel's projection is the matrix product of the node features with the first weights. The host adds, into
  every node, the projections of its arriving edges' sources, each scaled by the source's factor; the second kernel
  scales that sum by the node's factor, adds the node's own projection times the squared factor and the bias, and takes
  the positive part: the positive part of the kernel form of a layer. Its product with the second weights goes through
  the same arrivals and the same combination, without the positive part: the kernel form of the second layer.
-/
import proofs.«179631_j7301444403487_2_alg».proof.Proof.KerHostRead
import proofs.«179631_j7301444403487_2_alg».proof.Proof.KerView

noncomputable section

namespace Cert.KerView

open Cert.KernelIdeal Cert.KerReg Cert.KerHost Idealize.ShloMosaic Idealize.ShloMosaic.ValueIdx
open scoped BigOperators

variable (E : IVec S2x800000 32) (X : S50000x512.Idx → EReal) (Wa : S512x256.Idx → EReal) (Ba : S256.Idx → EReal)
  (Wb : S256x256.Idx → EReal) (Bb : S256.Idx → EReal)

/-! ## The kernels' arrays at an entry -/

/-- The projection at `(i, q)`: the specification's matrix product. -/
theorem proj_at (i : Fin 50000) (q : Fin 256) :
    proj X Wa (ix2 i q) = Cert.GcnSpec.mm (fun i k => X (ix2 i k)) (fun k q => Wa (ix2 k q)) i q := rfl

/-- The scaled projection at `(r, k)`: the projection times the factor of node `r`. -/
theorem projScaled_at (D : S50000x1.Idx → EReal) (r : Fin 50000) (k : Fin 256) :
    projScaled X Wa D (ix2 r k) = proj X Wa (ix2 r k) * D (ix2 r (0 : Fin 1)) := rfl

/-- The scaled second projection at `(r, q)`. -/
theorem proj2Scaled_at (AG H : S50000x256.Idx → EReal) (D ID : S50000x1.Idx → EReal) (B : S1x256.Idx → EReal)
    (W : S256x256.Idx → EReal) (r : Fin 50000) (q : Fin 256) :
    proj2Scaled AG H D ID B W (ix2 r q) = proj2 AG H D ID B W (ix2 r q) * D (ix2 r (0 : Fin 1)) := rfl

/-- The second projection at `(n, q)`: the hidden features of node `n` against column `q` of the weights. -/
theorem proj2_unfold (AG H : S50000x256.Idx → EReal) (D ID : S50000x1.Idx → EReal) (B : S1x256.Idx → EReal)
    (W : S256x256.Idx → EReal) (n : Fin 50000) (q : Fin 256) :
    proj2 AG H D ID B W (ix2 n q) = ∑ k : Fin 256, act AG H D ID B n k * W (ix2 k q) := rfl

/-- The last combination at `(i, q)`. -/
theorem combine_at (AG H : S50000x256.Idx → EReal) (D ID : S50000x1.Idx → EReal) (B : S1x256.Idx → EReal)
    (i : Fin 50000) (q : Fin 256) :
    combine AG H D ID B (ix2 i q)
      = (D (ix2 i (0 : Fin 1)) * AG (ix2 i q) + H (ix2 i q) * ID (ix2 i (0 : Fin 1))) + B (ix2 (0 : Fin 1) q) := rfl

/-! ## The first layer -/

/-- The arrivals of the first layer at `(n, k)`: over the edges whose target word is `n`, the projection of the
    source's row times the source's factor. -/
theorem agg1_at (n : Fin 50000) (k : Fin 256) :
    agg1 E X Wa (ix2 n k)
      = Cert.GcnSpec.z + ∑ e : Fin 800000, if (dst E e).toInt = (n.val : ℤ) then
          (Cert.GcnSpec.mm (fun i k => X (ix2 i k)) (fun k q => Wa (ix2 k q))) (Cert.GcnSpec.row (src E e)) k
            * Cert.GcnSpec.dinv (dst E) (Cert.GcnSpec.row (src E e)) else 0 := by
  unfold agg1
  rw [agg_apply]
  refine congrArg (fun t => Cert.GcnSpec.z + t) (Finset.sum_congr rfl fun e _ => ?_)
  rw [projScaled_at, proj_at, dinvCol_apply]

/-- A node's hidden feature is the positive part of the specification's kernel-form layer. -/
theorem hidden_at (n : Fin 50000) (k : Fin 256) :
    act (agg1 E X Wa) (proj X Wa) (dinvCol E) (invdegCol E) (biasRow Ba) n k
      = Cert.GcnSpec.relu (Cert.GcnSpec.kerConv (src E) (dst E) (Cert.GcnSpec.mm (fun i k => X (ix2 i k)) (fun k q => Wa (ix2 k q))) (fun q => Ba (ix1 q)) n k) := by
  unfold act Cert.GcnSpec.relu Cert.GcnSpec.kerConv
  rw [dinvCol_apply, invdegCol_apply, biasRow_apply, agg1_at, proj_at]

/-! ## The second layer -/

/-- The second projection at `(n, q)`: the specification's matrix product of the hidden features. -/
theorem proj2_at (n : Fin 50000) (q : Fin 256) :
    proj2 (agg1 E X Wa) (proj X Wa) (dinvCol E) (invdegCol E) (biasRow Ba) Wb (ix2 n q)
      = (Cert.GcnSpec.mm (fun i k => Cert.GcnSpec.relu (Cert.GcnSpec.kerConv (src E) (dst E) (Cert.GcnSpec.mm (fun i k => X (ix2 i k)) (fun k q => Wa (ix2 k q))) (fun q => Ba (ix1 q)) i k)) (fun k q => Wb (ix2 k q))) n q := by
  rw [proj2_unfold]
  show _ = ∑ k : Fin 256, (fun i k => Cert.GcnSpec.relu (Cert.GcnSpec.kerConv (src E) (dst E) (Cert.GcnSpec.mm (fun i k => X (ix2 i k)) (fun k q => Wa (ix2 k q))) (fun q => Ba (ix1 q)) i k)) n k * (fun k q => Wb (ix2 k q)) k q
  refine Finset.sum_congr rfl fun k _ => ?_
  rw [hidden_at]

/-- The arrivals of the second layer at `(i, q)`. -/
theorem agg2_at (i : Fin 50000) (q : Fin 256) :
    agg2 E X Wa Ba Wb (ix2 i q)
      = Cert.GcnSpec.z + ∑ e : Fin 800000, if (dst E e).toInt = (i.val : ℤ) then
          (Cert.GcnSpec.mm (fun i k => Cert.GcnSpec.relu (Cert.GcnSpec.kerConv (src E) (dst E) (Cert.GcnSpec.mm (fun i k => X (ix2 i k)) (fun k q => Wa (ix2 k q))) (fun q => Ba (ix1 q)) i k)) (fun k q => Wb (ix2 k q))) (Cert.GcnSpec.row (src E e)) q
            * Cert.GcnSpec.dinv (dst E) (Cert.GcnSpec.row (src E e)) else 0 := by
  unfold agg2
  rw [agg_apply]
  refine congrArg (fun t => Cert.GcnSpec.z + t) (Finset.sum_congr rfl fun e _ => ?_)
  rw [proj2Scaled_at, proj2_at, dinvCol_apply]

/-! ## A view's result -/

/-- A view's result at `(i, q)`: two layers of the specification's kernel form. -/
theorem out_apply (i : Fin 50000) (q : Fin 256) :
    out E X Wa Ba Wb Bb (ix2 i q)
      = Cert.GcnSpec.twoLayers (Cert.GcnSpec.kerConv (fun e => E (ix2 (0 : Fin 2) e)) (fun e => E (ix2 (1 : Fin 2) e)))
          (fun i k => X (ix2 i k)) (fun k q => Wa (ix2 k q)) (fun q => Ba (ix1 q)) (fun k q => Wb (ix2 k q)) (fun q => Bb (ix1 q)) i q := by
  unfold out
  rw [combine_at, agg2_at, proj2_at, dinvCol_apply, invdegCol_apply, biasRow_apply]
  rfl

end Cert.KerView

end
-- ==== Proof.RefLayer.lean ====
/-
  One layer of the host program's graph convolution, read at an entry.

  The host program computes a layer from a table of rows `h` (50000 rows of 256 entries), a vector of 800000 source
  positions, a vector of 800000 target positions and a bias vector. It counts the edges arriving at every node by an
  accumulating scatter of ones (a position outside the table is added nowhere), adds one for the node itself to get the
  degree, and takes the reciprocal square root as the node's factor. For every edge it reads the factor at the row its
  source position names and at the row its target position names (a negative position has the node count added and the
  result is clamped into the table), multiplies the two, and scales the row of `h` the source position names by that
  product. The scaled rows are added into a table of zeros at the rows the UNNORMALISED target positions name; every row
  of `h` over the degree of its node is added to that, and then the bias along every row.

  Here that term is stated over variable operands (`layer`) and read at entry `(i, q)`: it is the specification's
  `refConv` of the same operands (`layer_apply`). The steps are the readings of each stage at an index: the degree
  (`degV_apply`), the factor (`dinvV_apply`), an edge's weight (`normV_apply`), an edge's scaled row (`msgV_apply`), the
  table of arrivals (`aggV_apply`), the node's own term (`selfV_apply`) and the bias (`biasV_apply`).
-/
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws
import proofs.«179631_j7301444403487_2_alg».proof.Proof.Spec
import proofs.«179631_j7301444403487_2_alg».proof.Proof.LibRows
import proofs.«179631_j7301444403487_2_alg».proof.Proof.LibHostScatterRows
import proofs.«179631_j7301444403487_2_alg».proof.Proof.LibScatterAddCol

noncomputable section

namespace Cert.RefSide

open Idealize.ShloMosaic Idealize.ShloMosaic.ValueIdx
open scoped BigOperators

/-! ## Shapes and the side conditions of the layout operations -/

/-- A scalar. -/
abbrev S0 : Shape := ⟨0, ![]⟩
/-- One entry per node. -/
abbrev SN : Shape := ⟨1, ![50000]⟩
/-- One entry per edge. -/
abbrev SE : Shape := ⟨1, ![800000]⟩
/-- A column with one entry per edge. -/
abbrev SE1 : Shape := ⟨2, ![800000, 1]⟩
/-- One row of 256 entries per edge. -/
abbrev SEC : Shape := ⟨2, ![800000, 256]⟩
/-- One row of 256 entries per node. -/
abbrev SNC : Shape := ⟨2, ![50000, 256]⟩
/-- A column with one entry per node. -/
abbrev SN1 : Shape := ⟨2, ![50000, 1]⟩
/-- One entry per column. -/
abbrev SC : Shape := ⟨1, ![256]⟩
/-- One row of 256 entries. -/
abbrev S1C : Shape := ⟨2, ![1, 256]⟩

theorem b0E : S0.BroadcastsInDim SE (![] : Fin 0 → Fin SE.rank) := by decide
theorem b0N : S0.BroadcastsInDim SN (![] : Fin 0 → Fin SN.rank) := by decide
theorem b0NC : S0.BroadcastsInDim SNC (![] : Fin 0 → Fin SNC.rank) := by decide
theorem bEE1 : SE.BroadcastsInDim SE1 (![0] : Fin 1 → Fin SE1.rank) := by decide
theorem bE1EC : SE1.BroadcastsInDim SEC (![0, 1] : Fin 2 → Fin SEC.rank) := by decide
theorem bNN1 : SN.BroadcastsInDim SN1 (![0] : Fin 1 → Fin SN1.rank) := by decide
theorem bN1NC : SN1.BroadcastsInDim SNC (![0, 1] : Fin 2 → Fin SNC.rank) := by decide
theorem bC1C : SC.BroadcastsInDim S1C (![1] : Fin 1 → Fin S1C.rank) := by decide
theorem b1CNC : S1C.BroadcastsInDim SNC (![0, 1] : Fin 2 → Fin SNC.rank) := by decide
theorem wfCount : ScatterDims.WF SN SE1 SE [] [0] [0] 1 := by decide
theorem wfVec : GatherDims.WF SN SE1 SE [] [0] [] [0] [] 1 ![1] := by decide
theorem wfRows : GatherDims.WF SNC SE1 SEC [1] [0] [] [0] [] 1 ![1, 256] := by decide
theorem wfArrive : ScatterDims.WF SNC SE1 SEC [1] [0] [0] 1 := by decide

/-! ## The stages of a layer, over variable operands -/

/-- A vector of positions as a column. -/
def col (a : IVec SE 32) : IVec SE1 32 := broadcastInDim SE1 ![0] bEE1 a

/-- Positions normalised: a negative one has the node count added. -/
def wrapped (a : IVec SE 32) : IVec SE 32 :=
  select (cmpi .slt a (broadcastInDim SE ![] b0E (constantI S0 32 0#32)))
    (addi a (broadcastInDim SE ![] b0E (constantI S0 32 50000#32))) a

/-- The number of edges arriving at every node. -/
def countV (dst : IVec SE 32) : FVec Ideal SN .f32 :=
  Host.scatterAdd (ScatterDims.mk (s := SN) (si := SE1) (u := SE) [] [0] [0] 1 wfCount)
    (broadcastInDim SN ![] b0N (constant S0 .f32 0x00000000#32)) (col dst)
    (broadcastInDim SE ![] b0E (constant S0 .f32 0x3F800000#32))

/-- Every node's degree: the arriving edges and one for the node itself. -/
def degV (dst : IVec SE 32) : FVec Ideal SN .f32 :=
  addf (countV dst) (broadcastInDim SN ![] b0N (constant S0 .f32 0x3F800000#32))

/-- Every node's factor: the reciprocal square root of its degree. -/
def dinvV (dst : IVec SE 32) : FVec Ideal SN .f32 := Host.rsqrt (degV dst)

/-- Every edge's weight: the factor of its source's row times the factor of its target's row. -/
def normV (src dst : IVec SE 32) : FVec Ideal SE .f32 :=
  mulf (Host.gather (Cert.Rows.vecDims 50000 800000 wfVec) (dinvV dst) (col (wrapped src)))
    (Host.gather (Cert.Rows.vecDims 50000 800000 wfVec) (dinvV dst) (col (wrapped dst)))

/-- Every edge's message: the row of the table its source names, scaled by the edge's weight. -/
def msgV (h : FVec Ideal SNC .f32) (src dst : IVec SE 32) : FVec Ideal SEC .f32 :=
  mulf (Host.gather (Cert.Rows.rowsDims 50000 800000 256 wfRows) h (col (wrapped src)))
    (broadcastInDim SEC ![0, 1] bE1EC (broadcastInDim SE1 ![0] bEE1 (normV src dst)))

/-- The messages added up at the rows their target positions name. -/
def aggV (h : FVec Ideal SNC .f32) (src dst : IVec SE 32) : FVec Ideal SNC .f32 :=
  Host.scatterAdd (Cert.RowScatter.rowsScatter 50000 800000 256 wfArrive)
    (broadcastInDim SNC ![] b0NC (constant S0 .f32 0x00000000#32)) (col dst) (msgV h src dst)

/-- Every row of the table over the degree of its node. -/
def selfV (h : FVec Ideal SNC .f32) (dst : IVec SE 32) : FVec Ideal SNC .f32 :=
  mulf h (broadcastInDim SNC ![0, 1] bN1NC (broadcastInDim SN1 ![0] bNN1
    (Host.divf (broadcastInDim SN ![] b0N (constant S0 .f32 0x3F800000#32)) (degV dst))))

/-- The bias laid along every row. -/
def biasV (b : FVec Ideal SC .f32) : FVec Ideal SNC .f32 :=
  broadcastInDim SNC ![0, 1] b1CNC (broadcastInDim S1C ![1] bC1C b)

/-- One layer. -/
def layer (h : FVec Ideal SNC .f32) (src dst : IVec SE 32) (b : FVec Ideal SC .f32) : FVec Ideal SNC .f32 :=
  addf (addf (aggV h src dst) (selfV h dst)) (biasV b)

/-! ## Layout operations at an index -/

variable {α : Type}

/-- A column `[n, 1]` broadcast along `c` columns reads, at `(j, q)`, the column's entry of row `j`. -/
theorem colBcast_at {n c : ℕ} (y : (⟨2, ![n, 1]⟩ : Shape).Idx → α)
    (hb : (⟨2, ![n, 1]⟩ : Shape).BroadcastsInDim (⟨2, ![n, c]⟩ : Shape) ![0, 1]) (j : Fin n) (q : Fin c) :
    broadcastInDim (⟨2, ![n, c]⟩ : Shape) ![0, 1] hb y (ix2 j q) = y (ix2 j (0 : Fin 1)) := by
  refine broadcastInDim_apply ![0, 1] hb y (ix2 j q) (ix2 j (0 : Fin 1)) fun ax => ?_
  match ax with
  | ⟨0, _⟩ =>
    show j.val = if n = 1 then 0 else j.val
    split
    · have := j.isLt; omega
    · rfl
  | ⟨1, _⟩ => rfl

/-- A vector `[n]` broadcast into the one-row matrix `[1, n]` reads, at `(u, q)`, the vector's entry `q`. -/
theorem rowOfVec_at {n : ℕ} (x : (⟨1, ![n]⟩ : Shape).Idx → α)
    (hd : (⟨1, ![n]⟩ : Shape).BroadcastsInDim (⟨2, ![1, n]⟩ : Shape) ![1]) (u : Fin 1) (q : Fin n) :
    broadcastInDim (⟨2, ![1, n]⟩ : Shape) ![1] hd x (ix2 u q) = x (ix1 q) := by
  refine broadcastInDim_apply ![1] hd x (ix2 u q) (ix1 q) fun ax => ?_
  match ax with
  | ⟨0, _⟩ =>
    show q.val = if n = 1 then 0 else q.val
    split
    · have := q.isLt; omega
    · rfl

/-- The column of a vector of positions at row `j`. -/
theorem col_at (a : IVec SE 32) (j : Fin 800000) (u : Fin 1) : col a (ix2 j u) = a (ix1 j) :=
  Cert.Rows.col_apply a bEE1 j u

/-- The column of the normalised positions at row `j`. -/
theorem wrappedCol_at (a : IVec SE 32) (j : Fin 800000) (u : Fin 1) :
    col (wrapped a) (ix2 j u) = Cert.Rows.wrap (a (ix1 j)) 50000#32 :=
  Cert.Rows.wrapCol_apply a 50000#32 b0E bEE1 j u

/-- A vector over the nodes gathered at the normalised positions reads, at edge `j`, the entry of the row the position
    of `j` names. -/
theorem gatherVec_wrapped (x : SN.Idx → α) (a : IVec SE 32) (j : Fin 800000) :
    Host.gather (Cert.Rows.vecDims 50000 800000 wfVec) x (col (wrapped a)) (ix1 j)
      = x (ix1 (Cert.GcnSpec.row (a (ix1 j)))) := by
  refine (Cert.Rows.gatherVec_apply (by decide) wfVec x (col (wrapped a)) j).trans ?_
  refine congrArg (fun r : Fin 50000 => x (ix1 r)) (Fin.ext ?_)
  show min (col (wrapped a) (ix2 j (0 : Fin 1))).toInt.toNat (50000 - 1)
      = min (Cert.Rows.wrap (a (ix1 j)) 50000#32).toInt.toNat (50000 - 1)
  rw [wrappedCol_at]

/-- A table over the nodes gathered at the normalised positions reads, at `(j, q)`, column `q` of the row the position
    of `j` names. -/
theorem gatherRows_wrapped (x : SNC.Idx → α) (a : IVec SE 32) (j : Fin 800000) (q : Fin 256) :
    Host.gather (Cert.Rows.rowsDims 50000 800000 256 wfRows) x (col (wrapped a)) (ix2 j q)
      = x (ix2 (Cert.GcnSpec.row (a (ix1 j))) q) := by
  refine (Cert.Rows.gatherRows_apply (by decide) wfRows x (col (wrapped a)) j q).trans ?_
  refine congrArg (fun r : Fin 50000 => x (ix2 r q)) (Fin.ext ?_)
  show min (col (wrapped a) (ix2 j (0 : Fin 1))).toInt.toNat (50000 - 1)
      = min (Cert.Rows.wrap (a (ix1 j)) 50000#32).toInt.toNat (50000 - 1)
  rw [wrappedCol_at]

/-! ## The stages at an index -/

/-- A scalar constant broadcast to any shape reads the constant's value everywhere. -/
theorem scalar_at {T : Shape} (hb : S0.BroadcastsInDim T (![] : Fin 0 → Fin T.rank)) (bits : BitVec 32) (j : T.Idx) :
    broadcastInDim T ![] hb (constant (F := Ideal) S0 .f32 bits) j = Ideal.ofBits .f32 bits := by
  rw [broadcastInDim_scalar_apply, constant_apply]

/-- The host's reciprocal square root of an array, at an index. -/
theorem hostRsqrt_at {s : Shape} (x : FVec Ideal s .f32) (j : s.Idx) : Host.rsqrt x j = Ideal.rsqrt (x j) := rfl

/-- The host's quotient of two arrays, at an index. -/
theorem hostDivf_at {s : Shape} (x y : FVec Ideal s .f32) (j : s.Idx) : Host.divf x y j = Ideal.div (x j) (y j) := rfl

/-- The accumulating scatter of one entry per edge into a vector over the nodes, at node `i`: what was there plus the
    entries of the edges whose position, read signed, is `i`. -/
theorem countScatter_host (x : SN.Idx → EReal) (idx : IVec SE1 32) (upd : SE.Idx → EReal) (i : Fin 50000) :
    Host.scatterAdd (F := Ideal) (φ := .f32) (ScatterDims.mk (s := SN) (si := SE1) (u := SE) [] [0] [0] 1 wfCount)
        x idx upd (ix1 i)
      = x (ix1 i) + ∑ j : Fin 800000, if (idx (ix2 j (0 : Fin 1))).toInt = (i.val : ℤ) then upd (ix1 j) else 0 :=
  Cert.ScatterAddCol.hostScatterAdd_apply wfCount x idx upd i

/-- The number of edges arriving at node `i`: zero plus one for every edge whose target position is `i`. -/
theorem countV_apply (dst : IVec SE 32) (i : Fin 50000) :
    countV dst (ix1 i)
      = Cert.GcnSpec.z + ∑ e : Fin 800000, if (dst (ix1 e)).toInt = (i.val : ℤ) then Cert.GcnSpec.one else 0 := by
  unfold countV
  rw [countScatter_host, scalar_at]
  refine congrArg (fun t => Cert.GcnSpec.z + t) (Finset.sum_congr rfl fun j _ => ?_)
  rw [col_at, scalar_at]

/-- A node's degree is the specification's. -/
theorem degV_apply (dst : IVec SE 32) (i : Fin 50000) :
    degV dst (ix1 i) = Cert.GcnSpec.deg (fun e => dst (ix1 e)) i := by
  unfold degV Cert.GcnSpec.deg
  rw [addf_apply, countV_apply, scalar_at]

/-- A node's factor is the specification's. -/
theorem dinvV_apply (dst : IVec SE 32) (i : Fin 50000) :
    dinvV dst (ix1 i) = Cert.GcnSpec.dinv (fun e => dst (ix1 e)) i := by
  unfold dinvV Cert.GcnSpec.dinv
  rw [hostRsqrt_at, degV_apply]

/-- An edge's weight: the factors of the rows its two positions name. -/
theorem normV_apply (src dst : IVec SE 32) (j : Fin 800000) :
    normV src dst (ix1 j)
      = Cert.GcnSpec.dinv (fun e => dst (ix1 e)) (Cert.GcnSpec.row (src (ix1 j)))
        * Cert.GcnSpec.dinv (fun e => dst (ix1 e)) (Cert.GcnSpec.row (dst (ix1 j))) := by
  unfold normV
  rw [mulf_apply, gatherVec_wrapped, gatherVec_wrapped, dinvV_apply, dinvV_apply]

/-- An edge's message at column `q`. -/
theorem msgV_apply (h : FVec Ideal SNC .f32) (src dst : IVec SE 32) (j : Fin 800000) (q : Fin 256) :
    msgV h src dst (ix2 j q)
      = h (ix2 (Cert.GcnSpec.row (src (ix1 j))) q)
        * (Cert.GcnSpec.dinv (fun e => dst (ix1 e)) (Cert.GcnSpec.row (src (ix1 j)))
          * Cert.GcnSpec.dinv (fun e => dst (ix1 e)) (Cert.GcnSpec.row (dst (ix1 j)))) := by
  unfold msgV
  rw [mulf_apply, gatherRows_wrapped, colBcast_at, Cert.Rows.col_apply (normV src dst) bEE1 j 0, normV_apply]

/-- The table of arrivals at `(i, q)`: zero plus the messages of the edges whose target position is `i`. -/
theorem aggV_apply (h : FVec Ideal SNC .f32) (src dst : IVec SE 32) (i : Fin 50000) (q : Fin 256) :
    aggV h src dst (ix2 i q)
      = Cert.GcnSpec.z + ∑ e : Fin 800000, if (dst (ix1 e)).toInt = (i.val : ℤ) then
          h (ix2 (Cert.GcnSpec.row (src (ix1 e))) q)
            * (Cert.GcnSpec.dinv (fun e => dst (ix1 e)) (Cert.GcnSpec.row (src (ix1 e)))
              * Cert.GcnSpec.dinv (fun e => dst (ix1 e)) (Cert.GcnSpec.row (dst (ix1 e)))) else 0 := by
  unfold aggV
  rw [Cert.HostScatterRows.scatterAddRows_host, scalar_at]
  refine congrArg (fun t => Cert.GcnSpec.z + t) (Finset.sum_congr rfl fun j _ => ?_)
  rw [col_at, msgV_apply]

/-- The node's own term at `(i, q)`: its row over its degree. -/
theorem selfV_apply (h : FVec Ideal SNC .f32) (dst : IVec SE 32) (i : Fin 50000) (q : Fin 256) :
    selfV h dst (ix2 i q) = h (ix2 i q) * Ideal.div Cert.GcnSpec.one (Cert.GcnSpec.deg (fun e => dst (ix1 e)) i) := by
  unfold selfV
  rw [mulf_apply, colBcast_at, Cert.Rows.col_apply _ bNN1 i 0, hostDivf_at, scalar_at, degV_apply]

/-- The bias at `(i, q)`. -/
theorem biasV_apply (b : FVec Ideal SC .f32) (i : Fin 50000) (q : Fin 256) : biasV b (ix2 i q) = b (ix1 q) := by
  unfold biasV
  rw [broadcastInDim_oneRow_apply, rowOfVec_at]

/-- One layer at `(i, q)` is the specification's layer of the same operands. -/
theorem layer_apply (h : FVec Ideal SNC .f32) (src dst : IVec SE 32) (b : FVec Ideal SC .f32) (i : Fin 50000)
    (q : Fin 256) :
    layer h src dst b (ix2 i q)
      = Cert.GcnSpec.refConv (fun e => src (ix1 e)) (fun e => dst (ix1 e)) (fun i k => h (ix2 i k))
          (fun q => b (ix1 q)) i q := by
  unfold layer Cert.GcnSpec.refConv
  rw [addf_apply, addf_apply, aggV_apply, selfV_apply, biasV_apply]

end Cert.RefSide

end
-- ==== Proof.RefViews.lean ====
/-
  The host program's two results are two layers of the specification's graph convolution.

  The program computes, for each of its two views, a matrix product of the node features with the first weights, one
  layer of graph convolution over the view's edges, the positive part, a matrix product with the second weights, and a
  second layer over the same edges. Each of the four layers is, stage by stage, the term `layer` of the operands it is
  given (its table of rows, the source and target rows of the view's edge array, its bias), so each is the specification's
  `refConv` entry by entry; the matrix products are the specification's `mm`, the positive part its `relu`; the source
  and target positions of edge `e` are rows 0 and 1 of the edge array at column `e`.
-/
import proofs.«179631_j7301444403487_2_alg».proof.Proof.Gen.ReferenceIdeal.Read
import proofs.«179631_j7301444403487_2_alg».proof.Proof.RefLayer

noncomputable section

namespace Cert.RefSide

open Cert.ReferenceIdeal Cert.ReferenceIdeal.Gen Cert.ReferenceIdeal.Read
open Idealize.ShloMosaic Idealize.ShloMosaic.ValueIdx
open scoped BigOperators

/-! ## View 1 -/

/-- The source position of edge `e` in view 1: row 0 of the edge array at column `e`. -/
theorem src1_at (x2 : (⟨S2x800000, .i32⟩ : BufTy).Contents (Elt Ideal)) (e : Fin 800000) :
    val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

/-- The target position of edge `e` in view 1: row 1 of the edge array at column `e`. -/
theorem dst1_at (x2 : (⟨S2x800000, .i32⟩ : BufTy).Contents (Elt Ideal)) (e : Fin 800000) :
    val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

/-- The first matrix product of view 1 at `(i, q)`. -/
theorem mmA1_at (x0 : (⟨S50000x512, .f32⟩ : BufTy).Contents (Elt Ideal)) (x4 : (⟨S512x256, .f32⟩ : BufTy).Contents (Elt Ideal)) (i : Fin 50000) (q : Fin 256) :
    val_main_v4 (F := Ideal) x0 x4 (ix2 i q) = Cert.GcnSpec.mm (fun i k => x0 (ix2 i k)) (fun k q => x4 (ix2 k q)) i q := by
  rw [val_main_v4_apply]
  unfold Cert.GcnSpec.mm
  refine Finset.sum_congr rfl fun k _ => ?_
  have el : lidx_main_v4 (ix2 i q) k = ix2 i k :=
    funext fun a => Fin.ext (by match a with | ⟨0, _⟩ => rfl | ⟨1, _⟩ => rfl)
  have er : ridx_main_v4 (ix2 i q) k = ix2 k q :=
    funext fun a => Fin.ext (by match a with | ⟨0, _⟩ => rfl | ⟨1, _⟩ => rfl)
  rw [el, er]

/-- The first layer of view 1 is the layer term of the first matrix product, the two rows of the edge array and the
    first bias. -/
theorem layerA1_eq (x0 : (⟨S50000x512, .f32⟩ : BufTy).Contents (Elt Ideal)) (x2 : (⟨S2x800000, .i32⟩ : BufTy).Contents (Elt Ideal)) (x4 : (⟨S512x256, .f32⟩ : BufTy).Contents (Elt Ideal)) (x5 : (⟨S256, .f32⟩ : BufTy).Contents (Elt Ideal)) :
    val_main_v48 (F := Ideal) x0 x2 x4 x5
      = layer (val_main_v4 (F := Ideal) x0 x4) (val_main_v1 (F := Ideal) x2) (val_main_v3 (F := Ideal) x2) x5 := rfl

/-- The first layer of view 1 at `(i, q)` is the specification's. -/
theorem layerA1_at (x0 : (⟨S50000x512, .f32⟩ : BufTy).Contents (Elt Ideal)) (x2 : (⟨S2x800000, .i32⟩ : BufTy).Contents (Elt Ideal)) (x4 : (⟨S512x256, .f32⟩ : BufTy).Contents (Elt Ideal)) (x5 : (⟨S256, .f32⟩ : BufTy).Contents (Elt Ideal)) (i : Fin 50000) (q : Fin 256) :
    val_main_v48 (F := Ideal) x0 x2 x4 x5 (ix2 i q)
      = Cert.GcnSpec.refConv (fun e => x2 (ix2 (0 : Fin 2) e)) (fun e => x2 (ix2 (1 : Fin 2) e)) (Cert.GcnSpec.mm (fun i k => x0 (ix2 i k)) (fun k q => x4 (ix2 k q))) (fun q => x5 (ix1 q)) i q := by
  rw [layerA1_eq, layer_apply]
  simp only [src1_at, dst1_at, mmA1_at]

/-- The positive part of the first layer of view 1 at `(i, q)`. -/
theorem hidden1_at (x0 : (⟨S50000x512, .f32⟩ : BufTy).Contents (Elt Ideal)) (x2 : (⟨S2x800000, .i32⟩ : BufTy).Contents (Elt Ideal)) (x4 : (⟨S512x256, .f32⟩ : BufTy).Contents (Elt Ideal)) (x5 : (⟨S256, .f32⟩ : BufTy).Contents (Elt Ideal)) (i : Fin 50000) (q : Fin 256) :
    val_main_v49 (F := Ideal) x0 x2 x4 x5 (ix2 i q)
      = Cert.GcnSpec.relu (Cert.GcnSpec.refConv (fun e => x2 (ix2 (0 : Fin 2) e)) (fun e => x2 (ix2 (1 : Fin 2) e)) (Cert.GcnSpec.mm (fun i k => x0 (ix2 i k)) (fun k q => x4 (ix2 k q))) (fun q => x5 (ix1 q)) i q) := by
  rw [val_main_v49_apply, val_main_call0_v0_apply, val_main_call0_cst_apply, layerA1_at, Ideal.maximumf_def,
    Ideal.ofBits_def]
  rfl

/-- The second matrix product of view 1 at `(i, q)`. -/
theorem mmB1_at (x0 : (⟨S50000x512, .f32⟩ : BufTy).Contents (Elt Ideal)) (x2 : (⟨S2x800000, .i32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (i : Fin 50000) (q : Fin 256) :
    val_main_v50 (F := Ideal) x0 x2 x4 x5 x6 (ix2 i q)
      = Cert.GcnSpec.mm (fun i k => val_main_v49 (F := Ideal) x0 x2 x4 x5 (ix2 i k)) (fun k q => x6 (ix2 k q)) i q := by
  rw [val_main_v50_apply]
  unfold Cert.GcnSpec.mm
  refine Finset.sum_congr rfl fun k _ => ?_
  have el : lidx_main_v50 (ix2 i q) k = ix2 i k :=
    funext fun a => Fin.ext (by match a with | ⟨0, _⟩ => rfl | ⟨1, _⟩ => rfl)
  have er : ridx_main_v50 (ix2 i q) k = ix2 k q :=
    funext fun a => Fin.ext (by match a with | ⟨0, _⟩ => rfl | ⟨1, _⟩ => rfl)
  rw [el, er]

/-- The second layer of view 1 is the layer term of the second matrix product, the same two rows of the edge array and
    the second bias. -/
theorem layerB1_eq (x0 : (⟨S50000x512, .f32⟩ : BufTy).Contents (Elt Ideal)) (x2 : (⟨S2x800000, .i32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v94 (F := Ideal) x0 x2 x4 x5 x6 x7
      = layer (val_main_v50 (F := Ideal) x0 x2 x4 x5 x6) (val_main_v1 (F := Ideal) x2) (val_main_v3 (F := Ideal) x2) x7 := rfl

/-- The result of view 1 at `(i, q)`: two layers of the specification's reference form. -/
theorem view1 (x0 : (⟨S50000x512, .f32⟩ : BufTy).Contents (Elt Ideal)) (x2 : (⟨S2x800000, .i32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (i : Fin 50000) (q : Fin 256) :
    val_main_v94 (F := Ideal) x0 x2 x4 x5 x6 x7 (ix2 i q)
      = Cert.GcnSpec.twoLayers (Cert.GcnSpec.refConv (fun e => x2 (ix2 (0 : Fin 2) e)) (fun e => x2 (ix2 (1 : Fin 2) e)))
          (fun i k => x0 (ix2 i k)) (fun k q => x4 (ix2 k q)) (fun q => x5 (ix1 q)) (fun k q => x6 (ix2 k q)) (fun q => x7 (ix1 q)) i q := by
  rw [layerB1_eq, layer_apply]
  simp only [src1_at, dst1_at, mmB1_at, hidden1_at]
  rfl

/-! ## View 2 -/

/-- The source position of edge `e` in view 2: row 0 of the edge array at column `e`. -/
theorem src2_at (x3 : (⟨S2x800000, .i32⟩ : BufTy).Contents (Elt Ideal)) (e : Fin 800000) :
    val_main_v96 (F := Ideal) x3 (ix1 e) = x3 (ix2 (0 : Fin 2) e) := by
  rw [val_main_v96_apply, val_main_v95_apply]
  refine congrArg x3 (funext fun a => Fin.ext ?_)
  match a with
  | ⟨0, _⟩ => rfl
  | ⟨1, _⟩ => exact Nat.mod_eq_of_lt e.isLt

/-- The target position of edge `e` in view 2: row 1 of the edge array at column `e`. -/
theorem dst2_at (x3 : (⟨S2x800000, .i32⟩ : BufTy).Contents (Elt Ideal)) (e : Fin 800000) :
    val_main_v98 (F := Ideal) x3 (ix1 e) = x3 (ix2 (1 : Fin 2) e) := by
  rw [val_main_v98_apply, val_main_v97_apply]
  refine congrArg x3 (funext fun a => Fin.ext ?_)
  match a with
  | ⟨0, _⟩ => rfl
  | ⟨1, _⟩ => exact Nat.mod_eq_of_lt e.isLt

/-- The first matrix product of view 2 at `(i, q)`. -/
theorem mmA2_at (x1 : (⟨S50000x512, .f32⟩ : BufTy).Contents (Elt Ideal)) (x4 : (⟨S512x256, .f32⟩ : BufTy).Contents (Elt Ideal)) (i : Fin 50000) (q : Fin 256) :
    val_main_v99 (F := Ideal) x1 x4 (ix2 i q) = Cert.GcnSpec.mm (fun i k => x1 (ix2 i k)) (fun k q => x4 (ix2 k q)) i q := by
  rw [val_main_v99_apply]
  unfold Cert.GcnSpec.mm
  refine Finset.sum_congr rfl fun k _ => ?_
  have el : lidx_main_v99 (ix2 i q) k = ix2 i k :=
    funext fun a => Fin.ext (by match a with | ⟨0, _⟩ => rfl | ⟨1, _⟩ => rfl)
  have er : ridx_main_v99 (ix2 i q) k = ix2 k q :=
    funext fun a => Fin.ext (by match a with | ⟨0, _⟩ => rfl | ⟨1, _⟩ => rfl)
  rw [el, er]

/-- The first layer of view 2 is the layer term of the first matrix product, the two rows of the edge array and the
    first bias. -/
theorem layerA2_eq (x1 : (⟨S50000x512, .f32⟩ : BufTy).Contents (Elt Ideal)) (x3 : (⟨S2x800000, .i32⟩ : BufTy).Contents (Elt Ideal)) (x4 : (⟨S512x256, .f32⟩ : BufTy).Contents (Elt Ideal)) (x5 : (⟨S256, .f32⟩ : BufTy).Contents (Elt Ideal)) :
    val_main_v143 (F := Ideal) x1 x3 x4 x5
      = layer (val_main_v99 (F := Ideal) x1 x4) (val_main_v96 (F := Ideal) x3) (val_main_v98 (F := Ideal) x3) x5 := rfl

/-- The first layer of view 2 at `(i, q)` is the specification's. -/
theorem layerA2_at (x1 : (⟨S50000x512, .f32⟩ : BufTy).Contents (Elt Ideal)) (x3 : (⟨S2x800000, .i32⟩ : BufTy).Contents (Elt Ideal)) (x4 : (⟨S512x256, .f32⟩ : BufTy).Contents (Elt Ideal)) (x5 : (⟨S256, .f32⟩ : BufTy).Contents (Elt Ideal)) (i : Fin 50000) (q : Fin 256) :
    val_main_v143 (F := Ideal) x1 x3 x4 x5 (ix2 i q)
      = Cert.GcnSpec.refConv (fun e => x3 (ix2 (0 : Fin 2) e)) (fun e => x3 (ix2 (1 : Fin 2) e)) (Cert.GcnSpec.mm (fun i k => x1 (ix2 i k)) (fun k q => x4 (ix2 k q))) (fun q => x5 (ix1 q)) i q := by
  rw [layerA2_eq, layer_apply]
  simp only [src2_at, dst2_at, mmA2_at]

/-- The positive part of the first layer of view 2 at `(i, q)`. -/
theorem hidden2_at (x1 : (⟨S50000x512, .f32⟩ : BufTy).Contents (Elt Ideal)) (x3 : (⟨S2x800000, .i32⟩ : BufTy).Contents (Elt Ideal)) (x4 : (⟨S512x256, .f32⟩ : BufTy).Contents (Elt Ideal)) (x5 : (⟨S256, .f32⟩ : BufTy).Contents (Elt Ideal)) (i : Fin 50000) (q : Fin 256) :
    val_main_v144 (F := Ideal) x1 x3 x4 x5 (ix2 i q)
      = Cert.GcnSpec.relu (Cert.GcnSpec.refConv (fun e => x3 (ix2 (0 : Fin 2) e)) (fun e => x3 (ix2 (1 : Fin 2) e)) (Cert.GcnSpec.mm (fun i k => x1 (ix2 i k)) (fun k q => x4 (ix2 k q))) (fun q => x5 (ix1 q)) i q) := by
  rw [val_main_v144_apply, val_main_call1_v0_apply, val_main_call1_cst_apply, layerA2_at, Ideal.maximumf_def,
    Ideal.ofBits_def]
  rfl

/-- The second matrix product of view 2 at `(i, q)`. -/
theorem mmB2_at (x1 : (⟨S50000x512, .f32⟩ : BufTy).Contents (Elt Ideal)) (x3 : (⟨S2x800000, .i32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (i : Fin 50000) (q : Fin 256) :
    val_main_v145 (F := Ideal) x1 x3 x4 x5 x6 (ix2 i q)
      = Cert.GcnSpec.mm (fun i k => val_main_v144 (F := Ideal) x1 x3 x4 x5 (ix2 i k)) (fun k q => x6 (ix2 k q)) i q := by
  rw [val_main_v145_apply]
  unfold Cert.GcnSpec.mm
  refine Finset.sum_congr rfl fun k _ => ?_
  have el : lidx_main_v145 (ix2 i q) k = ix2 i k :=
    funext fun a => Fin.ext (by match a with | ⟨0, _⟩ => rfl | ⟨1, _⟩ => rfl)
  have er : ridx_main_v145 (ix2 i q) k = ix2 k q :=
    funext fun a => Fin.ext (by match a with | ⟨0, _⟩ => rfl | ⟨1, _⟩ => rfl)
  rw [el, er]

/-- The second layer of view 2 is the layer term of the second matrix product, the same two rows of the edge array and
    the second bias. -/
theorem layerB2_eq (x1 : (⟨S50000x512, .f32⟩ : BufTy).Contents (Elt Ideal)) (x3 : (⟨S2x800000, .i32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v189 (F := Ideal) x1 x3 x4 x5 x6 x7
      = layer (val_main_v145 (F := Ideal) x1 x3 x4 x5 x6) (val_main_v96 (F := Ideal) x3) (val_main_v98 (F := Ideal) x3) x7 := rfl

/-- The result of view 2 at `(i, q)`: two layers of the specification's reference form. -/
theorem view2 (x1 : (⟨S50000x512, .f32⟩ : BufTy).Contents (Elt Ideal)) (x3 : (⟨S2x800000, .i32⟩ : BufTy).Contents (Elt Ideal)) (x4 : (⟨S512x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (i : Fin 50000) (q : Fin 256) :
    val_main_v189 (F := Ideal) x1 x3 x4 x5 x6 x7 (ix2 i q)
      = Cert.GcnSpec.twoLayers (Cert.GcnSpec.refConv (fun e => x3 (ix2 (0 : Fin 2) e)) (fun e => x3 (ix2 (1 : Fin 2) e)))
          (fun i k => x1 (ix2 i k)) (fun k q => x4 (ix2 k q)) (fun q => x5 (ix1 q)) (fun k q => x6 (ix2 k q)) (fun q => x7 (ix1 q)) i q := by
  rw [layerB2_eq, layer_apply]
  simp only [src2_at, dst2_at, mmB2_at, hidden2_at]
  rfl

end Cert.RefSide

end
-- ==== Proof.LibScaleSum.lean ====
/-
  A nonnegative finite factor moves across a finite sum of extended reals.

  On the extended reals multiplication does not distribute over addition in general (∞ − ∞ spoils it), but it does for a
  factor `r` with `0 ≤ r < ⊤`. Hence, for any families `a`, `b` of extended reals,
  `∑ k, (a k · r) · b k = (∑ k, a k · b k) · r`: scaling one factor of every product of an inner product scales the inner
  product — with no assumption on `a` or `b`.
-/
import Mathlib.Data.EReal.Operations
import Mathlib.Data.EReal.Inv
import Mathlib.Algebra.BigOperators.Group.Finset.Basic

namespace Cert.LibScaleSum

open scoped BigOperators

/-- A nonnegative finite factor distributes over a finite sum of extended reals. -/
theorem mul_sum_of_nonneg_of_ne_top {ι : Type*} (s : Finset ι) (f : ι → EReal) {r : EReal} (h0 : 0 ≤ r) (ht : r ≠ ⊤) :
    r * ∑ k ∈ s, f k = ∑ k ∈ s, r * f k := by
  classical
  induction s using Finset.induction_on with
  | empty => simp
  | insert i s hi ih =>
    rw [Finset.sum_insert hi, Finset.sum_insert hi, EReal.left_distrib_of_nonneg_of_ne_top h0 ht, ih]

/-- Scaling the left factor of every product by a nonnegative finite `r` scales the sum of products by `r`. -/
theorem sum_scale_left {ι : Type*} (s : Finset ι) (a b : ι → EReal) {r : EReal} (h0 : 0 ≤ r) (ht : r ≠ ⊤) :
    ∑ k ∈ s, (a k * r) * b k = (∑ k ∈ s, a k * b k) * r := by
  rw [mul_comm (∑ k ∈ s, a k * b k) r, mul_sum_of_nonneg_of_ne_top s _ h0 ht]
  refine Finset.sum_congr rfl fun k _ => ?_
  rw [mul_comm (a k) r, mul_assoc]

/-- The same with the two factors of each product exchanged on the right-hand side. -/
theorem sum_scale_left_comm {ι : Type*} (s : Finset ι) (a b : ι → EReal) {r : EReal} (h0 : 0 ≤ r) (ht : r ≠ ⊤) :
    ∑ k ∈ s, (a k * r) * b k = (∑ k ∈ s, b k * a k) * r := by
  rw [sum_scale_left s a b h0 ht]
  exact congrArg (· * r) (Finset.sum_congr rfl fun k _ => mul_comm _ _)

end Cert.LibScaleSum
-- ==== Proof.LibGcnNorm.lean ====
/-
  The arithmetic of a symmetric-normalised graph-convolution layer on the extended reals.

  A node's degree `deg` is turned into the factor `deg ^ (-1/2)` where `deg > 0` and `0` elsewhere. Whatever the degree
  is — any extended real — that factor is a nonnegative real: a positive real to a real power is a positive real, and
  `⊤` to a negative power is `0`.

  One form of the layer scales every message by the product of the factors of its two ends and then adds the messages
  that arrive at a node; the other scales a message by its source's factor only, adds, and scales the total by the
  node's own factor. A message arriving at node `p` has `p` as its target, so both forms add the same terms once the
  node's factor is moved across the sum — which on the extended reals is allowed for a factor `r` with `0 ≤ r < ⊤`,
  and asks nothing of the messages themselves.
-/
import Idealize.ShloMosaic.PureOps.Ideal
import proofs.«179631_j7301444403487_2_alg».proof.Proof.LibScaleSum

noncomputable section

namespace Cert.Gcn.Law

open Idealize.ShloMosaic
open scoped BigOperators

/-- The word of `+0.0` denotes `0`. -/
theorem ofBits_zero : Ideal.ofBits .f32 0x00000000#32 = 0 := by
  simp [Ideal.ofBits, Ideal.ieee]

/-- The word of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- A positive extended real to a negative real power is a nonnegative real. -/
theorem pow_neg_range (x : EReal) (hx : 0 < x) (y : ℝ) (hy : y < 0) :
    0 ≤ Ideal.pow x (y : EReal) ∧ Ideal.pow x (y : EReal) ≠ ⊤ := by
  induction x using EReal.rec with
  | bot => exact absurd hx (by simp)
  | top =>
    have h1 : ¬ (0 : EReal) < (y : EReal) := by
      rw [not_lt]; exact_mod_cast hy.le
    have h2 : ((y : ℝ) : EReal) ≠ 0 := by exact_mod_cast hy.ne
    have e : Ideal.pow ⊤ (y : EReal) = 0 := by
      show (if (0 : EReal) < (y : EReal) then (⊤ : EReal) else if (y : EReal) = 0 then 1 else 0) = 0
      rw [if_neg h1, if_neg h2]
    rw [e]; exact ⟨le_rfl, EReal.zero_ne_top⟩
  | coe r =>
    have hr : 0 < r := by exact_mod_cast hx
    rw [Ideal.pow_coe_coe]
    exact ⟨by exact_mod_cast Real.rpow_nonneg hr.le y, EReal.coe_ne_top _⟩

/-- The normalising factor of a degree: `deg ^ (-1/2)` where the degree is positive, `0` elsewhere. -/
def invSqrt (x : EReal) : EReal := if 0 < x then Ideal.pow x ((-(1 / 2) : ℝ) : EReal) else 0

/-- The normalising factor is a nonnegative real, whatever the degree. -/
theorem invSqrt_range (x : EReal) : 0 ≤ invSqrt x ∧ invSqrt x ≠ ⊤ := by
  unfold invSqrt
  by_cases hx : 0 < x
  · rw [if_pos hx]; exact pow_neg_range x hx _ (by norm_num)
  · rw [if_neg hx]; exact ⟨le_rfl, EReal.zero_ne_top⟩

/-- Scaling the total by the target's factor is scaling every arriving message by it: for `0 ≤ r < ⊤`, messages
    `a j` with source factors `ds j` and target factors `dt j`, where a message selected by `P` has target factor `r`. -/
theorem scale_arrivals {ι : Type*} [Fintype ι] (r : EReal) (h0 : 0 ≤ r) (ht : r ≠ ⊤) (P : ι → Prop) [DecidablePred P]
    (a ds dt : ι → EReal) (hc : ∀ j, P j → dt j = r) :
    r * (0 + ∑ j, if P j then a j * ds j else 0) = 0 + ∑ j, if P j then a j * (ds j * dt j) else 0 := by
  rw [zero_add, zero_add, Cert.LibScaleSum.mul_sum_of_nonneg_of_ne_top _ _ h0 ht]
  refine Finset.sum_congr rfl fun j _ => ?_
  by_cases hj : P j
  · rw [if_pos hj, if_pos hj, hc j hj, mul_comm r (a j * ds j), mul_assoc]
  · rw [if_neg hj, if_neg hj, mul_zero]

end Cert.Gcn.Law

end
-- ==== Proof.Law.lean ====
/-
  The two forms of a symmetric-normalised graph-convolution layer agree, entry by entry on the extended reals.

  A node's degree is a count of arriving edges plus one: a real number, at least 1. Its factor, the reciprocal square
  root of the degree, is therefore a nonnegative real, and its square is the reciprocal of the degree. An edge arriving
  at node `i` has a target word that, read signed, is `i`; such a word is not negative and lies inside the table, so
  the row it names is `i` itself. With these facts the node's factor moves across the sum of the arriving messages, and
  the layer that scales the total is the layer that scales every message.
-/
import proofs.«179631_j7301444403487_2_alg».proof.Proof.Spec
import proofs.«179631_j7301444403487_2_alg».proof.Proof.LibGcnNorm

noncomputable section

namespace Cert.GcnSpec

open Idealize.ShloMosaic
open scoped BigOperators

/-- The word of `+0.0` denotes `0`. -/
theorem z_eq : z = 0 := by
  simp [Ideal.ofBits, Ideal.ieee]

/-- The word of `1.0` denotes the real `1`. -/
theorem one_eq : one = ((1 : ℝ) : EReal) := by
  simp [Ideal.ofBits, Ideal.ieee, -EReal.coe_mul]
  norm_num

/-- A finite sum of terms each `0` or `1` is a nonnegative real. -/
theorem sum_indicator_real {ι : Type*} (s : Finset ι) (P : ι → Prop) [DecidablePred P] :
    ∃ r : ℝ, 0 ≤ r ∧ (∑ e ∈ s, if P e then ((1 : ℝ) : EReal) else 0) = (r : EReal) := by
  classical
  induction s using Finset.induction_on with
  | empty => exact ⟨0, le_rfl, by simp⟩
  | insert a s ha ih =>
    obtain ⟨r, hr, e⟩ := ih
    rw [Finset.sum_insert ha, e]
    by_cases h : P a
    · rw [if_pos h]
      exact ⟨1 + r, by linarith, (EReal.coe_add 1 r).symm⟩
    · rw [if_neg h, zero_add]
      exact ⟨r, hr, rfl⟩

/-- A node's degree is a real, at least `1`. -/
theorem deg_real (dst : Fin 800000 → BitVec 32) (i : Fin 50000) :
    ∃ r : ℝ, 1 ≤ r ∧ deg dst i = (r : EReal) := by
  obtain ⟨r, hr, e⟩ := sum_indicator_real (Finset.univ : Finset (Fin 800000))
    (fun e => (dst e).toInt = (i.val : ℤ))
  refine ⟨r + 1, by linarith, ?_⟩
  unfold deg
  rw [z_eq, one_eq, zero_add, e]
  exact (EReal.coe_add r 1).symm

/-- A node's factor is a nonnegative real. -/
theorem dinv_range (dst : Fin 800000 → BitVec 32) (i : Fin 50000) :
    0 ≤ dinv dst i ∧ dinv dst i ≠ ⊤ := by
  obtain ⟨r, hr, e⟩ := deg_real dst i
  unfold dinv
  rw [e, Ideal.rsqrt_coe, if_neg (by linarith), if_neg (by linarith)]
  exact ⟨by exact_mod_cast inv_nonneg.mpr (Real.sqrt_nonneg r), EReal.coe_ne_top _⟩

/-- The square of a node's factor is the reciprocal of its degree. -/
theorem dinv_sq (dst : Fin 800000 → BitVec 32) (i : Fin 50000) :
    dinv dst i * dinv dst i = Ideal.div one (deg dst i) := by
  obtain ⟨r, hr, e⟩ := deg_real dst i
  have hr0 : (0 : ℝ) ≤ r := by linarith
  unfold dinv
  rw [e, Ideal.rsqrt_coe, if_neg (by linarith), if_neg (by linarith), Ideal.div_coe (by linarith), one_eq,
    ← EReal.coe_mul, ← EReal.coe_mul, ← mul_inv, Real.mul_self_sqrt hr0, one_mul, one_div]

/-- A target word that, read signed, is a node names that node's row. -/
theorem row_of_arrives (v : BitVec 32) (i : Fin 50000) (h : v.toInt = (i.val : ℤ)) : row v = i := by
  have hi := i.isLt
  have hnn : ¬ v.slt 0#32 = true := by
    rw [BitVec.slt, decide_eq_true_eq, h]
    simp
  have hw : Cert.Rows.wrap v 50000#32 = v := by
    unfold Cert.Rows.wrap Scalar.select IntOp.cmpi
    simp [hnn]
  unfold row Cert.Rows.rowOf
  rw [hw]
  refine Fin.ext ?_
  show min v.toInt.toNat (50000 - 1) = i.val
  rw [h]
  simp
  omega

/-- The two forms of a layer agree. -/
theorem kerConv_eq_refConv (src dst : Fin 800000 → BitVec 32) : kerConv src dst = refConv src dst := by
  funext h b i q
  have key := Cert.Gcn.Law.scale_arrivals (dinv dst i) (dinv_range dst i).1 (dinv_range dst i).2
    (fun e : Fin 800000 => (dst e).toInt = (i.val : ℤ))
    (fun e => h (row (src e)) q) (fun e => dinv dst (row (src e))) (fun e => dinv dst (row (dst e)))
    (fun e he => by rw [row_of_arrives _ _ he])
  unfold kerConv refConv
  rw [z_eq, dinv_sq]
  exact congrArg (fun t => (t + h i q * Ideal.div one (deg dst i)) + b q) key

/-- Two layers built from either form agree. -/
theorem twoLayers_ker_eq_ref (src dst : Fin 800000 → BitVec 32)
    (x : Fin 50000 → Fin 512 → EReal) (W1 : Fin 512 → Fin 256 → EReal) (b1 : Fin 256 → EReal)
    (W2 : Fin 256 → Fin 256 → EReal) (b2 : Fin 256 → EReal) :
    twoLayers (kerConv src dst) x W1 b1 W2 b2 = twoLayers (refConv src dst) x W1 b1 W2 b2 := by
  rw [kerConv_eq_refConv]

end Cert.GcnSpec

end
-- ==== Proof.lean ====
/-
  Two views of a two-layer symmetric-normalised graph convolution: the kernel program against its reference, on the
  extended reals.

  Per view, with `deg i` one more than the number of edges arriving at node `i` and `dinv i = deg i ^ (-1/2)`, the
  reference's layer adds, over the edges arriving at `i`, the source's projected row times `dinv (source) · dinv (target)`,
  then the node's own row over `deg i`, then the bias. The kernel program's layer scales every projected row by its own
  node's factor once, adds the scaled rows over the arriving edges, multiplies the total by `dinv i`, and adds the node's
  own row times `dinv i · dinv i` and the bias. An edge arriving at `i` has `i` as its target, `dinv i` is a nonnegative
  real (the degree is a real number at least one), and a factor in `[0, ⊤)` moves across a finite sum of extended reals
  whatever the summands are; `dinv i · dinv i = 1 / deg i` because the degree is a positive real. So the two layers are one
  function of the projected rows, and so are two layers with the positive part between them (`Law`).

  The kernel program is six kernel regions among stretches of host operations. Its run ends with every long-lived buffer
  at the contents of the last boundary of the fold through the program (`KerRun`); each region leaves each output array
  at one whole-array function of the arrays it found (`KerReg0` … `KerReg5`), each host stretch is read operation by
  operation, and boundary by boundary each view's result buffer ends at one function `out` of the argument arrays
  (`KerFold1`, `KerFold2`), which entry by entry is the two kernel-form layers (`KerValue`). The reference's results,
  read one operation at a time, are entry by entry the two reference-form layers (`RefViews`). The three frames are the
  generated ones; the idealization rewrote no operation.
-/
import proofs.«179631_j7301444403487_2_alg».proof.Defs
import proofs.«179631_j7301444403487_2_alg».proof.Proof.Gen.Kernel
import proofs.«179631_j7301444403487_2_alg».proof.Proof.Gen.Kernel.Frame
import proofs.«179631_j7301444403487_2_alg».proof.Proof.Gen.KernelIdeal
import proofs.«179631_j7301444403487_2_alg».proof.Proof.Gen.KernelIdeal.Frame
import proofs.«179631_j7301444403487_2_alg».proof.Proof.Gen.ReferenceIdeal
import proofs.«179631_j7301444403487_2_alg».proof.Proof.Gen.ReferenceIdeal.Run
import proofs.«179631_j7301444403487_2_alg».proof.Proof.Gen.ReferenceIdeal.Read
import proofs.«179631_j7301444403487_2_alg».proof.Proof.Gen.Pre_finite_inputs
import proofs.«179631_j7301444403487_2_alg».proof.Proof.KerRun
import proofs.«179631_j7301444403487_2_alg».proof.Proof.KerFold2
import proofs.«179631_j7301444403487_2_alg».proof.Proof.KerValue
import proofs.«179631_j7301444403487_2_alg».proof.Proof.RefViews
import proofs.«179631_j7301444403487_2_alg».proof.Proof.Law

noncomputable section

namespace Cert.Proof

open Idealize.ShloMosaic Idealize.ShloMosaic.ValueIdx Idealize.SL.Sem

/-- The reference's result of a view, as a whole array, is the kernel program's function of the same arguments: entry by
    entry the first is two reference-form layers, the second two kernel-form layers, and the two forms agree. -/
theorem ref_view1_eq_out (x0 : (⟨Cert.ReferenceIdeal.S50000x512, .f32⟩ : BufTy).Contents (Elt Ideal)) (x2 : (⟨Cert.ReferenceIdeal.S2x800000, .i32⟩ : BufTy).Contents (Elt Ideal))
    (x4 : (⟨Cert.ReferenceIdeal.S512x256, .f32⟩ : BufTy).Contents (Elt Ideal)) (x5 : (⟨Cert.ReferenceIdeal.S256, .f32⟩ : BufTy).Contents (Elt Ideal))
    (x6 : (⟨Cert.ReferenceIdeal.S256x256, .f32⟩ : BufTy).Contents (Elt Ideal)) (x7 : (⟨Cert.ReferenceIdeal.S256, .f32⟩ : BufTy).Contents (Elt Ideal)) :
    Cert.ReferenceIdeal.Read.val_main_v94 (F := Ideal) x0 x2 x4 x5 x6 x7 = Cert.KerView.out x2 x0 x4 x5 x6 x7 := by
  funext idx
  obtain ⟨i, k, rfl⟩ : ∃ (i : Fin 50000) (k : Fin 256), idx = ix2 i k := ⟨idx 0, idx 1, eq_ix2 idx⟩
  rw [Cert.RefSide.view1, Cert.KerView.out_apply, Cert.GcnSpec.twoLayers_ker_eq_ref]

theorem ref_view2_eq_out (x1 : (⟨Cert.ReferenceIdeal.S50000x512, .f32⟩ : BufTy).Contents (Elt Ideal)) (x3 : (⟨Cert.ReferenceIdeal.S2x800000, .i32⟩ : BufTy).Contents (Elt Ideal))
    (x4 : (⟨Cert.ReferenceIdeal.S512x256, .f32⟩ : BufTy).Contents (Elt Ideal)) (x5 : (⟨Cert.ReferenceIdeal.S256, .f32⟩ : BufTy).Contents (Elt Ideal))
    (x6 : (⟨Cert.ReferenceIdeal.S256x256, .f32⟩ : BufTy).Contents (Elt Ideal)) (x7 : (⟨Cert.ReferenceIdeal.S256, .f32⟩ : BufTy).Contents (Elt Ideal)) :
    Cert.ReferenceIdeal.Read.val_main_v189 (F := Ideal) x1 x3 x4 x5 x6 x7 = Cert.KerView.out x3 x1 x4 x5 x6 x7 := by
  funext idx
  obtain ⟨i, k, rfl⟩ : ∃ (i : Fin 50000) (k : Fin 256), idx = ix2 i k := ⟨idx 0, idx 1, eq_ix2 idx⟩
  rw [Cert.RefSide.view2, Cert.KerView.out_apply, Cert.GcnSpec.twoLayers_ker_eq_ref]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs run, and each view's two results are the one function `out` of
    that view's features and edges and the shared weights. -/
theorem algebraic : Cert.algebraic_KernelIdeal_ReferenceIdeal := by
  intro m ρ m' ρ' _ hagree
  refine ⟨fun c => Cert.KerView.out (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KerView.out (m ((c.tc : Thread Cert.KernelIdeal.nD Cert.KernelIdeal.τ).loc Cert.KernelIdeal.main_arg3)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KerRun.run_results (F := Ideal) m ρ)
    obtain ⟨h39, h79, hargs⟩ := h c
    exact ⟨h39.trans (Cert.KerFold2.W12_v39 m ρ c), h79.trans (Cert.KerFold2.W12_v79 m ρ c), hargs⟩
  · refine (θ_run Cert.ReferenceIdeal.defs _ _).mono (fun r h c => ?_) (Cert.ReferenceIdeal.Value.run (F := Ideal) m' ρ')
    obtain ⟨h94, h189, hargs⟩ := h c
    obtain ⟨a0, a1, a2, a3, a4, a5, a6, a7⟩ := hagree c
    refine ⟨h94.trans ?_, h189.trans ?_, hargs⟩
    · rw [Cert.ReferenceIdeal.Read.val_main_v94_eq, a0, a2, a4, a5, a6, a7]
      exact ref_view1_eq_out _ _ _ _ _ _
    · rw [Cert.ReferenceIdeal.Read.val_main_v189_eq, a1, a3, a4, a5, a6, a7]
      exact ref_view2_eq_out _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
